-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512 : Shape := ⟨2, ![64, 512]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S64 .f32) (main_arg5 : FVec F S2x64 .f32) (main_arg6 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S131072x512 .f32) (main_arg1 : FVec F S64x512 .f32) (main_arg2 : FVec F S64 .f32) (main_arg3 : FVec F S64x64 .f32) (main_arg4 : FVec F S64 .f32) (main_arg5 : FVec F S2x64 .f32) (main_arg6 : FVec F S2 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S131072x512 : Shape := ⟨2, ![131072, 512]⟩
abbrev S64x512 : Shape := ⟨2, ![64, 512]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩
abbrev S512x64 : Shape := ⟨2, ![512, 64]⟩
abbrev S1x64 : Shape := ⟨2, ![1, 64]⟩
abbrev S131072x64 : Shape := ⟨2, ![131072, 64]⟩
abbrev S2x8x128 : Shape := ⟨3, ![2, 8, 128]⟩
abbrev S2048x512 : Shape := ⟨2, ![2048, 512]⟩
abbrev S2048x64 : Shape := ⟨2, ![2048, 64]⟩
abbrev S1x8x128 : Shape := ⟨3, ![1, 8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1x1 : Shape := ⟨3, ![1, 1, 1]⟩
abbrev S64x2 : Shape := ⟨2, ![64, 2]⟩
abbrev S1x2 : Shape := ⟨2, ![1, 2]⟩
abbrev S131072x2 : Shape := ⟨2, ![131072, 2]⟩
abbrev S2048x2 : Shape := ⟨2, ![2048, 2]⟩

abbrev nBuf : Space → Nat
  | .hbm => 158
  | .vmem => 25
  | .smem => 0
  | _ => 0

abbrev hbmTy0_0 (i : Nat) : BufTy := match i % 128 with
  | 0 => ⟨S131072x512, .f32⟩
  | 1 => ⟨S64x512, .f32⟩
  | 2 => ⟨S64, .f32⟩
  | 3 => ⟨S64x64, .f32⟩
  | 4 => ⟨S64, .f32⟩
  | 5 => ⟨S2x64, .f32⟩
  | 6 => ⟨S2, .f32⟩
  | 7 => ⟨S64x512, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S64x512, .f32⟩
  | 24 => ⟨S64x512, .f32⟩
  | 25 => ⟨S64x512, .f32⟩
  | 26 => ⟨S_, .f32⟩
  | 27 => ⟨S_, .f32⟩
  | 28 => ⟨S_, .f32⟩
  | 29 => ⟨S64x512, .f32⟩
  | 30 => ⟨S64x512, .f32⟩
  | 31 => ⟨S_, .f32⟩
  | 32 => ⟨S64x512, .f32⟩
  | 33 => ⟨S64x512, .f32⟩
  | 34 => ⟨S64x512, .f32⟩
  | 35 => ⟨S64x512, .f32⟩
  | 36 => ⟨S_, .f32⟩
  | 37 => ⟨S_, .f32⟩
  | 38 => ⟨S64, .f32⟩
  | 39 => ⟨S64, .f32⟩
  | 40 => ⟨S64, .f32⟩
  | 41 => ⟨S64, .f32⟩
  | 42 => ⟨S64, .f32⟩
  | 43 => ⟨S64x512, .bf16⟩
  | 44 => ⟨S512x64, .bf16⟩
  | 45 => ⟨S1x64, .f32⟩
  | 46 => ⟨S131072x64, .f32⟩
  | 47 => ⟨S2x8x128, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1x1, .f32⟩
  | 64 => ⟨S64x64, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S64x64, .f32⟩
  | 81 => ⟨S64x64, .f32⟩
  | 82 => ⟨S64x64, .f32⟩
  | 83 => ⟨S_, .f32⟩
  | 84 => ⟨S_, .f32⟩
  | 85 => ⟨S_, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S_, .f32⟩
  | 94 => ⟨S64, .f32⟩
  | 95 => ⟨S64, .f32⟩
  | 96 => ⟨S64, .f32⟩
  | 97 => ⟨S64, .f32⟩
  | 98 => ⟨S64, .f32⟩
  | 99 => ⟨S64x64, .bf16⟩
  | 100 => ⟨S64x64, .bf16⟩
  | 101 => ⟨S1x64, .f32⟩
  | 102 => ⟨S2x8x128, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S1x1, .f32⟩
  | 119 => ⟨S2x64, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S131072x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S2x64, .f32⟩
  | 8 => ⟨S2x64, .f32⟩
  | 9 => ⟨S2x64, .f32⟩
  | 10 => ⟨S_, .f32⟩
  | 11 => ⟨S_, .f32⟩
  | 12 => ⟨S_, .f32⟩
  | 13 => ⟨S2x64, .f32⟩
  | 14 => ⟨S2x64, .f32⟩
  | 15 => ⟨S_, .f32⟩
  | 16 => ⟨S2x64, .f32⟩
  | 17 => ⟨S2x64, .f32⟩
  | 18 => ⟨S2x64, .f32⟩
  | 19 => ⟨S2x64, .f32⟩
  | 20 => ⟨S_, .f32⟩
  | 21 => ⟨S2, .f32⟩
  | 22 => ⟨S2, .f32⟩
  | 23 => ⟨S2, .f32⟩
  | 24 => ⟨S2, .f32⟩
  | 25 => ⟨S2, .f32⟩
  | 26 => ⟨S2x64, .bf16⟩
  | 27 => ⟨S64x2, .bf16⟩
  | 28 => ⟨S1x2, .f32⟩
  | 29 => ⟨S131072x2, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S512x64, .bf16⟩
  | .local _ .vmem, ⟨3, _⟩ => ⟨S1x64, .f32⟩
  | .local _ .vmem, ⟨4, _⟩ => ⟨S2048x64, .f32⟩
  | .local _ .vmem, ⟨5, _⟩ => ⟨S2048x64, .f32⟩
  | .local _ .vmem, ⟨6, _⟩ => ⟨S1x8x128, .f32⟩
  | .local _ .vmem, ⟨7, _⟩ => ⟨S1x8x128, .f32⟩
  | .local _ .vmem, ⟨8, _⟩ => ⟨S2048x64, .f32⟩
  | .local _ .vmem, ⟨9, _⟩ => ⟨S2048x64, .f32⟩
  | .local _ .vmem, ⟨10, _⟩ => ⟨S1x1, .f32⟩
  | .local _ .vmem, ⟨11, _⟩ => ⟨S64x64, .bf16⟩
  | .local _ .vmem, ⟨12, _⟩ => ⟨S1x64, .f32⟩
  | .local _ .vmem, ⟨13, _⟩ => ⟨S1x8x128, .f32⟩
  | .local _ .vmem, ⟨14, _⟩ => ⟨S1x8x128, .f32⟩
  | .local _ .vmem, ⟨15, _⟩ => ⟨S2048x64, .f32⟩
  | .local _ .vmem, ⟨16, _⟩ => ⟨S2048x64, .f32⟩
  | .local _ .vmem, ⟨17, _⟩ => ⟨S1x1, .f32⟩
  | .local _ .vmem, ⟨18, _⟩ => ⟨S64x64, .bf16⟩
  | .local _ .vmem, ⟨19, _⟩ => ⟨S1x64, .f32⟩
  | .local _ .vmem, ⟨20, _⟩ => ⟨S1x1, .f32⟩
  | .local _ .vmem, ⟨21, _⟩ => ⟨S64x2, .bf16⟩
  | .local _ .vmem, ⟨22, _⟩ => ⟨S1x2, .f32⟩
  | .local _ .vmem, ⟨23, _⟩ => ⟨S2048x2, .f32⟩
  | .local _ .vmem, ⟨24, _⟩ => ⟨S2048x2, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_cst_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_cst_7 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_17 : Ref sig .tc := ⟨.hbm, 83, rfl⟩
abbrev main_cst_18 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_19 : Ref sig .tc := ⟨.hbm, 103, rfl⟩
abbrev main_v65 : Ref sig .tc := ⟨.hbm, 104, rfl⟩
abbrev main_cst_20 : Ref sig .tc := ⟨.hbm, 105, rfl⟩
abbrev main_v66 : Ref sig .tc := ⟨.hbm, 106, rfl⟩
abbrev main_cst_21 : Ref sig .tc := ⟨.hbm, 107, rfl⟩
abbrev main_v67 : Ref sig .tc := ⟨.hbm, 108, rfl⟩
abbrev main_v68 : Ref sig .tc := ⟨.hbm, 109, rfl⟩
abbrev main_cst_22 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_23 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_24 : Ref sig .tc := ⟨.hbm, 120, rfl⟩
abbrev main_v77 : Ref sig .tc := ⟨.hbm, 121, rfl⟩
abbrev main_cst_25 : Ref sig .tc := ⟨.hbm, 122, rfl⟩
abbrev main_v78 : Ref sig .tc := ⟨.hbm, 123, rfl⟩
abbrev main_cst_26 : Ref sig .tc := ⟨.hbm, 124, rfl⟩
abbrev main_v79 : Ref sig .tc := ⟨.hbm, 125, rfl⟩
abbrev main_v80 : Ref sig .tc := ⟨.hbm, 126, rfl⟩
abbrev main_cst_27 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_28 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_29 : Ref sig .tc := ⟨.hbm, 138, rfl⟩
abbrev main_cst_30 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_call7_v3 : Ref sig .tc := ⟨.hbm, 143, rfl⟩
abbrev main_call7_v4 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  reducesTo_S64x512_S_d0_1 : S64x512.ReducesTo [0, 1] S_
  h_S_ : 0 < S_.numel
  bcast_S_S_ : S_.BroadcastsInDim S_ (![] : Fin 0 → Fin S_.rank)
  bcast_S_S64x512 : S_.BroadcastsInDim S64x512 (![] : Fin 0 → Fin S64x512.rank)
  bcast_S_S64 : S_.BroadcastsInDim S64 (![] : Fin 0 → Fin S64.rank)
  bitsLt_bf16_f32 : FTy.bits .bf16 < FTy.bits .f32
  transposes_S64x512_S512x64_1_0 : S64x512.Transposes [1, 0] S512x64
  shapeCasts_S64_S1x64 : S64.ShapeCasts S1x64
  inb_S1x8x128_S1x8x128_0_0_0 : ∀ a, (![0, 0, 0] : Fin 3 → Nat) a + S1x8x128.size a ≤ S1x8x128.size a
  h_S1x8x128 : 0 < S1x8x128.numel
  inb_S2048x512_S2048x512_0_0 : ∀ a, (![0, 0] : Fin 2 → Nat) a + S2048x512.size a ≤ S2048x512.size a
  h_S2048x512 : 0 < S2048x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  reducesTo_S2x8x128_S_d0_1_2 : S2x8x128.ReducesTo [0, 1, 2] S_
  shapeCasts_S_S1x1 : S_.ShapeCasts S1x1
  reducesTo_S64x64_S_d0_1 : S64x64.ReducesTo [0, 1] S_
  bcast_S_S64x64 : S_.BroadcastsInDim S64x64 (![] : Fin 0 → Fin S64x64.rank)
  transposes_S64x64_S64x64_1_0 : S64x64.Transposes [1, 0] S64x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S2x64_S_d0_1 : S2x64.ReducesTo [0, 1] S_
  bcast_S_S2x64 : S_.BroadcastsInDim S2x64 (![] : Fin 0 → Fin S2x64.rank)
  bcast_S_S2 : S_.BroadcastsInDim S2 (![] : Fin 0 → Fin S2.rank)
  transposes_S2x64_S64x2_1_0 : S2x64.Transposes [1, 0] S64x2
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x512_S512x64_S2048x64_1_0_0_1_n_n_wf : DotDims.WF S2048x512 S512x64 S2048x64 [1] [0] [0] [1] [] []
  dot_S2048x64_S64x64_S2048x64_1_0_0_1_n_n_wf : DotDims.WF S2048x64 S64x64 S2048x64 [1] [0] [0] [1] [] []
  dot_S2048x64_S64x2_S2048x2_1_0_0_1_n_n_wf : DotDims.WF S2048x64 S64x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S131072x64.size a
  hwx0_3 : ∀ i : grid0.Coords, EltTy.bits .f32 = 32 ∨ (Rect.block (s := S131072x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S131072x64.size a
  hwx1_0 : ∀ i : grid1.Coords, EltTy.bits .f32 = 32 ∨ (Rect.block (s := S131072x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S2x8x128.size a
  hwx1_4 : ∀ i : grid1.Coords, EltTy.bits .f32 = 32 ∨ (Rect.block (s := S2x8x128) S1x8x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S131072x64.size a
  hwx2_0 : ∀ i : grid2.Coords, EltTy.bits .f32 = 32 ∨ (Rect.block (s := S131072x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .bf16 = 32 ∨ (Rect.block (s := S64x64) S64x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .bf16 = 32 ∨ (Rect.block (s := S64x2) S64x2.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x2.size a ≤ S131072x2.size a
  hwx2_7 : ∀ i : grid2.Coords, EltTy.bits .f32 = 32 ∨ (Rect.block (s := S131072x2) S2048x2.size (cc2_transform_7 i) (hinb2_7 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x2_S2048x2_1_0_0_1_n_n : DotDims S2048x64 S64x2 S2048x2 where
  lhsContracting := [1]
  rhsContracting := [0]
  lhsNonContracting := [0]
  rhsNonContracting := [1]
  lhsBatch := []
  rhsBatch := []
  wf := dot_S2048x64_S64x2_S2048x2_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26_0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v75) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v100) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v101) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v102) S2048x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S131072x512 : Shape := ⟨2, ![131072, 512]⟩
abbrev S64x512 : Shape := ⟨2, ![64, 512]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩
abbrev S512x64 : Shape := ⟨2, ![512, 64]⟩
abbrev S131072x64 : Shape := ⟨2, ![131072, 64]⟩
abbrev S1x64 : Shape := ⟨2, ![1, 64]⟩
abbrev S64x2 : Shape := ⟨2, ![64, 2]⟩
abbrev S131072x2 : Shape := ⟨2, ![131072, 2]⟩
abbrev S1x2 : Shape := ⟨2, ![1, 2]⟩

abbrev nBuf : Space → Nat
  | .hbm => 225
  | .vmem => 0
  | .smem => 0
  | _ => 0

abbrev hbmTy0_0 (i : Nat) : BufTy := match i % 128 with
  | 0 => ⟨S131072x512, .f32⟩
  | 1 => ⟨S64x512, .f32⟩
  | 2 => ⟨S64, .f32⟩
  | 3 => ⟨S64x64, .f32⟩
  | 4 => ⟨S64, .f32⟩
  | 5 => ⟨S2x64, .f32⟩
  | 6 => ⟨S2, .f32⟩
  | 7 => ⟨S_, .f32⟩
  | 8 => ⟨S131072x512, .f32⟩
  | 9 => ⟨S131072x512, .f32⟩
  | 10 => ⟨S131072x512, .f32⟩
  | 11 => ⟨S_, .f32⟩
  | 12 => ⟨S_, .f32⟩
  | 13 => ⟨S_, .f32⟩
  | 14 => ⟨S131072x512, .f32⟩
  | 15 => ⟨S131072x512, .f32⟩
  | 16 => ⟨S_, .f32⟩
  | 17 => ⟨S131072x512, .f32⟩
  | 18 => ⟨S131072x512, .f32⟩
  | 19 => ⟨S_, .f32⟩
  | 20 => ⟨S131072x512, .f32⟩
  | 21 => ⟨S131072x512, .f32⟩
  | 22 => ⟨S131072x512, .f32⟩
  | 23 => ⟨S131072x512, .f32⟩
  | 24 => ⟨S64x512, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S64x512, .f32⟩
  | 41 => ⟨S64x512, .f32⟩
  | 42 => ⟨S64x512, .f32⟩
  | 43 => ⟨S_, .f32⟩
  | 44 => ⟨S_, .f32⟩
  | 45 => ⟨S_, .f32⟩
  | 46 => ⟨S64x512, .f32⟩
  | 47 => ⟨S64x512, .f32⟩
  | 48 => ⟨S_, .f32⟩
  | 49 => ⟨S64x512, .f32⟩
  | 50 => ⟨S64x512, .f32⟩
  | 51 => ⟨S64x512, .f32⟩
  | 52 => ⟨S64x512, .f32⟩
  | 53 => ⟨S64x512, .f32⟩
  | 54 => ⟨S64x512, .f32⟩
  | 55 => ⟨S_, .f32⟩
  | 56 => ⟨S_, .f32⟩
  | 57 => ⟨S64, .f32⟩
  | 58 => ⟨S64, .f32⟩
  | 59 => ⟨S64, .f32⟩
  | 60 => ⟨S64, .f32⟩
  | 61 => ⟨S64, .f32⟩
  | 62 => ⟨S64, .f32⟩
  | 63 => ⟨S64, .f32⟩
  | 64 => ⟨S512x64, .f32⟩
  | 65 => ⟨S131072x64, .f32⟩
  | 66 => ⟨S1x64, .f32⟩
  | 67 => ⟨S131072x64, .f32⟩
  | 68 => ⟨S131072x64, .f32⟩
  | 69 => ⟨S_, .f32⟩
  | 70 => ⟨S131072x64, .f32⟩
  | 71 => ⟨S131072x64, .f32⟩
  | 72 => ⟨S131072x64, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S131072x64, .f32⟩
  | 89 => ⟨S131072x64, .f32⟩
  | 90 => ⟨S131072x64, .f32⟩
  | 91 => ⟨S_, .f32⟩
  | 92 => ⟨S_, .f32⟩
  | 93 => ⟨S_, .f32⟩
  | 94 => ⟨S131072x64, .f32⟩
  | 95 => ⟨S131072x64, .f32⟩
  | 96 => ⟨S_, .f32⟩
  | 97 => ⟨S131072x64, .f32⟩
  | 98 => ⟨S131072x64, .f32⟩
  | 99 => ⟨S131072x64, .f32⟩
  | 100 => ⟨S131072x64, .f32⟩
  | 101 => ⟨S131072x64, .f32⟩
  | 102 => ⟨S131072x64, .f32⟩
  | 103 => ⟨S64x64, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S64x64, .f32⟩
  | 120 => ⟨S64x64, .f32⟩
  | 121 => ⟨S64x64, .f32⟩
  | 122 => ⟨S_, .f32⟩
  | 123 => ⟨S_, .f32⟩
  | 124 => ⟨S_, .f32⟩
  | 125 => ⟨S64x64, .f32⟩
  | 126 => ⟨S64x64, .f32⟩
  | 127 => ⟨S_, .f32⟩
  | _ => ⟨S131072x512, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S_, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64x64, .f32⟩
  | 15 => ⟨S131072x64, .f32⟩
  | 16 => ⟨S1x64, .f32⟩
  | 17 => ⟨S131072x64, .f32⟩
  | 18 => ⟨S131072x64, .f32⟩
  | 19 => ⟨S_, .f32⟩
  | 20 => ⟨S131072x64, .f32⟩
  | 21 => ⟨S131072x64, .f32⟩
  | 22 => ⟨S131072x64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S131072x64, .f32⟩
  | 39 => ⟨S131072x64, .f32⟩
  | 40 => ⟨S131072x64, .f32⟩
  | 41 => ⟨S_, .f32⟩
  | 42 => ⟨S_, .f32⟩
  | 43 => ⟨S_, .f32⟩
  | 44 => ⟨S131072x64, .f32⟩
  | 45 => ⟨S131072x64, .f32⟩
  | 46 => ⟨S_, .f32⟩
  | 47 => ⟨S131072x64, .f32⟩
  | 48 => ⟨S131072x64, .f32⟩
  | 49 => ⟨S131072x64, .f32⟩
  | 50 => ⟨S131072x64, .f32⟩
  | 51 => ⟨S131072x64, .f32⟩
  | 52 => ⟨S131072x64, .f32⟩
  | 53 => ⟨S2x64, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S2x64, .f32⟩
  | 70 => ⟨S2x64, .f32⟩
  | 71 => ⟨S2x64, .f32⟩
  | 72 => ⟨S_, .f32⟩
  | 73 => ⟨S_, .f32⟩
  | 74 => ⟨S_, .f32⟩
  | 75 => ⟨S2x64, .f32⟩
  | 76 => ⟨S2x64, .f32⟩
  | 77 => ⟨S_, .f32⟩
  | 78 => ⟨S2x64, .f32⟩
  | 79 => ⟨S2x64, .f32⟩
  | 80 => ⟨S2x64, .f32⟩
  | 81 => ⟨S2x64, .f32⟩
  | 82 => ⟨S2x64, .f32⟩
  | 83 => ⟨S2x64, .f32⟩
  | 84 => ⟨S_, .f32⟩
  | 85 => ⟨S2, .f32⟩
  | 86 => ⟨S2, .f32⟩
  | 87 => ⟨S2, .f32⟩
  | 88 => ⟨S2, .f32⟩
  | 89 => ⟨S2, .f32⟩
  | 90 => ⟨S2, .f32⟩
  | 91 => ⟨S2, .f32⟩
  | 92 => ⟨S64x2, .f32⟩
  | 93 => ⟨S131072x2, .f32⟩
  | 94 => ⟨S1x2, .f32⟩
  | 95 => ⟨S131072x2, .f32⟩
  | 96 => ⟨S131072x2, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_cst_9 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_10 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call5_cst : Ref sig .tc := ⟨.hbm, 69, rfl⟩
abbrev main_call5_v0 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_cst_12 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_cst_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_16 : Ref sig .tc := ⟨.hbm, 91, rfl⟩
abbrev main_cst_17 : Ref sig .tc := ⟨.hbm, 92, rfl⟩
abbrev main_call7_v0 : Ref sig .tc := ⟨.hbm, 93, rfl⟩
abbrev main_call7_v1 : Ref sig .tc := ⟨.hbm, 94, rfl⟩
abbrev main_call7_v2 : Ref sig .tc := ⟨.hbm, 95, rfl⟩
abbrev main_call7_v3 : Ref sig .tc := ⟨.hbm, 96, rfl⟩
abbrev main_call7_v4 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_18 : Ref sig .tc := ⟨.hbm, 104, rfl⟩
abbrev main_v61 : Ref sig .tc := ⟨.hbm, 105, rfl⟩
abbrev main_cst_19 : Ref sig .tc := ⟨.hbm, 106, rfl⟩
abbrev main_v62 : Ref sig .tc := ⟨.hbm, 107, rfl⟩
abbrev main_cst_20 : Ref sig .tc := ⟨.hbm, 108, rfl⟩
abbrev main_v63 : Ref sig .tc := ⟨.hbm, 109, rfl⟩
abbrev main_v64 : Ref sig .tc := ⟨.hbm, 110, rfl⟩
abbrev main_cst_21 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_22 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_23 : Ref sig .tc := ⟨.hbm, 122, rfl⟩
abbrev main_cst_24 : Ref sig .tc := ⟨.hbm, 123, rfl⟩
abbrev main_call9_v0 : Ref sig .tc := ⟨.hbm, 124, rfl⟩
abbrev main_call9_v1 : Ref sig .tc := ⟨.hbm, 125, rfl⟩
abbrev main_call9_v2 : Ref sig .tc := ⟨.hbm, 126, rfl⟩
abbrev main_call9_v3 : Ref sig .tc := ⟨.hbm, 127, rfl⟩
abbrev main_call9_v4 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_call11_cst : Ref sig .tc := ⟨.hbm, 147, rfl⟩
abbrev main_call11_v0 : Ref sig .tc := ⟨.hbm, 148, rfl⟩
abbrev main_v92 : Ref sig .tc := ⟨.hbm, 149, rfl⟩
abbrev main_v93 : Ref sig .tc := ⟨.hbm, 150, rfl⟩
abbrev main_cst_25 : Ref sig .tc := ⟨.hbm, 151, rfl⟩
abbrev main_v94 : Ref sig .tc := ⟨.hbm, 152, rfl⟩
abbrev main_cst_26 : Ref sig .tc := ⟨.hbm, 153, rfl⟩
abbrev main_v95 : Ref sig .tc := ⟨.hbm, 154, rfl⟩
abbrev main_cst_27 : Ref sig .tc := ⟨.hbm, 155, rfl⟩
abbrev main_v96 : Ref sig .tc := ⟨.hbm, 156, rfl⟩
abbrev main_v97 : Ref sig .tc := ⟨.hbm, 157, rfl⟩
abbrev main_cst_28 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_29 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_30 : Ref sig .tc := ⟨.hbm, 169, rfl⟩
abbrev main_cst_31 : Ref sig .tc := ⟨.hbm, 170, rfl⟩
abbrev main_call13_v0 : Ref sig .tc := ⟨.hbm, 171, rfl⟩
abbrev main_call13_v1 : Ref sig .tc := ⟨.hbm, 172, rfl⟩
abbrev main_call13_v2 : Ref sig .tc := ⟨.hbm, 173, rfl⟩
abbrev main_call13_v3 : Ref sig .tc := ⟨.hbm, 174, rfl⟩
abbrev main_call13_v4 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_cst_32 : Ref sig .tc := ⟨.hbm, 182, rfl⟩
abbrev main_v113 : Ref sig .tc := ⟨.hbm, 183, rfl⟩
abbrev main_cst_33 : Ref sig .tc := ⟨.hbm, 184, rfl⟩
abbrev main_v114 : Ref sig .tc := ⟨.hbm, 185, rfl⟩
abbrev main_cst_34 : Ref sig .tc := ⟨.hbm, 186, rfl⟩
abbrev main_v115 : Ref sig .tc := ⟨.hbm, 187, rfl⟩
abbrev main_v116 : Ref sig .tc := ⟨.hbm, 188, rfl⟩
abbrev main_cst_35 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_36 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_37 : Ref sig .tc := ⟨.hbm, 200, rfl⟩
abbrev main_cst_38 : Ref sig .tc := ⟨.hbm, 201, rfl⟩
abbrev main_call15_v0 : Ref sig .tc := ⟨.hbm, 202, rfl⟩
abbrev main_call15_v1 : Ref sig .tc := ⟨.hbm, 203, rfl⟩
abbrev main_call15_v2 : Ref sig .tc := ⟨.hbm, 204, rfl⟩
abbrev main_call15_v3 : Ref sig .tc := ⟨.hbm, 205, rfl⟩
abbrev main_call15_v4 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩

abbrev nD : Nat := 1
abbrev τ : Topo := Topo.v7x

variable {F : FTy → Type} [FloatOps F]

class Facts₀ : Prop where
  bcast_S_S131072x512 : S_.BroadcastsInDim S131072x512 (![] : Fin 0 → Fin S131072x512.rank)
  reducesTo_S64x512_S_d0_1 : S64x512.ReducesTo [0, 1] S_
  h_S_ : 0 < S_.numel
  bcast_S_S_ : S_.BroadcastsInDim S_ (![] : Fin 0 → Fin S_.rank)
  bcast_S_S64x512 : S_.BroadcastsInDim S64x512 (![] : Fin 0 → Fin S64x512.rank)
  bcast_S_S64 : S_.BroadcastsInDim S64 (![] : Fin 0 → Fin S64.rank)
  transposes_S64x512_S512x64_1_0 : S64x512.Transposes [1, 0] S512x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S_d0_1 : S131072x64.ReducesTo [0, 1] S_
  reducesTo_S64x64_S_d0_1 : S64x64.ReducesTo [0, 1] S_
  bcast_S_S64x64 : S_.BroadcastsInDim S64x64 (![] : Fin 0 → Fin S64x64.rank)
  transposes_S64x64_S64x64_1_0 : S64x64.Transposes [1, 0] S64x64
  reducesTo_S2x64_S_d0_1 : S2x64.ReducesTo [0, 1] S_
  bcast_S_S2x64 : S_.BroadcastsInDim S2x64 (![] : Fin 0 → Fin S2x64.rank)
  bcast_S_S2 : S_.BroadcastsInDim S2 (![] : Fin 0 → Fin S2.rank)
  transposes_S2x64_S64x2_1_0 : S2x64.Transposes [1, 0] S64x2
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  dot_S131072x512_S512x64_S131072x64_1_0_0_1_n_n_wf : DotDims.WF S131072x512 S512x64 S131072x64 [1] [0] [0] [1] [] []
  dot_S131072x64_S64x64_S131072x64_1_0_0_1_n_n_wf : DotDims.WF S131072x64 S64x64 S131072x64 [1] [0] [0] [1] [] []
  dot_S131072x64_S64x2_S131072x2_1_0_0_1_n_n_wf : DotDims.WF S131072x64 S64x2 S131072x2 [1] [0] [0] [1] [] []

variable [Facts₀]

def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x2_S131072x2_1_0_0_1_n_n : DotDims S131072x64 S64x2 S131072x2 where
  lhsContracting := [1]
  rhsContracting := [0]
  lhsNonContracting := [0]
  rhsNonContracting := [1]
  lhsBatch := []
  rhsBatch := []
  wf := dot_S131072x64_S64x2_S131072x2_1_0_0_1_n_n_wf

class Facts : Prop extends Facts₀ where

variable [Facts]
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.Spec.lean ====
/-
  A three-layer fully connected network with simulated 8-bit quantization, as mathematics over the extended reals.

  Every tensor entering a matrix product is first put on a grid of step s: quant lo hi s x divides by the step,
  rounds to the nearest integer (ties to even), clamps to [lo, hi] and multiplies the step back.  The step of a
  tensor is a power of two computed from its largest magnitude M: scaleOf M = exp (ln2 · ceil (log (M / 127 + ε) / log 2))
  with the single-precision literals for ln 2, 127, ε = 1e-12 and 2 kept as the numbers their bit patterns
  denote.  A bias is rounded to the grid whose step is the product of the input's and the weight's steps, without
  clamping.  A layer is relu (a · Wqᵀ + bq); the last layer has no rectifier.  The step of an activation tensor is
  taken from the largest entry of the WHOLE rectified tensor, which is why the network is three passes.

  The straight-through form x + (q - x) of a quantized value equals q whenever x is a real number.
-/
import Idealize.ShloMosaic.PureOps.Ideal
import Idealize.ShloMosaic.PureOps.Ideal.Laws
import proofs.«161439_j163208757492_2_alg».proof.Proof.LibRealValued

noncomputable section

namespace Cert.QuantNet

open Idealize.ShloMosaic Cert.RealValued

/-- The extended real a single-precision bit pattern denotes. -/
abbrev lit (b : BitVec 32) : EReal := Ideal.ofBits .f32 b

/-- Rounding to the nearest integer, ties to even, fixing the infinities. -/
abbrev rne (x : EReal) : EReal := Ideal.liftRound Ideal.roundHalfEven x

/-- The value x on the grid of step s, clamped to [lo, hi] grid units. -/
def quant (lo hi s x : EReal) : EReal := min hi (max lo (rne (Ideal.div x s))) * s

/-- A bias on the grid of step s (no clamp). -/
def qbias (s b : EReal) : EReal := rne (Ideal.div b s) * s

/-- The power-of-two step for a tensor of largest magnitude M. -/
def scaleOf (M : EReal) : EReal :=
  Ideal.exp (lit 0x3F317218#32 * Ideal.liftRound Int.ceil
    (Ideal.div (Ideal.log (Ideal.div M (lit 0x42FE0000#32) + lit 0x2B8CBCCC#32)) (Ideal.log (lit 0x40000000#32))))

/-- The straight-through form of a quantized value. -/
def ste (x q : EReal) : EReal := x + (q - x)

section Tensors

variable {β κ ν : Type} [Fintype β] [Fintype κ] [Fintype ν]

/-- The largest magnitude of a matrix (-∞ for an empty one). -/
def supAbs (W : ν → κ → EReal) : EReal := Finset.univ.sup fun p : ν × κ => max (W p.1 p.2) (-(W p.1 p.2))

/-- The largest entry of a matrix. -/
def supOf (r : β → ν → EReal) : EReal := Finset.univ.sup fun p : β × ν => r p.1 p.2

/-- The step of a weight matrix. -/
def wScale (W : ν → κ → EReal) : EReal := scaleOf (supAbs W)

/-- A weight matrix on its own grid, clamped to ±127 units. -/
def wq (W : ν → κ → EReal) : ν → κ → EReal :=
  fun j k => quant (lit 0xC2FE0000#32) (lit 0x42FE0000#32) (wScale W) (W j k)

/-- A bias on the grid whose step is the input's step times the weight's. -/
def bq (sIn : EReal) (W : ν → κ → EReal) (b : ν → EReal) : ν → EReal :=
  fun j => qbias (sIn * wScale W) (b j)

/-- The affine part of a layer: a · Wᵀ + b. -/
def affine (a : β → κ → EReal) (W : ν → κ → EReal) (b : ν → EReal) : β → ν → EReal :=
  fun i j => (∑ k, a i k * W j k) + b j

/-- A rectified layer. -/
def dense (a : β → κ → EReal) (W : ν → κ → EReal) (b : ν → EReal) : β → ν → EReal :=
  fun i j => max (affine a W b i j) 0

end Tensors

/-- The input's step: the single-precision number nearest 1/127. -/
abbrev sX : EReal := lit 0x3C010204#32

section Network

variable {β δ η ζ : Type} [Fintype β] [Fintype δ] [Fintype η] [Fintype ζ]
variable (x : β → δ → EReal) (W1 : η → δ → EReal) (b1 : η → EReal) (W2 : η → η → EReal) (b2 : η → EReal)
  (W3 : ζ → η → EReal) (b3 : ζ → EReal)

/-- The input on the grid of step sX, clamped to ±127 units. -/
def x0 : β → δ → EReal := fun i k => quant (lit 0xC2FE0000#32) (lit 0x42FE0000#32) sX (x i k)

/-- First rectified layer. -/
def r1 : β → η → EReal := dense (x0 x) (wq W1) (bq sX W1 b1)

/-- The first activation step, from the largest entry of the whole of r1. -/
def s1 : EReal := scaleOf (supOf (r1 x W1 b1))

/-- The tensor r1 on its grid, clamped to [0, 127] units. -/
def a1 : β → η → EReal := fun i k => quant 0 (lit 0x42FE0000#32) (s1 x W1 b1) (r1 x W1 b1 i k)

/-- Second rectified layer. -/
def r2 : β → η → EReal := dense (a1 x W1 b1) (wq W2) (bq (s1 x W1 b1) W2 b2)

/-- The second activation step. -/
def s2 : EReal := scaleOf (supOf (r2 x W1 b1 W2 b2))

/-- The tensor r2 on its grid. -/
def a2 : β → η → EReal := fun i k => quant 0 (lit 0x42FE0000#32) (s2 x W1 b1 W2 b2) (r2 x W1 b1 W2 b2 i k)

/-- The network's output. -/
def out : β → ζ → EReal := affine (a2 x W1 b1 W2 b2) (wq W3) (bq (s2 x W1 b1 W2 b2) W3 b3)

end Network

end Cert.QuantNet

end
-- ==== Proof.SpecSte.lean ====
/-
  The same network written with every quantized tensor in its straight-through form x + (q - x), and every step
  taken from the largest MAGNITUDE of its tensor (the rectified tensors are nonnegative, so this is their largest
  entry).  This is the form in which a training framework writes the forward pass.
-/
import proofs.«161439_j163208757492_2_alg».proof.Proof.Spec

noncomputable section

namespace Cert.QuantNet.Ste

open Idealize.ShloMosaic Cert.QuantNet

section Tensors

variable {κ ν : Type} [Fintype κ] [Fintype ν]

/-- A weight matrix, straight-through quantized on its own grid. -/
def wq (W : ν → κ → EReal) : ν → κ → EReal := fun j k => ste (W j k) (QuantNet.wq W j k)

/-- A bias, straight-through rounded to the grid of step sIn times the weight's step. -/
def bq (sIn : EReal) (W : ν → κ → EReal) (b : ν → EReal) : ν → EReal := fun j => ste (b j) (QuantNet.bq sIn W b j)

end Tensors

section Network

variable {β δ η ζ : Type} [Fintype β] [Fintype δ] [Fintype η] [Fintype ζ]
variable (x : β → δ → EReal) (W1 : η → δ → EReal) (b1 : η → EReal) (W2 : η → η → EReal) (b2 : η → EReal)
  (W3 : ζ → η → EReal) (b3 : ζ → EReal)

def x0 : β → δ → EReal := fun i k => ste (x i k) (QuantNet.x0 x i k)

def r1 : β → η → EReal := dense (x0 x) (wq W1) (bq sX W1 b1)

def s1 : EReal := scaleOf (supAbs (r1 x W1 b1))

def a1 : β → η → EReal := fun i k =>
  ste (r1 x W1 b1 i k) (quant 0 (lit 0x42FE0000#32) (s1 x W1 b1) (r1 x W1 b1 i k))

def r2 : β → η → EReal := dense (a1 x W1 b1) (wq W2) (bq (s1 x W1 b1) W2 b2)

def s2 : EReal := scaleOf (supAbs (r2 x W1 b1 W2 b2))

def a2 : β → η → EReal := fun i k =>
  ste (r2 x W1 b1 W2 b2 i k) (quant 0 (lit 0x42FE0000#32) (s2 x W1 b1 W2 b2) (r2 x W1 b1 W2 b2 i k))

def out : β → ζ → EReal := affine (a2 x W1 b1 W2 b2) (wq W3) (bq (s2 x W1 b1 W2 b2) W3 b3)

end Network

end Cert.QuantNet.Ste

end
-- ==== Proof.Curry.lean ====
/-
  Arrays of the programs are functions on an index type; the network's mathematics is written over curried functions
  of the coordinates.  These are the two readings of a vector and of a matrix by coordinates, and the largest entry
  of the half of a rectified tensor that one of the two cores sees.
-/
import Idealize.ShloMosaic.Lib.ValueIdx
import proofs.«161439_j163208757492_2_alg».proof.Proof.Spec

noncomputable section

namespace Cert.QuantNet

open Idealize.ShloMosaic Idealize.ShloMosaic.ValueIdx

/-- A vector read by its coordinate. -/
def cur1 {a : Nat} (A : (⟨1, ![a]⟩ : Shape).Idx → EReal) : Fin a → EReal := fun p => A (ix1 p)

/-- A matrix read by its two coordinates. -/
def cur2 {a b : Nat} (A : (⟨2, ![a, b]⟩ : Shape).Idx → EReal) : Fin a → Fin b → EReal := fun p q => A (ix2 p q)

/-- The running maximum one core keeps: zero, and every entry of the rows i with i / rows = cc (the core's half of
    the batch when rows is half the batch). -/
def coreMax {B N : Nat} (rows : Nat) (r : Fin B → Fin N → EReal) (cc : Nat) : EReal :=
  max 0 (Finset.univ.sup fun p : Fin B × Fin N => if p.1.val / rows = cc then r p.1 p.2 else ⊥)

end Cert.QuantNet

end
-- ==== Proof.LibRealOrder.lean ====
/-
  Real numbers among the extended reals: order, clamps, largest entries, and the straight-through identity.

  An extended real is real exactly when it is neither infinity; anything between two reals is real, so a clamp
  min hi (max lo y) between two real bounds is real whatever y is.  The largest entry of a nonempty finite family of
  reals is one of them, hence real, and it is nonnegative when the entries are.  The magnitude max x (-x) is
  nonnegative and is x itself for nonnegative x.  Finally x + (q - x) = q for every extended real q as soon as x is
  real (for an infinite x the left side is an infinity or its junk value): this is what lets a straight-through
  estimator's forward value be replaced by the quantized value.
-/
import proofs.«161439_j163208757492_2_alg».proof.Proof.LibRealValued
import Mathlib.Data.EReal.Operations
import Mathlib.Order.Interval.Finset.Basic
import Mathlib.Data.Fintype.Basic
import Mathlib.Order.Lattice
import Mathlib.Data.Finset.Lattice.Fold

noncomputable section

namespace Cert.RealValued

/-- An extended real is a real number exactly when it is neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- Anything between two reals is real. -/
theorem isReal_of_between {a b z : EReal} (ha : IsReal a) (hb : IsReal b) (h1 : a ≤ z) (h2 : z ≤ b) : IsReal z := by
  obtain ⟨r, rfl⟩ := ha
  obtain ⟨s, rfl⟩ := hb
  refine isReal_iff.mpr ⟨?_, ?_⟩
  · rintro rfl; exact EReal.coe_ne_bot r (le_bot_iff.mp h1)
  · rintro rfl; exact EReal.coe_ne_top s (top_le_iff.mp h2)

theorem IsReal.min {x y : EReal} (hx : IsReal x) (hy : IsReal y) : IsReal (min x y) := by
  rcases min_choice x y with h | h <;> rw [h] <;> assumption

theorem IsReal.neg {x : EReal} (hx : IsReal x) : IsReal (-x) := by
  obtain ⟨r, rfl⟩ := hx; exact ⟨-r, (EReal.coe_neg r).symm⟩

/-- A clamp between two reals is real, whatever is clamped. -/
theorem isReal_clamp {lo hi : EReal} (hlo : IsReal lo) (hhi : IsReal hi) (y : EReal) : IsReal (min hi (max lo y)) :=
  isReal_of_between (hhi.min hlo) hhi
    (le_min (min_le_left _ _) ((min_le_right _ _).trans (le_max_left _ _))) (min_le_left _ _)

/-- A positive real number. -/
def IsPos (s : EReal) : Prop := ∃ r : ℝ, 0 < r ∧ s = (r : EReal)

theorem IsPos.isReal {s : EReal} (h : IsPos s) : IsReal s := let ⟨r, _, e⟩ := h; ⟨r, e⟩

theorem IsPos.mul {s t : EReal} (hs : IsPos s) (ht : IsPos t) : IsPos (s * t) := by
  obtain ⟨a, ha, rfl⟩ := hs
  obtain ⟨b, hb, rfl⟩ := ht
  exact ⟨a * b, mul_pos ha hb, (EReal.coe_mul a b).symm⟩

/-- For a real x, x + (q - x) = q whatever the extended real q is. -/
theorem add_sub_cancel_of_isReal {x : EReal} (hx : IsReal x) (q : EReal) : x + (q - x) = q := by
  obtain ⟨r, rfl⟩ := hx
  induction q using EReal.rec with
  | bot => simp
  | coe s => rw [← EReal.coe_sub, ← EReal.coe_add]; congr 1; ring
  | top => simp

/-- A magnitude is nonnegative. -/
theorem abs_nonneg' (x : EReal) : 0 ≤ max x (-x) := by
  rcases le_total 0 x with h | h
  · exact le_max_of_le_left h
  · exact le_max_of_le_right (by simpa using EReal.neg_le_neg_iff.mpr h)

/-- The magnitude of a nonnegative extended real is itself. -/
theorem abs_of_nonneg' {x : EReal} (h : 0 ≤ x) : max x (-x) = x :=
  max_eq_left (le_trans (by simpa using EReal.neg_le_neg_iff.mpr h) h)

section Sup

variable {ι : Type} [Fintype ι] [Nonempty ι]

/-- The largest entry of a nonempty real family is real: it is one of the entries. -/
theorem isReal_sup (f : ι → EReal) (h : ∀ i, IsReal (f i)) : IsReal (Finset.univ.sup f) := by
  obtain ⟨i, -, hi⟩ := Finset.exists_mem_eq_sup Finset.univ Finset.univ_nonempty f
  rw [hi]; exact h i

/-- The largest entry of a nonempty nonnegative family is nonnegative. -/
theorem sup_nonneg' (f : ι → EReal) (h : ∀ i, 0 ≤ f i) : 0 ≤ Finset.univ.sup f := by
  obtain ⟨i⟩ := ‹Nonempty ι›
  exact (h i).trans (Finset.le_sup (Finset.mem_univ i))

end Sup

end Cert.RealValued

end
-- ==== Proof.SpecReal.lean ====
/-
  Real-valuedness of the quantized network, and the facts that join its two spellings.

  (1) The straight-through form x + (q - x) is q when x is a real number: over the extended reals the only failure is
      an infinite x.
  (2) From real inputs every tensor of the network is real-valued: a clamp between two reals is real whatever is
      clamped, the step exp(…) of a real nonnegative magnitude is a positive real, a sum of products of reals is real,
      and the largest entry of a nonempty real tensor is one of its entries.
  (3) A rectified tensor is nonnegative, so its largest magnitude is its largest entry, and the maximum over the
      cores' running maxima (each started at zero) is that largest entry too.
-/
import proofs.«161439_j163208757492_2_alg».proof.Proof.SpecSte
import proofs.«161439_j163208757492_2_alg».proof.Proof.Curry
import proofs.«161439_j163208757492_2_alg».proof.Proof.LibRealOrder

noncomputable section

namespace Cert.QuantNet

open Idealize.ShloMosaic Cert.RealValued

/-! ## The literals -/

theorem lit_127 : lit 0x42FE0000#32 = ((127 : ℝ) : EReal) := by
  simp [Ideal.ofBits, Ideal.ieee, -EReal.coe_mul]; norm_num

theorem lit_neg127 : lit 0xC2FE0000#32 = ((-127 : ℝ) : EReal) := by
  simp [Ideal.ofBits, Ideal.ieee, -EReal.coe_mul]; norm_num

theorem lit_two : lit 0x40000000#32 = ((2 : ℝ) : EReal) := by
  simp [Ideal.ofBits, Ideal.ieee, -EReal.coe_mul]; norm_num

theorem lit_eps : ∃ r : ℝ, 0 < r ∧ lit 0x2B8CBCCC#32 = (r : EReal) := by
  refine ⟨_, ?_, by simp [Ideal.ofBits, Ideal.ieee, -EReal.coe_mul]; rfl⟩
  positivity

theorem lit_ln2 : ∃ r : ℝ, lit 0x3F317218#32 = (r : EReal) := by
  exact ⟨_, by simp [Ideal.ofBits, Ideal.ieee, -EReal.coe_mul]; rfl⟩

theorem lit_sX : ∃ r : ℝ, 0 < r ∧ sX = (r : EReal) := by
  refine ⟨_, ?_, by simp [Ideal.ofBits, Ideal.ieee, -EReal.coe_mul]; rfl⟩
  positivity

/-- The pattern of minus infinity denotes the least extended real. -/
theorem lit_neg_inf : lit 0xFF800000#32 = ⊥ := by
  simp [Ideal.ofBits, Ideal.ieee]

/-! ## Rounding, division by a nonzero real, and the two grids -/

theorem _root_.Cert.RealValued.IsReal.rne {x : EReal} (hx : IsReal x) : IsReal (rne x) := by
  obtain ⟨r, rfl⟩ := hx; exact ⟨_, rfl⟩

theorem _root_.Cert.RealValued.IsReal.div {x : EReal} (hx : IsReal x) {r : ℝ} (hr : r ≠ 0) : IsReal (Ideal.div x (r : EReal)) := by
  rw [Ideal.div_coe hr]; exact hx.mul (isReal_coe _)

theorem _root_.Cert.RealValued.IsReal.quant {lo hi s : EReal} (hlo : IsReal lo) (hhi : IsReal hi) (hs : IsReal s) (x : EReal) :
    IsReal (quant lo hi s x) :=
  (isReal_clamp hlo hhi _).mul hs

theorem isPos_sX : IsPos sX := lit_sX

theorem _root_.Cert.RealValued.IsReal.qbias {s b : EReal} (hs : IsPos s) (hb : IsReal b) : IsReal (qbias s b) := by
  obtain ⟨r, hr, rfl⟩ := hs
  exact ((hb.div hr.ne').rne).mul (isReal_coe r)

/-- The step of a real nonnegative magnitude is a positive real. -/
theorem scaleOf_pos {M : EReal} (hM : IsReal M) (h0 : 0 ≤ M) : IsPos (scaleOf M) := by
  obtain ⟨a, rfl⟩ := hM
  obtain ⟨e, he, hE⟩ := lit_eps
  obtain ⟨l, hL⟩ := lit_ln2
  have ha : 0 ≤ a := by exact_mod_cast h0
  have hpos : 0 < a * (1 / 127) + e := add_pos_of_nonneg_of_pos (mul_nonneg ha (by norm_num)) he
  have hlog2 : Real.log 2 ≠ 0 := (Real.log_pos (by norm_num : (1 : ℝ) < 2)).ne'
  unfold scaleOf
  rw [lit_127, lit_two, hE, hL, Ideal.div_coe (by norm_num : (127 : ℝ) ≠ 0), ← EReal.coe_mul, ← EReal.coe_add,
    Ideal.log_coe, if_neg (not_le.mpr hpos), Ideal.log_coe, if_neg (by norm_num), Ideal.div_coe hlog2,
    ← EReal.coe_mul, Ideal.liftRound_coe, ← EReal.coe_mul, Ideal.exp_coe]
  exact ⟨_, Real.exp_pos _, rfl⟩

/-- The straight-through form of a quantized value is that value when the raw value is real. -/
theorem ste_of_isReal {x : EReal} (hx : IsReal x) (q : EReal) : ste x q = q :=
  add_sub_cancel_of_isReal hx q

/-! ## The tensors of the network are real-valued -/

section Tensors

variable {β κ ν : Type} [Fintype β] [Fintype κ] [Fintype ν] [Nonempty κ] [Nonempty ν]

theorem wScale_pos (W : ν → κ → EReal) (hW : ∀ j k, IsReal (W j k)) : IsPos (wScale W) :=
  scaleOf_pos (isReal_sup _ fun p => (hW p.1 p.2).max (hW p.1 p.2).neg) (sup_nonneg' _ fun p => abs_nonneg' _)

theorem isReal_wq (W : ν → κ → EReal) (hW : ∀ j k, IsReal (W j k)) (j : ν) (k : κ) : IsReal (wq W j k) :=
  IsReal.quant (lit_neg127 ▸ isReal_coe _) (lit_127 ▸ isReal_coe _) (wScale_pos W hW).isReal _

theorem isReal_bq {sIn : EReal} (hs : IsPos sIn) (W : ν → κ → EReal) (hW : ∀ j k, IsReal (W j k)) (b : ν → EReal)
    (hb : ∀ j, IsReal (b j)) (j : ν) : IsReal (bq sIn W b j) :=
  IsReal.qbias (hs.mul (wScale_pos W hW)) (hb j)

omit [Nonempty κ] [Nonempty ν] in
theorem isReal_affine (a : β → κ → EReal) (W : ν → κ → EReal) (b : ν → EReal) (ha : ∀ i k, IsReal (a i k))
    (hW : ∀ j k, IsReal (W j k)) (hb : ∀ j, IsReal (b j)) (i : β) (j : ν) : IsReal (affine a W b i j) :=
  (isReal_sum _ _ fun k _ => (ha i k).mul (hW j k)).add (hb j)

omit [Nonempty κ] [Nonempty ν] in
theorem isReal_dense (a : β → κ → EReal) (W : ν → κ → EReal) (b : ν → EReal) (ha : ∀ i k, IsReal (a i k))
    (hW : ∀ j k, IsReal (W j k)) (hb : ∀ j, IsReal (b j)) (i : β) (j : ν) : IsReal (dense a W b i j) :=
  (isReal_affine a W b ha hW hb i j).max isReal_zero

omit [Fintype β] [Fintype ν] [Nonempty κ] [Nonempty ν] in
theorem dense_nonneg (a : β → κ → EReal) (W : ν → κ → EReal) (b : ν → EReal) (i : β) (j : ν) : 0 ≤ dense a W b i j :=
  le_max_right _ _

omit [Nonempty κ] [Nonempty ν] in
/-- The largest magnitude of a nonnegative tensor is its largest entry. -/
theorem supAbs_eq_supOf (r : ν → κ → EReal) (h : ∀ j k, 0 ≤ r j k) : supAbs r = supOf r :=
  Finset.sup_congr rfl fun p _ => abs_of_nonneg' (h p.1 p.2)

theorem ste_wq (W : ν → κ → EReal) (hW : ∀ j k, IsReal (W j k)) : Ste.wq W = wq W := by
  funext j k; exact ste_of_isReal (hW j k) _

theorem ste_bq (sIn : EReal) (W : ν → κ → EReal) (b : ν → EReal) (hb : ∀ j, IsReal (b j)) : Ste.bq sIn W b = bq sIn W b := by
  funext j; exact ste_of_isReal (hb j) _

end Tensors

section Network

variable {β δ η ζ : Type} [Fintype β] [Fintype δ] [Fintype η] [Fintype ζ] [Nonempty β] [Nonempty δ] [Nonempty η]
  [Nonempty ζ]
variable (x : β → δ → EReal) (W1 : η → δ → EReal) (b1 : η → EReal) (W2 : η → η → EReal) (b2 : η → EReal)
  (W3 : ζ → η → EReal) (b3 : ζ → EReal)
variable (hx : ∀ i k, IsReal (x i k)) (hW1 : ∀ j k, IsReal (W1 j k)) (hb1 : ∀ j, IsReal (b1 j))
  (hW2 : ∀ j k, IsReal (W2 j k)) (hb2 : ∀ j, IsReal (b2 j)) (hW3 : ∀ j k, IsReal (W3 j k)) (hb3 : ∀ j, IsReal (b3 j))

include hW1 hb1 in
theorem isReal_r1 (i : β) (k : η) : IsReal (r1 x W1 b1 i k) :=
  isReal_dense _ _ _ (fun i k => IsReal.quant (lit_neg127 ▸ isReal_coe _) (lit_127 ▸ isReal_coe _) isPos_sX.isReal _)
    (isReal_wq W1 hW1) (isReal_bq isPos_sX W1 hW1 b1 hb1) i k

include hW1 hb1 in
theorem isPos_s1 : IsPos (s1 x W1 b1) :=
  scaleOf_pos (isReal_sup _ fun p => isReal_r1 x W1 b1 hW1 hb1 p.1 p.2) (sup_nonneg' _ fun p => dense_nonneg _ _ _ _ _)

include hW1 hb1 hW2 hb2 in
theorem isReal_r2 (i : β) (k : η) : IsReal (r2 x W1 b1 W2 b2 i k) :=
  isReal_dense _ _ _ (fun i k => IsReal.quant isReal_zero (lit_127 ▸ isReal_coe _) (isPos_s1 x W1 b1 hW1 hb1).isReal _)
    (isReal_wq W2 hW2) (isReal_bq (isPos_s1 x W1 b1 hW1 hb1) W2 hW2 b2 hb2) i k

include hx hW1 hb1 in
theorem ste_r1 : Ste.r1 x W1 b1 = r1 x W1 b1 := by
  unfold Ste.r1 r1
  rw [ste_wq W1 hW1, ste_bq sX W1 b1 hb1]
  congr 1
  funext i k; exact ste_of_isReal (hx i k) _

include hx hW1 hb1 in
theorem ste_s1 : Ste.s1 x W1 b1 = s1 x W1 b1 := by
  unfold Ste.s1 s1
  rw [ste_r1 x W1 b1 hx hW1 hb1, supAbs_eq_supOf (r1 x W1 b1) fun i k => dense_nonneg _ _ _ i k]

include hx hW1 hb1 in
theorem ste_a1 : Ste.a1 x W1 b1 = a1 x W1 b1 := by
  funext i k
  unfold Ste.a1 a1
  rw [ste_s1 x W1 b1 hx hW1 hb1, ste_r1 x W1 b1 hx hW1 hb1]
  exact ste_of_isReal (isReal_r1 x W1 b1 hW1 hb1 i k) _

include hx hW1 hb1 hW2 hb2 in
theorem ste_r2 : Ste.r2 x W1 b1 W2 b2 = r2 x W1 b1 W2 b2 := by
  unfold Ste.r2 r2
  rw [ste_wq W2 hW2, ste_bq _ W2 b2 hb2, ste_a1 x W1 b1 hx hW1 hb1, ste_s1 x W1 b1 hx hW1 hb1]

include hx hW1 hb1 hW2 hb2 in
theorem ste_s2 : Ste.s2 x W1 b1 W2 b2 = s2 x W1 b1 W2 b2 := by
  unfold Ste.s2 s2
  rw [ste_r2 x W1 b1 W2 b2 hx hW1 hb1 hW2 hb2, supAbs_eq_supOf (r2 x W1 b1 W2 b2) fun i k => dense_nonneg _ _ _ i k]

include hx hW1 hb1 hW2 hb2 in
theorem ste_a2 : Ste.a2 x W1 b1 W2 b2 = a2 x W1 b1 W2 b2 := by
  funext i k
  unfold Ste.a2 a2
  rw [ste_s2 x W1 b1 W2 b2 hx hW1 hb1 hW2 hb2, ste_r2 x W1 b1 W2 b2 hx hW1 hb1 hW2 hb2]
  exact ste_of_isReal (isReal_r2 x W1 b1 W2 b2 hW1 hb1 hW2 hb2 i k) _

include hx hW1 hb1 hW2 hb2 hW3 hb3 in
/-- From real inputs, the straight-through network is the network. -/
theorem ste_out : Ste.out x W1 b1 W2 b2 W3 b3 = out x W1 b1 W2 b2 W3 b3 := by
  unfold Ste.out out
  rw [ste_wq W3 hW3, ste_bq _ W3 b3 hb3, ste_a2 x W1 b1 W2 b2 hx hW1 hb1 hW2 hb2,
    ste_s2 x W1 b1 W2 b2 hx hW1 hb1 hW2 hb2]

end Network

/-! ## The cores' running maxima -/

/-- If every index of a family A names a core, A at an index is that core's running maximum of a nonnegative tensor r,
    and every row's core is named by some index, then the largest entry of A is the largest entry of r. -/
theorem sup_coreMax {B N : Nat} [NeZero B] [NeZero N] (rows : Nat) (r : Fin B → Fin N → EReal) (h0 : ∀ i j, 0 ≤ r i j)
    {ι : Type} [Fintype ι] (A : ι → EReal) (core : ι → Nat) (hA : ∀ i, A i = coreMax rows r (core i))
    (hsurj : ∀ p : Fin B, ∃ i, core i = p.val / rows) : Finset.univ.sup A = supOf r := by
  apply le_antisymm
  · refine Finset.sup_le fun i _ => ?_
    rw [hA i]
    refine max_le (sup_nonneg' _ fun p => h0 p.1 p.2) (Finset.sup_le fun p _ => ?_)
    split_ifs
    · exact Finset.le_sup (f := fun p : Fin B × Fin N => r p.1 p.2) (Finset.mem_univ p)
    · exact bot_le
  · refine Finset.sup_le fun p _ => ?_
    obtain ⟨i, hi⟩ := hsurj p.1
    refine le_trans ?_ (Finset.le_sup (Finset.mem_univ i))
    rw [hA i]
    refine le_max_of_le_right (le_trans ?_ (Finset.le_sup (Finset.mem_univ p)))
    rw [if_pos hi.symm]

end Cert.QuantNet

end
-- ==== Proof.PreReal.lean ====
/-
  The precondition read back: every entry of every input is a real number.

  The precondition is the conjunction, over the seven inputs, of "every entry has magnitude below plus infinity".  An
  extended real whose magnitude max x (-x) is below the top element is neither infinity, hence a real number.
-/
import proofs.«161439_j163208757492_2_alg».proof.Pre_finite_inputs
import proofs.«161439_j163208757492_2_alg».proof.Proof.Gen.Pre_finite_inputs
import proofs.«161439_j163208757492_2_alg».proof.Proof.SpecReal
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.PreValue

open Idealize.ShloMosaic Cert.RealValued Cert.QuantNet Cert.Pre_finite_inputs

instance : Subsingleton S_.Idx := ⟨fun a b => funext fun d => d.elim0⟩

/-- A magnitude below plus infinity belongs to a real number. -/
theorem isReal_of_abs_lt (x : EReal)
    (h : FloatOps.cmpf (F := Ideal) (φ := .f32) .olt (FloatOps.hostAbsf x) (FloatOps.ofBits .f32 0x7F800000#32) = 1#1) :
    IsReal x := by
  have hinf : Ideal.ofBits .f32 0x7F800000#32 = ⊤ := by simp [Ideal.ofBits, Ideal.ieee]
  rw [Ideal.cmpf_def, Ideal.hostAbsf_def, Ideal.absf_def, Ideal.ofBits_def, hinf] at h
  have hlt : max x (-x) < ⊤ := by
    by_contra hn
    simp [Ideal.cmp, hn] at h
  refine isReal_iff.mpr ⟨?_, ?_⟩
  · rintro rfl; simp at hlt
  · rintro rfl; simp at hlt

/-- One input's conjunct: all of its entries are real. -/
theorem all_real {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) (i : s.Idx) : IsReal (a i) := by
  have h1 := Host.reduce_andi_all _ _ hr hu _ e i
  apply isReal_of_abs_lt
  have hb' : broadcastInDim s ![] hb (constant (F := Ideal) S_ .f32 0x7F800000#32) i = FloatOps.ofBits .f32 0x7F800000#32 :=
    broadcastInDim_apply _ hb _ i ValueIdx.ix0 (fun a => a.elim0)
  rw [← hb']; exact h1

variable [Cert.Pre_finite_inputs.Facts]

/-- The precondition gives real entries in all seven inputs. -/
theorem args_real (a0 : FVec Ideal S131072x512 .f32) (a1 : FVec Ideal S64x512 .f32) (a2 : FVec Ideal S64 .f32)
    (a3 : FVec Ideal S64x64 .f32) (a4 : FVec Ideal S64 .f32) (a5 : FVec Ideal S2x64 .f32) (a6 : FVec Ideal S2 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ValueIdx.ix0
  dsimp only [fn, fn_part1, andi] at h0
  simp only [IntOp.andi_eq_one] at h0
  obtain ⟨⟨⟨⟨⟨⟨e0, e1⟩, e2⟩, e3⟩, e4⟩, e5⟩, e6⟩ := h0
  exact ⟨all_real a0 _ _ _ e0, all_real a1 _ _ _ e1, all_real a2 _ _ _ e2, all_real a3 _ _ _ e3, all_real a4 _ _ _ e4,
    all_real a5 _ _ _ e5, all_real a6 _ _ _ e6⟩

end Cert.Pre_finite_inputs.PreValue

end
-- ==== Proof.RefRead.lean ====
/-
  The plain network, read entry by entry: each named tensor of the straight-through network is the corresponding
  stage of the reference program at the same coordinates.  A whole-tensor maximum taken from -∞ is the supremum of
  the entries; a matrix product against a transposed weight matrix is the sum over the shared coordinate.
-/
import proofs.«161439_j163208757492_2_alg».proof.Proof.Gen.ReferenceIdeal.Read
import proofs.«161439_j163208757492_2_alg».proof.Proof.SpecSte
import proofs.«161439_j163208757492_2_alg».proof.Proof.Curry
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.QuantNet

/-- The supremum over the index type of a matrix is the supremum over pairs of coordinates. -/
theorem sup_idx2 {a b : Nat} (f : (⟨2, ![a, b]⟩ : Shape).Idx → EReal) :
    Finset.univ.sup f = Finset.univ.sup fun p : Fin a × Fin b => f (ix2 p.1 p.2) := by
  apply le_antisymm
  · refine Finset.sup_le fun i _ => ?_
    exact (congrArg f (eq_ix2 i)).le.trans
      (Finset.le_sup (f := fun p : Fin a × Fin b => f (ix2 p.1 p.2)) (Finset.mem_univ (i 0, i 1)))
  · exact Finset.sup_le fun p _ => Finset.le_sup (Finset.mem_univ _)

/-- A maximum over every entry of a matrix, started from -∞, is the supremum of the entries. -/
theorem reduce_max_all {a b : Nat} (f : (⟨2, ![a, b]⟩ : Shape).Idx → EReal) (init : S_.Idx → EReal)
    (h : (⟨2, ![a, b]⟩ : Shape).ReducesTo [0, 1] S_) (hu : 0 < S_.numel)
    (hinit : init (Shape.Idx.first hu) = ⊥) (j : S_.Idx) :
    Host.reduce (FloatOps.maximumf (F := Ideal) (φ := .f32)) f init h hu j
      = Finset.univ.sup fun p : Fin a × Fin b => f (ix2 p.1 p.2) := by
  rw [Host.reduce_eq_fold, hinit, ← sup_idx2,
    Finset.filter_true_of_mem (fun i _ => funext fun d => d.elim0)]
  rfl

theorem neg_inf_lit : Ideal.ofBits .f32 0xFF800000#32 = (⊥ : EReal) := by
  simp [Ideal.ofBits, Ideal.ieee]

/-! ### The first layer -/

/-- The input in straight-through quantized form. -/
theorem v7_eq (x : S131072x512.Idx → EReal) (p : Fin 131072) (k : Fin 512) :
    Read.val_main_v7 (F := Ideal) x (ix2 p k) = Ste.x0 (cur2 x) p k := by
  simp only [Read.val_main_v7_apply, Read.val_main_v6_apply, Read.val_main_v5_apply, Read.val_main_v4_apply,
    Read.val_main_cst_2_apply, Read.val_main_v3_apply, Read.val_main_call1_v4_apply, Read.val_main_call1_v3_apply,
    Read.val_main_cst_1_apply, Read.val_main_call1_v2_apply, Read.val_main_call1_v1_apply,
    Read.val_main_call1_v0_apply, Read.val_main_cst_0_apply, Read.val_main_v2_apply, Read.val_main_v1_apply,
    Read.val_main_v0_apply, Read.val_main_cst_apply,
    Ideal.addf_def, Ideal.subf_def, Ideal.mulf_def, Ideal.minimumf_def, Ideal.maximumf_def,
    Ideal.hostUnary_roundeven_def, Ideal.hostDivf_def, Ideal.ofBits_def]
  rfl

/-- The largest magnitude of the first weight matrix. -/
theorem v9_eq (W : S64x512.Idx → EReal) (j : S_.Idx) :
    Read.val_main_v9 (F := Ideal) W j = supAbs (cur2 W) := by
  unfold Read.val_main_v9
  rw [reduce_max_all _ _ _ _ neg_inf_lit]
  rfl

/-- The step of the first weight matrix. -/
theorem v18_eq (W : S64x512.Idx → EReal) (j : S_.Idx) :
    Read.val_main_v18 (F := Ideal) W j = wScale (cur2 W) := by
  simp only [Read.val_main_v18_apply, Read.val_main_v17_apply, Read.val_main_v16_apply, Read.val_main_cst_7_apply,
    Read.val_main_v15_apply, Read.val_main_v14_apply, Read.val_main_v13_apply, Read.val_main_cst_6_apply,
    Read.val_main_v12_apply, Read.val_main_v11_apply, Read.val_main_cst_5_apply, Read.val_main_v10_apply,
    Read.val_main_cst_4_apply, v9_eq,
    Ideal.addf_def, Ideal.mulf_def, Ideal.hostUnary_exp_def, Ideal.hostUnary_log_def, Ideal.hostUnary_ceil_def,
    Ideal.hostDivf_def, Ideal.ofBits_def]
  rfl

/-- The first weight matrix in straight-through quantized form. -/
theorem v26_eq (W : S64x512.Idx → EReal) (j : Fin 64) (k : Fin 512) :
    Read.val_main_v26 (F := Ideal) W (ix2 j k) = Ste.wq (cur2 W) j k := by
  simp only [Read.val_main_v26_apply, Read.val_main_v25_apply, Read.val_main_v24_apply, Read.val_main_v23_apply,
    Read.val_main_v22_apply, Read.val_main_call3_v4_apply, Read.val_main_call3_v3_apply, Read.val_main_cst_9_apply,
    Read.val_main_call3_v2_apply, Read.val_main_call3_v1_apply, Read.val_main_call3_v0_apply,
    Read.val_main_cst_8_apply, Read.val_main_v21_apply, Read.val_main_v20_apply, Read.val_main_v19_apply, v18_eq,
    Ideal.addf_def, Ideal.subf_def, Ideal.mulf_def, Ideal.minimumf_def, Ideal.maximumf_def,
    Ideal.hostUnary_roundeven_def, Ideal.hostDivf_def, Ideal.ofBits_def]
  rfl

/-- The first bias in straight-through rounded form. -/
theorem v34_eq (W : S64x512.Idx → EReal) (b : S64.Idx → EReal) (j : Fin 64) :
    Read.val_main_v34 (F := Ideal) W b (ix1 j) = Ste.bq sX (cur2 W) (cur1 b) j := by
  simp only [Read.val_main_v34_apply, Read.val_main_v33_apply, Read.val_main_v32_apply, Read.val_main_v31_apply,
    Read.val_main_v30_apply, Read.val_main_v29_apply, Read.val_main_v28_apply, Read.val_main_v27_apply,
    Read.val_main_cst_10_apply, v18_eq,
    Ideal.addf_def, Ideal.subf_def, Ideal.mulf_def,
    Ideal.hostUnary_roundeven_def, Ideal.hostDivf_def, Ideal.ofBits_def]
  rfl

theorem lidx36 (p : Fin 131072) (q : Fin 64) (k : Fin 512) : Read.lidx_main_v36 (ix2 p q) k = ix2 p k :=
  funext fun a => Fin.ext (by match a with | ⟨0, _⟩ => rfl | ⟨1, _⟩ => rfl)

theorem ridx36 (p : Fin 131072) (q : Fin 64) (k : Fin 512) :
    Read.idx_main_v35 (Read.ridx_main_v36 (ix2 p q) k) = ix2 q k :=
  funext fun a => Fin.ext (by match a with | ⟨0, _⟩ => rfl | ⟨1, _⟩ => rfl)

theorem bidx38 (p : Fin 131072) (q : Fin 64) : Read.idx_main_v37 (Read.idx_main_v38 (ix2 p q)) = ix1 q :=
  funext fun a => Fin.ext (by match a with | ⟨0, _⟩ => rfl)

/-- The first rectified layer. -/
theorem v40_eq (x : S131072x512.Idx → EReal) (W : S64x512.Idx → EReal) (b : S64.Idx → EReal)
    (p : Fin 131072) (q : Fin 64) :
    Read.val_main_v40 (F := Ideal) x W b (ix2 p q) = Ste.r1 (cur2 x) (cur2 W) (cur1 b) p q := by
  rw [Read.val_main_v40_apply, Read.val_main_v39_apply, Read.val_main_v36_apply, Read.val_main_v38_apply,
    Read.val_main_v37_apply, bidx38, v34_eq, Read.val_main_call5_v0_apply, Read.val_main_call5_cst_apply]
  simp only [Read.val_main_v35_apply, lidx36, ridx36, v7_eq, v26_eq,
    Ideal.addf_def, Ideal.maximumf_def, Ideal.ofBits_def, Ideal.ofBits_zero_f32]
  rfl

/-- The largest magnitude of the first rectified layer. -/
theorem v42_eq (x : S131072x512.Idx → EReal) (W : S64x512.Idx → EReal) (b : S64.Idx → EReal) (j : S_.Idx) :
    Read.val_main_v42 (F := Ideal) x W b j = supAbs (Ste.r1 (cur2 x) (cur2 W) (cur1 b)) := by
  unfold Read.val_main_v42
  rw [reduce_max_all _ _ _ _ neg_inf_lit]
  simp only [Read.val_main_v41_apply, v40_eq]
  rfl

/-- The first activation step. -/
theorem v51_eq (x : S131072x512.Idx → EReal) (W : S64x512.Idx → EReal) (b : S64.Idx → EReal) (j : S_.Idx) :
    Read.val_main_v51 (F := Ideal) x W b j = Ste.s1 (cur2 x) (cur2 W) (cur1 b) := by
  simp only [Read.val_main_v51_apply, Read.val_main_v50_apply, Read.val_main_v49_apply, Read.val_main_cst_15_apply,
    Read.val_main_v48_apply, Read.val_main_v47_apply, Read.val_main_v46_apply, Read.val_main_cst_14_apply,
    Read.val_main_v45_apply, Read.val_main_v44_apply, Read.val_main_cst_13_apply, Read.val_main_v43_apply,
    Read.val_main_cst_12_apply, v42_eq,
    Ideal.addf_def, Ideal.mulf_def, Ideal.hostUnary_exp_def, Ideal.hostUnary_log_def, Ideal.hostUnary_ceil_def,
    Ideal.hostDivf_def, Ideal.ofBits_def]
  rfl

/-- The first rectified layer in straight-through quantized form. -/
theorem v59_eq (x : S131072x512.Idx → EReal) (W : S64x512.Idx → EReal) (b : S64.Idx → EReal)
    (p : Fin 131072) (q : Fin 64) :
    Read.val_main_v59 (F := Ideal) x W b (ix2 p q) = Ste.a1 (cur2 x) (cur2 W) (cur1 b) p q := by
  simp only [Read.val_main_v59_apply, Read.val_main_v58_apply, Read.val_main_v57_apply, Read.val_main_v56_apply,
    Read.val_main_v55_apply, Read.val_main_call7_v4_apply, Read.val_main_call7_v3_apply, Read.val_main_cst_17_apply,
    Read.val_main_call7_v2_apply, Read.val_main_call7_v1_apply, Read.val_main_call7_v0_apply,
    Read.val_main_cst_16_apply, Read.val_main_v54_apply, Read.val_main_v53_apply, Read.val_main_v52_apply,
    v51_eq, v40_eq,
    Ideal.addf_def, Ideal.subf_def, Ideal.mulf_def, Ideal.minimumf_def, Ideal.maximumf_def,
    Ideal.hostUnary_roundeven_def, Ideal.hostDivf_def, Ideal.ofBits_def, Ideal.ofBits_zero_f32]
  rfl

/-! ### The second layer -/

/-- The largest magnitude of the second weight matrix. -/
theorem v61_eq (W : S64x64.Idx → EReal) (j : S_.Idx) :
    Read.val_main_v61 (F := Ideal) W j = supAbs (cur2 W) := by
  unfold Read.val_main_v61
  rw [reduce_max_all _ _ _ _ neg_inf_lit]
  rfl

/-- The step of the second weight matrix. -/
theorem v70_eq (W : S64x64.Idx → EReal) (j : S_.Idx) :
    Read.val_main_v70 (F := Ideal) W j = wScale (cur2 W) := by
  simp only [Read.val_main_v70_apply, Read.val_main_v69_apply, Read.val_main_v68_apply, Read.val_main_cst_22_apply,
    Read.val_main_v67_apply, Read.val_main_v66_apply, Read.val_main_v65_apply, Read.val_main_cst_21_apply,
    Read.val_main_v64_apply, Read.val_main_v63_apply, Read.val_main_cst_20_apply, Read.val_main_v62_apply,
    Read.val_main_cst_19_apply, v61_eq,
    Ideal.addf_def, Ideal.mulf_def, Ideal.hostUnary_exp_def, Ideal.hostUnary_log_def, Ideal.hostUnary_ceil_def,
    Ideal.hostDivf_def, Ideal.ofBits_def]
  rfl

/-- The second weight matrix in straight-through quantized form. -/
theorem v78_eq (W : S64x64.Idx → EReal) (j : Fin 64) (k : Fin 64) :
    Read.val_main_v78 (F := Ideal) W (ix2 j k) = Ste.wq (cur2 W) j k := by
  simp only [Read.val_main_v78_apply, Read.val_main_v77_apply, Read.val_main_v76_apply, Read.val_main_v75_apply,
    Read.val_main_v74_apply, Read.val_main_call9_v4_apply, Read.val_main_call9_v3_apply, Read.val_main_cst_24_apply,
    Read.val_main_call9_v2_apply, Read.val_main_call9_v1_apply, Read.val_main_call9_v0_apply,
    Read.val_main_cst_23_apply, Read.val_main_v73_apply, Read.val_main_v72_apply, Read.val_main_v71_apply, v70_eq,
    Ideal.addf_def, Ideal.subf_def, Ideal.mulf_def, Ideal.minimumf_def, Ideal.maximumf_def,
    Ideal.hostUnary_roundeven_def, Ideal.hostDivf_def, Ideal.ofBits_def]
  rfl

/-- The second bias in straight-through rounded form. -/
theorem v86_eq (x : S131072x512.Idx → EReal) (W1 : S64x512.Idx → EReal) (b1 : S64.Idx → EReal)
    (W2 : S64x64.Idx → EReal) (b2 : S64.Idx → EReal) (j : Fin 64) :
    Read.val_main_v86 (F := Ideal) x W1 b1 W2 b2 (ix1 j)
      = Ste.bq (Ste.s1 (cur2 x) (cur2 W1) (cur1 b1)) (cur2 W2) (cur1 b2) j := by
  simp only [Read.val_main_v86_apply, Read.val_main_v85_apply, Read.val_main_v84_apply, Read.val_main_v83_apply,
    Read.val_main_v82_apply, Read.val_main_v81_apply, Read.val_main_v80_apply, Read.val_main_v79_apply,
    v51_eq, v70_eq,
    Ideal.addf_def, Ideal.subf_def, Ideal.mulf_def,
    Ideal.hostUnary_roundeven_def, Ideal.hostDivf_def, Ideal.ofBits_def]
  rfl

theorem lidx88 (p : Fin 131072) (q : Fin 64) (k : Fin 64) : Read.lidx_main_v88 (ix2 p q) k = ix2 p k :=
  funext fun a => Fin.ext (by match a with | ⟨0, _⟩ => rfl | ⟨1, _⟩ => rfl)

theorem ridx88 (p : Fin 131072) (q : Fin 64) (k : Fin 64) :
    Read.idx_main_v87 (Read.ridx_main_v88 (ix2 p q) k) = ix2 q k :=
  funext fun a => Fin.ext (by match a with | ⟨0, _⟩ => rfl | ⟨1, _⟩ => rfl)

theorem bidx90 (p : Fin 131072) (q : Fin 64) : Read.idx_main_v89 (Read.idx_main_v90 (ix2 p q)) = ix1 q :=
  funext fun a => Fin.ext (by match a with | ⟨0, _⟩ => rfl)

/-- The second rectified layer. -/
theorem v92_eq (x : S131072x512.Idx → EReal) (W1 : S64x512.Idx → EReal) (b1 : S64.Idx → EReal)
    (W2 : S64x64.Idx → EReal) (b2 : S64.Idx → EReal) (p : Fin 131072) (q : Fin 64) :
    Read.val_main_v92 (F := Ideal) x W1 b1 W2 b2 (ix2 p q)
      = Ste.r2 (cur2 x) (cur2 W1) (cur1 b1) (cur2 W2) (cur1 b2) p q := by
  rw [Read.val_main_v92_apply, Read.val_main_v91_apply, Read.val_main_v88_apply, Read.val_main_v90_apply,
    Read.val_main_v89_apply, bidx90, v86_eq, Read.val_main_call11_v0_apply, Read.val_main_call11_cst_apply]
  simp only [Read.val_main_v87_apply, lidx88, ridx88, v59_eq, v78_eq,
    Ideal.addf_def, Ideal.maximumf_def, Ideal.ofBits_def, Ideal.ofBits_zero_f32]
  rfl

/-- The largest magnitude of the second rectified layer. -/
theorem v94_eq (x : S131072x512.Idx → EReal) (W1 : S64x512.Idx → EReal) (b1 : S64.Idx → EReal)
    (W2 : S64x64.Idx → EReal) (b2 : S64.Idx → EReal) (j : S_.Idx) :
    Read.val_main_v94 (F := Ideal) x W1 b1 W2 b2 j
      = supAbs (Ste.r2 (cur2 x) (cur2 W1) (cur1 b1) (cur2 W2) (cur1 b2)) := by
  unfold Read.val_main_v94
  rw [reduce_max_all _ _ _ _ neg_inf_lit]
  simp only [Read.val_main_v93_apply, v92_eq]
  rfl

/-- The second activation step. -/
theorem v103_eq (x : S131072x512.Idx → EReal) (W1 : S64x512.Idx → EReal) (b1 : S64.Idx → EReal)
    (W2 : S64x64.Idx → EReal) (b2 : S64.Idx → EReal) (j : S_.Idx) :
    Read.val_main_v103 (F := Ideal) x W1 b1 W2 b2 j
      = Ste.s2 (cur2 x) (cur2 W1) (cur1 b1) (cur2 W2) (cur1 b2) := by
  simp only [Read.val_main_v103_apply, Read.val_main_v102_apply, Read.val_main_v101_apply,
    Read.val_main_cst_29_apply, Read.val_main_v100_apply, Read.val_main_v99_apply, Read.val_main_v98_apply,
    Read.val_main_cst_28_apply, Read.val_main_v97_apply, Read.val_main_v96_apply, Read.val_main_cst_27_apply,
    Read.val_main_v95_apply, Read.val_main_cst_26_apply, v94_eq,
    Ideal.addf_def, Ideal.mulf_def, Ideal.hostUnary_exp_def, Ideal.hostUnary_log_def, Ideal.hostUnary_ceil_def,
    Ideal.hostDivf_def, Ideal.ofBits_def]
  rfl

/-- The second rectified layer in straight-through quantized form. -/
theorem v111_eq (x : S131072x512.Idx → EReal) (W1 : S64x512.Idx → EReal) (b1 : S64.Idx → EReal)
    (W2 : S64x64.Idx → EReal) (b2 : S64.Idx → EReal) (p : Fin 131072) (q : Fin 64) :
    Read.val_main_v111 (F := Ideal) x W1 b1 W2 b2 (ix2 p q)
      = Ste.a2 (cur2 x) (cur2 W1) (cur1 b1) (cur2 W2) (cur1 b2) p q := by
  simp only [Read.val_main_v111_apply, Read.val_main_v110_apply, Read.val_main_v109_apply, Read.val_main_v108_apply,
    Read.val_main_v107_apply, Read.val_main_call13_v4_apply, Read.val_main_call13_v3_apply,
    Read.val_main_cst_31_apply, Read.val_main_call13_v2_apply, Read.val_main_call13_v1_apply,
    Read.val_main_call13_v0_apply, Read.val_main_cst_30_apply, Read.val_main_v106_apply, Read.val_main_v105_apply,
    Read.val_main_v104_apply, v103_eq, v92_eq,
    Ideal.addf_def, Ideal.subf_def, Ideal.mulf_def, Ideal.minimumf_def, Ideal.maximumf_def,
    Ideal.hostUnary_roundeven_def, Ideal.hostDivf_def, Ideal.ofBits_def, Ideal.ofBits_zero_f32]
  rfl

/-! ### The last layer -/

/-- The largest magnitude of the last weight matrix. -/
theorem v113_eq (W : S2x64.Idx → EReal) (j : S_.Idx) :
    Read.val_main_v113 (F := Ideal) W j = supAbs (cur2 W) := by
  unfold Read.val_main_v113
  rw [reduce_max_all _ _ _ _ neg_inf_lit]
  rfl

/-- The step of the last weight matrix. -/
theorem v122_eq (W : S2x64.Idx → EReal) (j : S_.Idx) :
    Read.val_main_v122 (F := Ideal) W j = wScale (cur2 W) := by
  simp only [Read.val_main_v122_apply, Read.val_main_v121_apply, Read.val_main_v120_apply,
    Read.val_main_cst_36_apply, Read.val_main_v119_apply, Read.val_main_v118_apply, Read.val_main_v117_apply,
    Read.val_main_cst_35_apply, Read.val_main_v116_apply, Read.val_main_v115_apply, Read.val_main_cst_34_apply,
    Read.val_main_v114_apply, Read.val_main_cst_33_apply, v113_eq,
    Ideal.addf_def, Ideal.mulf_def, Ideal.hostUnary_exp_def, Ideal.hostUnary_log_def, Ideal.hostUnary_ceil_def,
    Ideal.hostDivf_def, Ideal.ofBits_def]
  rfl

/-- The last weight matrix in straight-through quantized form. -/
theorem v130_eq (W : S2x64.Idx → EReal) (j : Fin 2) (k : Fin 64) :
    Read.val_main_v130 (F := Ideal) W (ix2 j k) = Ste.wq (cur2 W) j k := by
  simp only [Read.val_main_v130_apply, Read.val_main_v129_apply, Read.val_main_v128_apply, Read.val_main_v127_apply,
    Read.val_main_v126_apply, Read.val_main_call15_v4_apply, Read.val_main_call15_v3_apply,
    Read.val_main_cst_38_apply, Read.val_main_call15_v2_apply, Read.val_main_call15_v1_apply,
    Read.val_main_call15_v0_apply, Read.val_main_cst_37_apply, Read.val_main_v125_apply, Read.val_main_v124_apply,
    Read.val_main_v123_apply, v122_eq,
    Ideal.addf_def, Ideal.subf_def, Ideal.mulf_def, Ideal.minimumf_def, Ideal.maximumf_def,
    Ideal.hostUnary_roundeven_def, Ideal.hostDivf_def, Ideal.ofBits_def]
  rfl

/-- The last bias in straight-through rounded form. -/
theorem v138_eq (x : S131072x512.Idx → EReal) (W1 : S64x512.Idx → EReal) (b1 : S64.Idx → EReal)
    (W2 : S64x64.Idx → EReal) (b2 : S64.Idx → EReal) (W3 : S2x64.Idx → EReal) (b3 : S2.Idx → EReal) (j : Fin 2) :
    Read.val_main_v138 (F := Ideal) x W1 b1 W2 b2 W3 b3 (ix1 j)
      = Ste.bq (Ste.s2 (cur2 x) (cur2 W1) (cur1 b1) (cur2 W2) (cur1 b2)) (cur2 W3) (cur1 b3) j := by
  simp only [Read.val_main_v138_apply, Read.val_main_v137_apply, Read.val_main_v136_apply, Read.val_main_v135_apply,
    Read.val_main_v134_apply, Read.val_main_v133_apply, Read.val_main_v132_apply, Read.val_main_v131_apply,
    v103_eq, v122_eq,
    Ideal.addf_def, Ideal.subf_def, Ideal.mulf_def,
    Ideal.hostUnary_roundeven_def, Ideal.hostDivf_def, Ideal.ofBits_def]
  rfl

theorem lidx140 (p : Fin 131072) (q : Fin 2) (k : Fin 64) : Read.lidx_main_v140 (ix2 p q) k = ix2 p k :=
  funext fun a => Fin.ext (by match a with | ⟨0, _⟩ => rfl | ⟨1, _⟩ => rfl)

theorem ridx140 (p : Fin 131072) (q : Fin 2) (k : Fin 64) :
    Read.idx_main_v139 (Read.ridx_main_v140 (ix2 p q) k) = ix2 q k :=
  funext fun a => Fin.ext (by match a with | ⟨0, _⟩ => rfl | ⟨1, _⟩ => rfl)

theorem bidx142 (p : Fin 131072) (q : Fin 2) : Read.idx_main_v141 (Read.idx_main_v142 (ix2 p q)) = ix1 q :=
  funext fun a => Fin.ext (by match a with | ⟨0, _⟩ => rfl)

/-- The reference program's result is the straight-through network's output, entry by entry. -/
theorem v143_eq (x : S131072x512.Idx → EReal) (W1 : S64x512.Idx → EReal) (b1 : S64.Idx → EReal)
    (W2 : S64x64.Idx → EReal) (b2 : S64.Idx → EReal) (W3 : S2x64.Idx → EReal) (b3 : S2.Idx → EReal)
    (p : Fin 131072) (q : Fin 2) :
    Read.val_main_v143 (F := Ideal) x W1 b1 W2 b2 W3 b3 (ix2 p q)
      = Ste.out (cur2 x) (cur2 W1) (cur1 b1) (cur2 W2) (cur1 b2) (cur2 W3) (cur1 b3) p q := by
  rw [Read.val_main_v143_apply, Read.val_main_v140_apply, Read.val_main_v142_apply, Read.val_main_v141_apply,
    bidx142, v138_eq]
  simp only [Read.val_main_v139_apply, lidx140, ridx140, v111_eq, v130_eq, Ideal.addf_def]
  rfl

/-- The same at an arbitrary index of the result. -/
theorem v143_at (x : S131072x512.Idx → EReal) (W1 : S64x512.Idx → EReal) (b1 : S64.Idx → EReal)
    (W2 : S64x64.Idx → EReal) (b2 : S64.Idx → EReal) (W3 : S2x64.Idx → EReal) (b3 : S2.Idx → EReal)
    (i : S131072x2.Idx) :
    Read.val_main_v143 (F := Ideal) x W1 b1 W2 b2 W3 b3 i
      = Ste.out (cur2 x) (cur2 W1) (cur1 b1) (cur2 W2) (cur1 b2) (cur2 W3) (cur1 b3) (i 0) (i 1) :=
  (congrArg (Read.val_main_v143 (F := Ideal) x W1 b1 W2 b2 W3 b3) (eq_ix2 i)).trans
    (v143_eq x W1 b1 W2 b2 W3 b3 (i 0) (i 1))

end Cert.ReferenceIdeal.RefValue

end
-- ==== Proof.Bridge.lean ====
/-
  The reference's result is the network's output.

  The reference program computes the network in straight-through form, with each step taken from a largest magnitude.
  Entry by entry its result is that form of the network (the reading of the program, stage by stage); from real inputs
  the straight-through form is the network itself, and a rectified tensor's largest magnitude is its largest entry.
-/
import proofs.«161439_j163208757492_2_alg».proof.Defs
import proofs.«161439_j163208757492_2_alg».proof.Proof.Gen.ReferenceIdeal
import proofs.«161439_j163208757492_2_alg».proof.Proof.Gen.KernelIdeal
import proofs.«161439_j163208757492_2_alg».proof.Proof.Gen.ReferenceIdeal.Run
import proofs.«161439_j163208757492_2_alg».proof.Proof.Gen.ReferenceIdeal.Read
import proofs.«161439_j163208757492_2_alg».proof.Proof.RefRead
import proofs.«161439_j163208757492_2_alg».proof.Proof.SpecReal

noncomputable section

namespace Cert.Proof.RefSide

open Idealize.ShloMosaic Idealize.SL.Sem Idealize.ShloMosaic.ValueIdx Cert.QuantNet Cert.RealValued

/-- The network's output as an array over the result's index type, from the seven input arrays. -/
def outArr (x : Cert.KernelIdeal.S131072x512.Idx → EReal) (W1 : Cert.KernelIdeal.S64x512.Idx → EReal)
    (b1 : Cert.KernelIdeal.S64.Idx → EReal) (W2 : Cert.KernelIdeal.S64x64.Idx → EReal) (b2 : Cert.KernelIdeal.S64.Idx → EReal)
    (W3 : Cert.KernelIdeal.S2x64.Idx → EReal) (b3 : Cert.KernelIdeal.S2.Idx → EReal) : Cert.KernelIdeal.S131072x2.Idx → EReal :=
  fun i => QuantNet.out (cur2 x) (cur2 W1) (cur1 b1) (cur2 W2) (cur1 b2) (cur2 W3) (cur1 b3) (i 0) (i 1)

/-- From real inputs the reference's result array is the network's output. -/
theorem ref_value (x : Cert.ReferenceIdeal.S131072x512.Idx → EReal) (W1 : Cert.ReferenceIdeal.S64x512.Idx → EReal)
    (b1 : Cert.ReferenceIdeal.S64.Idx → EReal) (W2 : Cert.ReferenceIdeal.S64x64.Idx → EReal) (b2 : Cert.ReferenceIdeal.S64.Idx → EReal)
    (W3 : Cert.ReferenceIdeal.S2x64.Idx → EReal) (b3 : Cert.ReferenceIdeal.S2.Idx → EReal)
    (hx : ∀ i, IsReal (x i)) (hW1 : ∀ i, IsReal (W1 i)) (hb1 : ∀ i, IsReal (b1 i)) (hW2 : ∀ i, IsReal (W2 i))
    (hb2 : ∀ i, IsReal (b2 i)) (hW3 : ∀ i, IsReal (W3 i)) (hb3 : ∀ i, IsReal (b3 i)) :
    Cert.ReferenceIdeal.Read.val_main_v143 (F := Ideal) x W1 b1 W2 b2 W3 b3 = outArr x W1 b1 W2 b2 W3 b3 := by
  funext i
  rw [Cert.ReferenceIdeal.RefValue.v143_at]
  unfold outArr
  rw [ste_out (cur2 x) (cur2 W1) (cur1 b1) (cur2 W2) (cur1 b2) (cur2 W3) (cur1 b3) (fun i k => hx _) (fun j k => hW1 _)
    (fun j => hb1 _) (fun j k => hW2 _) (fun j => hb2 _) (fun j k => hW3 _) (fun j => hb3 _)]

end Cert.Proof.RefSide

end
-- ==== Proof.KernelRun.lean ====
/-
  The whole run of the three-pass network program: every buffer the program leaves is the fold of its passes and of the
  host arithmetic between them over the launch memory.  The output array is what the third pass leaves; the first
  pass's rectified tensor reaches the second and third passes untouched; the seven arguments end as launched.
-/
import proofs.«161439_j163208757492_2_alg».proof.Proof.Gen.KernelIdeal.Frame
import proofs.«161439_j163208757492_2_alg».proof.Proof.Curry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the launch memory terminates, and in every final state each core's
    unscoped buffers hold the fold of the three passes and the host arithmetic over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.W24 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h => h)

/-! ## Walking a buffer back through host arithmetic that does not write it -/

/-- A reference none of a stretch's operations writes holds after the stretch what it held before. -/
theorem after_skip {ops : List (HloOp τ sig (Elt F))} {V : Valuation τ sig (Elt F)} {b : Ref sig .tc}
    (h : ops.Forall fun op => Proc.devRef .tc b ∉ op.writes) :
    StableHlo.after ops V (Proc.devRef .tc b) = V (Proc.devRef .tc b) :=
  StableHlo.after_of_forall_not_mem ops V (List.forall_iff_forall_mem.mp h)

/-- Decides that a literal stretch of host operations writes none of a given reference. -/
macro "not_written" : tactic =>
  `(tactic| (simp only [hostOps0, hostOps0_1, hostOps0_2, hostOps0_3, hostOps0_4, hostOps0_5, hostOps0_6,
      hostOps1, hostOps1_1, hostOps1_2, hostOps1_3, hostOps1_4, hostOps1_5, hostOps1_6,
      hostOps2, hostOps2_1, hostOps2_2, hostOps2_3, hostOps2_4, hostOps2_5, hostOps2_6,
      List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact StableHlo.devRef_ne_of_ne (by decide)))

/-- The second stretch of host arithmetic (between the first and the second pass) leaves a reference it does not
    write as the first pass left it. -/
theorem stretch1_skip (c : Dev nD) (b : Ref sig .tc)
    (h0 : (hostOps1 (F := F)).Forall fun op => Proc.devRef .tc b ∉ op.writes)
    (h1 : (hostOps1_1 (F := F)).Forall fun op => Proc.devRef .tc b ∉ op.writes)
    (h2 : (hostOps1_2 (F := F)).Forall fun op => Proc.devRef .tc b ∉ op.writes)
    (h3 : (hostOps1_3 (F := F)).Forall fun op => Proc.devRef .tc b ∉ op.writes)
    (h4 : (hostOps1_4 (F := F)).Forall fun op => Proc.devRef .tc b ∉ op.writes)
    (h5 : (hostOps1_5 (F := F)).Forall fun op => Proc.devRef .tc b ∉ op.writes)
    (h6 : (hostOps1_6 (F := F)).Forall fun op => Proc.devRef .tc b ∉ op.writes) :
    W15 m ρ c (Proc.devRef .tc b) = W8 m ρ c (Proc.devRef .tc b) :=
  (after_skip h6).trans <| (after_skip h5).trans <| (after_skip h4).trans <| (after_skip h3).trans <|
    (after_skip h2).trans <| (after_skip h1).trans <| after_skip h0

/-- The third stretch (between the second and the third pass) likewise. -/
theorem stretch2_skip (c : Dev nD) (b : Ref sig .tc)
    (h0 : (hostOps2 (F := F)).Forall fun op => Proc.devRef .tc b ∉ op.writes)
    (h1 : (hostOps2_1 (F := F)).Forall fun op => Proc.devRef .tc b ∉ op.writes)
    (h2 : (hostOps2_2 (F := F)).Forall fun op => Proc.devRef .tc b ∉ op.writes)
    (h3 : (hostOps2_3 (F := F)).Forall fun op => Proc.devRef .tc b ∉ op.writes)
    (h4 : (hostOps2_4 (F := F)).Forall fun op => Proc.devRef .tc b ∉ op.writes)
    (h5 : (hostOps2_5 (F := F)).Forall fun op => Proc.devRef .tc b ∉ op.writes)
    (h6 : (hostOps2_6 (F := F)).Forall fun op => Proc.devRef .tc b ∉ op.writes) :
    W23 m ρ c (Proc.devRef .tc b) = W16 m ρ c (Proc.devRef .tc b) :=
  (after_skip h6).trans <| (after_skip h5).trans <| (after_skip h4).trans <| (after_skip h3).trans <|
    (after_skip h2).trans <| (after_skip h1).trans <| after_skip h0

/-! ## The output, and the arguments -/

/-- The program's result array is what the third pass's write-backs leave. -/
theorem out_read (c : Dev nD) :
    Gen.W24 m ρ c (Proc.devRef .tc main_v102) = (Gen.dat2 (Gen.V23 m ρ) c).arrAt 7 cfg2.N :=
  W24_arr m ρ c 7

theorem out_mem : (Proc.devRef .tc main_v102 : DevRef τ sig) ∈ Pipeline.ucRefs τ sig := mem_uc main_v102 (by decide)

/-! ## The first pass's rectified tensor reaches the second and third passes untouched -/

/-- At the second pass's entry the rectified tensor is what the first pass's write-backs left. -/
theorem r1_at_pass2 (c : Dev nD) :
    Gen.V15 m ρ c main_v26_0 = (Gen.dat0 (Gen.V7 m ρ) c).arrAt 3 cfg0.N :=
  (stretch1_skip m ρ c main_v26_0 (by not_written) (by not_written) (by not_written) (by not_written)
    (by not_written) (by not_written) (by not_written)).trans (W8_arr m ρ c 3)

/-- The second pass only reads it. -/
theorem r1_through_pass2 (c : Dev nD) :
    W16 m ρ c (Proc.devRef .tc main_v26_0) = Gen.V15 m ρ c main_v26_0 :=
  (W16_arr m ρ c 0).trans (((dat1 (V15 m ρ) c).arrAt_in 0 rfl _).trans (A_eq1 (V15 m ρ) c 0))

/-- At the third pass's entry it is still what the first pass left. -/
theorem r1_at_pass3 (c : Dev nD) :
    Gen.V23 m ρ c main_v26_0 = (Gen.dat0 (Gen.V7 m ρ) c).arrAt 3 cfg0.N :=
  (stretch2_skip m ρ c main_v26_0 (by not_written) (by not_written) (by not_written) (by not_written)
    (by not_written) (by not_written) (by not_written)).trans ((r1_through_pass2 m ρ c).trans (r1_at_pass2 m ρ c))

/-- The first pass's running maxima, as the host reads them after it. -/
theorem max1_read (c : Dev nD) :
    W8 m ρ c (Proc.devRef .tc main_v26_1) = (Gen.dat0 (Gen.V7 m ρ) c).arrAt 4 cfg0.N := W8_arr m ρ c 4

/-- The second pass's running maxima, as the host reads them after it. -/
theorem max2_read (c : Dev nD) :
    W16 m ρ c (Proc.devRef .tc main_v64) = (Gen.dat1 (Gen.V15 m ρ) c).arrAt 4 cfg1.N := W16_arr m ρ c 4

/-! ## The arguments and the host-computed operands, as later stretches and passes find them -/

/-- The first stretch of host arithmetic (before the first pass) leaves a reference it does not write as launched. -/
theorem stretch0_skip (c : Dev nD) (b : Ref sig .tc)
    (h0 : (hostOps0 (F := F)).Forall fun op => Proc.devRef .tc b ∉ op.writes)
    (h1 : (hostOps0_1 (F := F)).Forall fun op => Proc.devRef .tc b ∉ op.writes)
    (h2 : (hostOps0_2 (F := F)).Forall fun op => Proc.devRef .tc b ∉ op.writes)
    (h3 : (hostOps0_3 (F := F)).Forall fun op => Proc.devRef .tc b ∉ op.writes)
    (h4 : (hostOps0_4 (F := F)).Forall fun op => Proc.devRef .tc b ∉ op.writes)
    (h5 : (hostOps0_5 (F := F)).Forall fun op => Proc.devRef .tc b ∉ op.writes)
    (h6 : (hostOps0_6 (F := F)).Forall fun op => Proc.devRef .tc b ∉ op.writes) :
    W7 m ρ c (Proc.devRef .tc b) = W0 m ρ c (Proc.devRef .tc b) :=
  (after_skip h6).trans <| (after_skip h5).trans <| (after_skip h4).trans <| (after_skip h3).trans <|
    (after_skip h2).trans <| (after_skip h1).trans <| after_skip h0

/-- The input batch, as the first pass finds it. -/
theorem x_at_pass1 (c : Dev nD) : Gen.V7 m ρ c main_arg0 = m ((c : Thread nD τ).loc main_arg0) :=
  (stretch0_skip m ρ c main_arg0 (by not_written) (by not_written) (by not_written) (by not_written)
    (by not_written) (by not_written) (by not_written)).trans rfl

/-- The second layer's weights, as the host reads them after the first pass. -/
theorem w2_after_pass1 (c : Dev nD) : W8 m ρ c (Proc.devRef .tc main_arg3) = m ((c : Thread nD τ).loc main_arg3) :=
  (W8_of_ne m ρ c main_arg3 (by decide)).trans <|
    (stretch0_skip m ρ c main_arg3 (by not_written) (by not_written) (by not_written) (by not_written)
      (by not_written) (by not_written) (by not_written)).trans rfl

/-- The second layer's bias, as the host reads it after the first pass. -/
theorem b2_after_pass1 (c : Dev nD) : W8 m ρ c (Proc.devRef .tc main_arg4) = m ((c : Thread nD τ).loc main_arg4) :=
  (W8_of_ne m ρ c main_arg4 (by decide)).trans <|
    (stretch0_skip m ρ c main_arg4 (by not_written) (by not_written) (by not_written) (by not_written)
      (by not_written) (by not_written) (by not_written)).trans rfl

/-- The third layer's weights, as the host reads them after the second pass. -/
theorem w3_after_pass2 (c : Dev nD) : W16 m ρ c (Proc.devRef .tc main_arg5) = m ((c : Thread nD τ).loc main_arg5) :=
  (W16_of_ne m ρ c main_arg5 (by decide)).trans <|
    (stretch1_skip m ρ c main_arg5 (by not_written) (by not_written) (by not_written) (by not_written)
      (by not_written) (by not_written) (by not_written)).trans <|
    (W8_of_ne m ρ c main_arg5 (by decide)).trans <|
    (stretch0_skip m ρ c main_arg5 (by not_written) (by not_written) (by not_written) (by not_written)
      (by not_written) (by not_written) (by not_written)).trans rfl

/-- The third layer's bias, as the host reads it after the second pass. -/
theorem b3_after_pass2 (c : Dev nD) : W16 m ρ c (Proc.devRef .tc main_arg6) = m ((c : Thread nD τ).loc main_arg6) :=
  (W16_of_ne m ρ c main_arg6 (by decide)).trans <|
    (stretch1_skip m ρ c main_arg6 (by not_written) (by not_written) (by not_written) (by not_written)
      (by not_written) (by not_written) (by not_written)).trans <|
    (W8_of_ne m ρ c main_arg6 (by decide)).trans <|
    (stretch0_skip m ρ c main_arg6 (by not_written) (by not_written) (by not_written) (by not_written)
      (by not_written) (by not_written) (by not_written)).trans rfl

/-- The first activation step, as the third pass finds it: what the second pass found. -/
theorem s1_at_pass3 (c : Dev nD) : Gen.V23 m ρ c main_v37 = Gen.V15 m ρ c main_v37 :=
  (stretch2_skip m ρ c main_v37 (by not_written) (by not_written) (by not_written) (by not_written)
    (by not_written) (by not_written) (by not_written)).trans
    ((W16_arr m ρ c 1).trans (((dat1 (V15 m ρ) c).arrAt_in 1 rfl _).trans (A_eq1 (V15 m ρ) c 1)))

/-- The second layer's quantized weights, as the third pass finds them: what the second pass found. -/
theorem wq2_at_pass3 (c : Dev nD) : Gen.V23 m ρ c main_v62 = Gen.V15 m ρ c main_v62 :=
  (stretch2_skip m ρ c main_v62 (by not_written) (by not_written) (by not_written) (by not_written)
    (by not_written) (by not_written) (by not_written)).trans
    ((W16_arr m ρ c 2).trans (((dat1 (V15 m ρ) c).arrAt_in 2 rfl _).trans (A_eq1 (V15 m ρ) c 2)))

/-- The second layer's quantized bias, as the third pass finds it: what the second pass found. -/
theorem bq2_at_pass3 (c : Dev nD) : Gen.V23 m ρ c main_v63 = Gen.V15 m ρ c main_v63 :=
  (stretch2_skip m ρ c main_v63 (by not_written) (by not_written) (by not_written) (by not_written)
    (by not_written) (by not_written) (by not_written)).trans
    ((W16_arr m ρ c 3).trans (((dat1 (V15 m ρ) c).arrAt_in 3 rfl _).trans (A_eq1 (V15 m ρ) c 3)))

end Cert.KernelIdeal.RunValue

end
-- ==== Proof.HostValue.lean ====
/-
  The host arithmetic between the passes, read entry by entry.  Before each pass the host computes, from a weight
  matrix W and the step of the tensor entering the layer, the matrix on its own grid (transposed for the product) and
  the bias on the product grid; after the first and the second pass it computes the next activation step from the
  largest of the running maxima the pass left.  Each of these arrays, as the pass that reads it finds it, is the
  specification's function of the launch arguments.
-/
import proofs.«161439_j163208757492_2_alg».proof.Proof.KernelRun

set_option maxRecDepth 16384

noncomputable section

namespace Cert.KernelIdeal.RunValue

open Idealize.ShloMosaic Idealize.ShloMosaic.TcCoe Idealize.ShloMosaic.Tactic Idealize.ShloMosaic.StableHlo
open Idealize.SL.Sem
open Cert.KernelIdeal.Gen Cert.QuantNet Idealize.ShloMosaic.ValueIdx

/-! ## Largest entries and the power-of-two step -/

/-- The largest entry over a rank-2 index set is the largest over the pairs of coordinates. -/
theorem sup_idx2 {a b : Nat} (f : (⟨2, ![a, b]⟩ : Shape).Idx → EReal) :
    Finset.univ.sup f = Finset.univ.sup fun p : Fin a × Fin b => f (ix2 p.1 p.2) := by
  apply le_antisymm
  · refine Finset.sup_le fun j _ => ?_
    rw [eq_ix2 j]
    exact Finset.le_sup (f := fun p : Fin a × Fin b => f (ix2 p.1 p.2)) (Finset.mem_univ (j 0, j 1))
  · refine Finset.sup_le fun p _ => ?_
    exact Finset.le_sup (f := f) (Finset.mem_univ _)

/-- The bit pattern of -∞. -/
theorem lit_neg_inf : Ideal.ofBits .f32 0xFF800000#32 = (⊥ : EReal) := by
  simp [Ideal.ofBits, Ideal.ieee]

/-- A maximum over every axis, started from -∞, is the largest entry. -/
theorem reduce_max_all {s : Shape} {axes : List (Fin s.rank)} (X : s.Idx → EReal) (h : s.ReducesTo axes S_)
    (hu : 0 < S_.numel) (i : S_.Idx) :
    Host.reduce (FloatOps.maximumf (F := Ideal) (φ := .f32)) X (constant (F := Ideal) S_ .f32 0xFF800000#32) h hu i
      = Finset.univ.sup X := by
  rw [Host.reduce_eq_fold]
  have hf : (Finset.univ.filter fun k : s.Idx => h.drop k = i) = Finset.univ :=
    Finset.filter_true_of_mem fun k _ => funext fun a => a.elim0
  rw [hf]
  show Finset.fold max (Ideal.ofBits .f32 0xFF800000#32) X Finset.univ = _
  rw [lit_neg_inf]
  rfl

/-- A scalar spread over any shape reads the scalar everywhere. -/
theorem spread_apply {α : Type} {t : Shape} (h : S_.BroadcastsInDim t ![]) (x : S_.Idx → α) (j : t.Idx) :
    broadcastInDim t ![] h x j = x ix0 :=
  broadcastInDim_apply _ h x j ix0 (fun a => a.elim0)

/-- The host's computation of a power-of-two step from a largest magnitude. -/
def stepArr (M : FVec Ideal S_ .f32) : FVec Ideal S_ .f32 :=
  Host.exp (mulf (broadcastInDim S_ ![] bcast_S_S_ (constant S_ .f32 0x3F317218#32))
    (Host.ceil (Host.divf (Host.log (addf (Host.divf M (constant S_ .f32 0x42FE0000#32)) (constant S_ .f32 0x2B8CBCCC#32)))
      (Host.log (constant S_ .f32 0x40000000#32)))))

theorem stepArr_apply (M : FVec Ideal S_ .f32) (i : S_.Idx) : stepArr M i = scaleOf (M i) := by
  have hb : broadcastInDim S_ ![] bcast_S_S_ (constant (F := Ideal) S_ .f32 0x3F317218#32) i = lit 0x3F317218#32 :=
    spread_apply bcast_S_S_ _ i
  show Ideal.exp (broadcastInDim S_ ![] bcast_S_S_ (constant (F := Ideal) S_ .f32 0x3F317218#32) i * _) = _
  rw [hb]
  rfl

/-! ## Layer 1: a 64×512 weight matrix -/

/-- The host's step of the layer-1 weight matrix. -/
def wStep1 (X : FVec Ideal S64x512 .f32) : FVec Ideal S_ .f32 :=
  stepArr (Host.reduce FloatOps.maximumf (Host.absf X) (constant S_ .f32 0xFF800000#32) reducesTo_S64x512_S_d0_1 h_S_)

theorem wStep1_apply (X : FVec Ideal S64x512 .f32) (i : S_.Idx) :
    wStep1 X i = wScale (cur2 X) := by
  unfold wStep1
  rw [stepArr_apply, reduce_max_all, sup_idx2]
  rfl

/-- The host's layer-1 weight matrix on its grid, transposed for the product. -/
def wqArr1 (X : FVec Ideal S64x512 .f32) : FVec Ideal S512x64 .bf16 :=
  transpose S512x64 [1, 0]
    (truncf .bf16
      (mulf
        (minimumf (broadcastInDim S64x512 ![] bcast_S_S64x512 (id (constant S_ .f32 0x42FE0000#32)))
          (maximumf (broadcastInDim S64x512 ![] bcast_S_S64x512 (id (constant S_ .f32 0xC2FE0000#32)))
            (Host.roundeven (Host.divf X (broadcastInDim S64x512 ![] bcast_S_S64x512 (wStep1 X))))))
        (broadcastInDim S64x512 ![] bcast_S_S64x512 (wStep1 X)))
      bitsLt_bf16_f32)
    transposes_S64x512_S512x64_1_0

theorem wqArr1_apply (X : FVec Ideal S64x512 .f32) (k : Fin 512) (j : Fin 64) :
    wqArr1 X (ix2 k j) = wq (cur2 X) j k := by
  unfold wqArr1
  refine (transpose_apply [1, 0] _ transposes_S64x512_S512x64_1_0 (ix2 k j) (ix2 j k) (fun b => match b with
    | ⟨0, _⟩ => rfl
    | ⟨1, _⟩ => rfl)).trans ?_
  show min (broadcastInDim S64x512 ![] bcast_S_S64x512 (id (constant (F := Ideal) S_ .f32 0x42FE0000#32)) (ix2 j k))
      (max (broadcastInDim S64x512 ![] bcast_S_S64x512 (id (constant (F := Ideal) S_ .f32 0xC2FE0000#32)) (ix2 j k))
        (rne (Ideal.div (X (ix2 j k)) (broadcastInDim S64x512 ![] bcast_S_S64x512 (wStep1 X) (ix2 j k)))))
      * broadcastInDim S64x512 ![] bcast_S_S64x512 (wStep1 X) (ix2 j k) = _
  rw [spread_apply bcast_S_S64x512, spread_apply bcast_S_S64x512, spread_apply bcast_S_S64x512, wStep1_apply]
  rfl

/-- The host's layer-1 bias on the grid whose step is the entering step times the weights' step. -/
def bqArr1 (sIn : FVec Ideal S_ .f32) (X : FVec Ideal S64x512 .f32)
    (b : FVec Ideal S64 .f32) : FVec Ideal S1x64 .f32 :=
  shapeCast S1x64
    (mulf (Host.roundeven (Host.divf b (broadcastInDim S64 ![] bcast_S_S64 (mulf sIn (wStep1 X)))))
      (broadcastInDim S64 ![] bcast_S_S64 (mulf sIn (wStep1 X))))
    shapeCasts_S64_S1x64

theorem bqArr1_apply (sIn : FVec Ideal S_ .f32) (X : FVec Ideal S64x512 .f32)
    (b : FVec Ideal S64 .f32) (j : Fin 64) :
    bqArr1 sIn X b (ix2 0 j) = bq (sIn ix0) (cur2 X) (cur1 b) j := by
  unfold bqArr1
  refine (shapeCast_apply _ shapeCasts_S64_S1x64 (ix2 0 j) (ix1 j) (by
    simp [Shape.rowMajor_val_two, Shape.rowMajor_val_one])).trans ?_
  show rne (Ideal.div (b (ix1 j)) (broadcastInDim S64 ![] bcast_S_S64 (mulf sIn (wStep1 X)) (ix1 j)))
      * broadcastInDim S64 ![] bcast_S_S64 (mulf sIn (wStep1 X)) (ix1 j) = _
  have hs : (mulf sIn (wStep1 X) : S_.Idx → EReal) ix0 = sIn ix0 * wScale (cur2 X) := by
    show sIn ix0 * wStep1 X ix0 = _
    rw [wStep1_apply]
  rw [spread_apply bcast_S_S64, hs]
  rfl

/-! ## Layer 2: a 64×64 weight matrix -/

/-- The host's step of the layer-2 weight matrix. -/
def wStep2 (X : FVec Ideal S64x64 .f32) : FVec Ideal S_ .f32 :=
  stepArr (Host.reduce FloatOps.maximumf (Host.absf X) (constant S_ .f32 0xFF800000#32) reducesTo_S64x64_S_d0_1 h_S_)

theorem wStep2_apply (X : FVec Ideal S64x64 .f32) (i : S_.Idx) :
    wStep2 X i = wScale (cur2 X) := by
  unfold wStep2
  rw [stepArr_apply, reduce_max_all, sup_idx2]
  rfl

/-- The host's layer-2 weight matrix on its grid, transposed for the product. -/
def wqArr2 (X : FVec Ideal S64x64 .f32) : FVec Ideal S64x64 .bf16 :=
  transpose S64x64 [1, 0]
    (truncf .bf16
      (mulf
        (minimumf (broadcastInDim S64x64 ![] bcast_S_S64x64 (id (constant S_ .f32 0x42FE0000#32)))
          (maximumf (broadcastInDim S64x64 ![] bcast_S_S64x64 (id (constant S_ .f32 0xC2FE0000#32)))
            (Host.roundeven (Host.divf X (broadcastInDim S64x64 ![] bcast_S_S64x64 (wStep2 X))))))
        (broadcastInDim S64x64 ![] bcast_S_S64x64 (wStep2 X)))
      bitsLt_bf16_f32)
    transposes_S64x64_S64x64_1_0

theorem wqArr2_apply (X : FVec Ideal S64x64 .f32) (k : Fin 64) (j : Fin 64) :
    wqArr2 X (ix2 k j) = wq (cur2 X) j k := by
  unfold wqArr2
  refine (transpose_apply [1, 0] _ transposes_S64x64_S64x64_1_0 (ix2 k j) (ix2 j k) (fun b => match b with
    | ⟨0, _⟩ => rfl
    | ⟨1, _⟩ => rfl)).trans ?_
  show min (broadcastInDim S64x64 ![] bcast_S_S64x64 (id (constant (F := Ideal) S_ .f32 0x42FE0000#32)) (ix2 j k))
      (max (broadcastInDim S64x64 ![] bcast_S_S64x64 (id (constant (F := Ideal) S_ .f32 0xC2FE0000#32)) (ix2 j k))
        (rne (Ideal.div (X (ix2 j k)) (broadcastInDim S64x64 ![] bcast_S_S64x64 (wStep2 X) (ix2 j k)))))
      * broadcastInDim S64x64 ![] bcast_S_S64x64 (wStep2 X) (ix2 j k) = _
  rw [spread_apply bcast_S_S64x64, spread_apply bcast_S_S64x64, spread_apply bcast_S_S64x64, wStep2_apply]
  rfl

/-- The host's layer-2 bias on the grid whose step is the entering step times the weights' step. -/
def bqArr2 (sIn : FVec Ideal S_ .f32) (X : FVec Ideal S64x64 .f32)
    (b : FVec Ideal S64 .f32) : FVec Ideal S1x64 .f32 :=
  shapeCast S1x64
    (mulf (Host.roundeven (Host.divf b (broadcastInDim S64 ![] bcast_S_S64 (mulf sIn (wStep2 X)))))
      (broadcastInDim S64 ![] bcast_S_S64 (mulf sIn (wStep2 X))))
    shapeCasts_S64_S1x64

theorem bqArr2_apply (sIn : FVec Ideal S_ .f32) (X : FVec Ideal S64x64 .f32)
    (b : FVec Ideal S64 .f32) (j : Fin 64) :
    bqArr2 sIn X b (ix2 0 j) = bq (sIn ix0) (cur2 X) (cur1 b) j := by
  unfold bqArr2
  refine (shapeCast_apply _ shapeCasts_S64_S1x64 (ix2 0 j) (ix1 j) (by
    simp [Shape.rowMajor_val_two, Shape.rowMajor_val_one])).trans ?_
  show rne (Ideal.div (b (ix1 j)) (broadcastInDim S64 ![] bcast_S_S64 (mulf sIn (wStep2 X)) (ix1 j)))
      * broadcastInDim S64 ![] bcast_S_S64 (mulf sIn (wStep2 X)) (ix1 j) = _
  have hs : (mulf sIn (wStep2 X) : S_.Idx → EReal) ix0 = sIn ix0 * wScale (cur2 X) := by
    show sIn ix0 * wStep2 X ix0 = _
    rw [wStep2_apply]
  rw [spread_apply bcast_S_S64, hs]
  rfl

/-! ## Layer 3: a 2×64 weight matrix -/

/-- The host's step of the layer-3 weight matrix. -/
def wStep3 (X : FVec Ideal S2x64 .f32) : FVec Ideal S_ .f32 :=
  stepArr (Host.reduce FloatOps.maximumf (Host.absf X) (constant S_ .f32 0xFF800000#32) reducesTo_S2x64_S_d0_1 h_S_)

theorem wStep3_apply (X : FVec Ideal S2x64 .f32) (i : S_.Idx) :
    wStep3 X i = wScale (cur2 X) := by
  unfold wStep3
  rw [stepArr_apply, reduce_max_all, sup_idx2]
  rfl

/-- The host's layer-3 weight matrix on its grid, transposed for the product. -/
def wqArr3 (X : FVec Ideal S2x64 .f32) : FVec Ideal S64x2 .bf16 :=
  transpose S64x2 [1, 0]
    (truncf .bf16
      (mulf
        (minimumf (broadcastInDim S2x64 ![] bcast_S_S2x64 (id (constant S_ .f32 0x42FE0000#32)))
          (maximumf (broadcastInDim S2x64 ![] bcast_S_S2x64 (id (constant S_ .f32 0xC2FE0000#32)))
            (Host.roundeven (Host.divf X (broadcastInDim S2x64 ![] bcast_S_S2x64 (wStep3 X))))))
        (broadcastInDim S2x64 ![] bcast_S_S2x64 (wStep3 X)))
      bitsLt_bf16_f32)
    transposes_S2x64_S64x2_1_0

theorem wqArr3_apply (X : FVec Ideal S2x64 .f32) (k : Fin 64) (j : Fin 2) :
    wqArr3 X (ix2 k j) = wq (cur2 X) j k := by
  unfold wqArr3
  refine (transpose_apply [1, 0] _ transposes_S2x64_S64x2_1_0 (ix2 k j) (ix2 j k) (fun b => match b with
    | ⟨0, _⟩ => rfl
    | ⟨1, _⟩ => rfl)).trans ?_
  show min (broadcastInDim S2x64 ![] bcast_S_S2x64 (id (constant (F := Ideal) S_ .f32 0x42FE0000#32)) (ix2 j k))
      (max (broadcastInDim S2x64 ![] bcast_S_S2x64 (id (constant (F := Ideal) S_ .f32 0xC2FE0000#32)) (ix2 j k))
        (rne (Ideal.div (X (ix2 j k)) (broadcastInDim S2x64 ![] bcast_S_S2x64 (wStep3 X) (ix2 j k)))))
      * broadcastInDim S2x64 ![] bcast_S_S2x64 (wStep3 X) (ix2 j k) = _
  rw [spread_apply bcast_S_S2x64, spread_apply bcast_S_S2x64, spread_apply bcast_S_S2x64, wStep3_apply]
  rfl

/-- The host's layer-3 bias on the grid whose step is the entering step times the weights' step. -/
def bqArr3 (sIn : FVec Ideal S_ .f32) (X : FVec Ideal S2x64 .f32)
    (b : FVec Ideal S2 .f32) : FVec Ideal S1x2 .f32 :=
  shapeCast S1x2
    (mulf (Host.roundeven (Host.divf b (broadcastInDim S2 ![] bcast_S_S2 (mulf sIn (wStep3 X)))))
      (broadcastInDim S2 ![] bcast_S_S2 (mulf sIn (wStep3 X))))
    shapeCasts_S2_S1x2

theorem bqArr3_apply (sIn : FVec Ideal S_ .f32) (X : FVec Ideal S2x64 .f32)
    (b : FVec Ideal S2 .f32) (j : Fin 2) :
    bqArr3 sIn X b (ix2 0 j) = bq (sIn ix0) (cur2 X) (cur1 b) j := by
  unfold bqArr3
  refine (shapeCast_apply _ shapeCasts_S2_S1x2 (ix2 0 j) (ix1 j) (by
    simp [Shape.rowMajor_val_two, Shape.rowMajor_val_one])).trans ?_
  show rne (Ideal.div (b (ix1 j)) (broadcastInDim S2 ![] bcast_S_S2 (mulf sIn (wStep3 X)) (ix1 j)))
      * broadcastInDim S2 ![] bcast_S_S2 (mulf sIn (wStep3 X)) (ix1 j) = _
  have hs : (mulf sIn (wStep3 X) : S_.Idx → EReal) ix0 = sIn ix0 * wScale (cur2 X) := by
    show sIn ix0 * wStep3 X ix0 = _
    rw [wStep3_apply]
  rw [spread_apply bcast_S_S2, hs]
  rfl

/-! ## The activation step from a pass's running maxima -/

/-- The host's activation step from the running maxima a pass left. -/
def actStep0 (R : FVec Ideal S2x8x128 .f32) : FVec Ideal S_ .f32 :=
  stepArr (Host.reduce FloatOps.maximumf R (constant S_ .f32 0xFF800000#32) reducesTo_S2x8x128_S_d0_1_2 h_S_)

theorem actStep0_apply (R : FVec Ideal S2x8x128 .f32) (i : S_.Idx) :
    actStep0 R i = scaleOf (Finset.univ.sup R) := by
  unfold actStep0
  rw [stepArr_apply, reduce_max_all]

/-- The same as the one-entry matrix a pass reads. -/
def actStep (R : FVec Ideal S2x8x128 .f32) : FVec Ideal S1x1 .f32 :=
  shapeCast S1x1 (actStep0 R) shapeCasts_S_S1x1

theorem actStep_apply (R : FVec Ideal S2x8x128 .f32) :
    actStep R (ix2 0 0) = scaleOf (Finset.univ.sup R) := by
  unfold actStep
  refine (shapeCast_apply _ shapeCasts_S_S1x1 (ix2 0 0) ix0 (by
    have h : (S_.rowMajor ix0).val < 1 := (S_.rowMajor ix0).isLt
    rw [Shape.rowMajor_val_two]
    simp
    omega)).trans ?_
  exact actStep0_apply R ix0

/-! ## The arrays the passes find -/

variable (m : (ℓ : Loc nD τ sig) → Buf (Elt Ideal) ℓ) (ρ : Dev nD → PrngReg)

/-- The launch arguments by coordinates: the three weight matrices and the three biases. -/
abbrev W1a (c : Dev nD) : Fin 64 → Fin 512 → EReal := cur2 (m ((c : Thread nD τ).loc main_arg1) : FVec Ideal S64x512 .f32)
abbrev b1a (c : Dev nD) : Fin 64 → EReal := cur1 (m ((c : Thread nD τ).loc main_arg2) : FVec Ideal S64 .f32)
abbrev W2a (c : Dev nD) : Fin 64 → Fin 64 → EReal := cur2 (m ((c : Thread nD τ).loc main_arg3) : FVec Ideal S64x64 .f32)
abbrev b2a (c : Dev nD) : Fin 64 → EReal := cur1 (m ((c : Thread nD τ).loc main_arg4) : FVec Ideal S64 .f32)
abbrev W3a (c : Dev nD) : Fin 2 → Fin 64 → EReal := cur2 (m ((c : Thread nD τ).loc main_arg5) : FVec Ideal S2x64 .f32)
abbrev b3a (c : Dev nD) : Fin 2 → EReal := cur1 (m ((c : Thread nD τ).loc main_arg6) : FVec Ideal S2 .f32)

/-- The first activation step: from the largest of the running maxima the first pass left. -/
abbrev S1 (c : Dev nD) : EReal :=
  scaleOf (Finset.univ.sup ((Gen.dat0 (Gen.V7 m ρ) c).arrAt 4 cfg0.N : FVec Ideal S2x8x128 .f32))
/-- The second activation step: from the largest of the running maxima the second pass left. -/
abbrev S2 (c : Dev nD) : EReal :=
  scaleOf (Finset.univ.sup ((Gen.dat1 (Gen.V15 m ρ) c).arrAt 4 cfg1.N : FVec Ideal S2x8x128 .f32))

/-! ### Before the first pass -/

set_option maxHeartbeats 2000000 in
theorem wq1_arr (c : Dev nD) :
    (Gen.V7 m ρ c main_v24 : FVec Ideal S512x64 .bf16) = wqArr1 (m ((c : Thread nD τ).loc main_arg1)) := by
  dsimp only [Gen.V7, Gen.W7, Gen.W6, Gen.W5, Gen.W4, Gen.W3, Gen.W2, Gen.W1, Gen.W0]
  after_results_simp
  rfl

/-- The first layer's weights on their grid, as the first pass finds them (transposed). -/
theorem wq1_at_pass1 (c : Dev nD) (k : Fin 512) (j : Fin 64) :
    Gen.V7 m ρ c main_v24 (ix2 k j) = wq (W1a m c) j k :=
  (congrFun (wq1_arr m ρ c) (ix2 k j)).trans (wqArr1_apply _ k j)

set_option maxHeartbeats 2000000 in
theorem bq1_arr (c : Dev nD) :
    (Gen.V7 m ρ c main_v25 : FVec Ideal S1x64 .f32)
      = bqArr1 (constant S_ .f32 0x3C010204#32) (m ((c : Thread nD τ).loc main_arg1)) (m ((c : Thread nD τ).loc main_arg2)) := by
  dsimp only [Gen.V7, Gen.W7, Gen.W6, Gen.W5, Gen.W4, Gen.W3, Gen.W2, Gen.W1, Gen.W0]
  after_results_simp
  rfl

/-- The first layer's bias on the product grid, as the first pass finds it. -/
theorem bq1_at_pass1 (c : Dev nD) (j : Fin 64) :
    Gen.V7 m ρ c main_v25 (ix2 0 j) = bq sX (W1a m c) (b1a m c) j :=
  (congrFun (bq1_arr m ρ c) (ix2 0 j)).trans (bqArr1_apply _ _ _ j)

/-! ### Before the second pass -/

set_option maxHeartbeats 2000000 in
theorem s1_arr (c : Dev nD) :
    (Gen.V15 m ρ c main_v37 : FVec Ideal S1x1 .f32) = actStep ((Gen.dat0 (Gen.V7 m ρ) c).arrAt 4 cfg0.N) := by
  have e : (Gen.V15 m ρ c main_v37 : FVec Ideal S1x1 .f32) = actStep (W8 m ρ c (Proc.devRef .tc main_v26_1)) := by
    dsimp only [Gen.V15, Gen.W15, Gen.W14, Gen.W13, Gen.W12, Gen.W11, Gen.W10, Gen.W9]
    after_results_simp
    rfl
  exact e.trans (by rw [max1_read m ρ c])

/-- The first activation step, as the second pass finds it. -/
theorem s1_at_pass2 (c : Dev nD) : Gen.V15 m ρ c main_v37 (ix2 0 0) = S1 m ρ c :=
  (congrFun (s1_arr m ρ c) (ix2 0 0)).trans (actStep_apply _)

set_option maxHeartbeats 2000000 in
theorem wq2_arr (c : Dev nD) :
    (Gen.V15 m ρ c main_v62 : FVec Ideal S64x64 .bf16) = wqArr2 (m ((c : Thread nD τ).loc main_arg3)) := by
  have e : (Gen.V15 m ρ c main_v62 : FVec Ideal S64x64 .bf16) = wqArr2 (W8 m ρ c (Proc.devRef .tc main_arg3)) := by
    dsimp only [Gen.V15, Gen.W15, Gen.W14, Gen.W13, Gen.W12, Gen.W11, Gen.W10, Gen.W9]
    after_results_simp
    rfl
  exact e.trans (by rw [w2_after_pass1 m ρ c])

/-- The second layer's weights on their grid, as the second pass finds them (transposed). -/
theorem wq2_at_pass2 (c : Dev nD) (l : Fin 64) (j : Fin 64) :
    Gen.V15 m ρ c main_v62 (ix2 l j) = wq (W2a m c) j l :=
  (congrFun (wq2_arr m ρ c) (ix2 l j)).trans (wqArr2_apply _ l j)

set_option maxHeartbeats 2000000 in
theorem bq2_arr (c : Dev nD) :
    (Gen.V15 m ρ c main_v63 : FVec Ideal S1x64 .f32)
      = bqArr2 (actStep0 ((Gen.dat0 (Gen.V7 m ρ) c).arrAt 4 cfg0.N)) (m ((c : Thread nD τ).loc main_arg3))
          (m ((c : Thread nD τ).loc main_arg4)) := by
  have e : (Gen.V15 m ρ c main_v63 : FVec Ideal S1x64 .f32)
      = bqArr2 (actStep0 (W8 m ρ c (Proc.devRef .tc main_v26_1))) (W8 m ρ c (Proc.devRef .tc main_arg3))
          (W8 m ρ c (Proc.devRef .tc main_arg4)) := by
    dsimp only [Gen.V15, Gen.W15, Gen.W14, Gen.W13, Gen.W12, Gen.W11, Gen.W10, Gen.W9]
    after_results_simp
    rfl
  exact e.trans (by rw [max1_read m ρ c, w2_after_pass1 m ρ c, b2_after_pass1 m ρ c])

/-- The second layer's bias on the product grid, as the second pass finds it. -/
theorem bq2_at_pass2 (c : Dev nD) (j : Fin 64) :
    Gen.V15 m ρ c main_v63 (ix2 0 j) = bq (S1 m ρ c) (W2a m c) (b2a m c) j :=
  (congrFun (bq2_arr m ρ c) (ix2 0 j)).trans ((bqArr2_apply _ _ _ j).trans (by rw [actStep0_apply]))

/-! ### Before the third pass -/

/-- The first activation step, as the third pass finds it. -/
theorem s1_at_pass3' (c : Dev nD) : Gen.V23 m ρ c main_v37 (ix2 0 0) = S1 m ρ c :=
  (congrFun (s1_at_pass3 m ρ c) (ix2 0 0)).trans (s1_at_pass2 m ρ c)

/-- The second layer's weights on their grid, as the third pass finds them (transposed). -/
theorem wq2_at_pass3' (c : Dev nD) (l : Fin 64) (j : Fin 64) :
    Gen.V23 m ρ c main_v62 (ix2 l j) = wq (W2a m c) j l :=
  (congrFun (wq2_at_pass3 m ρ c) (ix2 l j)).trans (wq2_at_pass2 m ρ c l j)

/-- The second layer's bias on the product grid, as the third pass finds it. -/
theorem bq2_at_pass3' (c : Dev nD) (j : Fin 64) :
    Gen.V23 m ρ c main_v63 (ix2 0 j) = bq (S1 m ρ c) (W2a m c) (b2a m c) j :=
  (congrFun (bq2_at_pass3 m ρ c) (ix2 0 j)).trans (bq2_at_pass2 m ρ c j)

set_option maxHeartbeats 2000000 in
theorem s2_arr (c : Dev nD) :
    (Gen.V23 m ρ c main_v75 : FVec Ideal S1x1 .f32) = actStep ((Gen.dat1 (Gen.V15 m ρ) c).arrAt 4 cfg1.N) := by
  have e : (Gen.V23 m ρ c main_v75 : FVec Ideal S1x1 .f32) = actStep (W16 m ρ c (Proc.devRef .tc main_v64)) := by
    dsimp only [Gen.V23, Gen.W23, Gen.W22, Gen.W21, Gen.W20, Gen.W19, Gen.W18, Gen.W17]
    after_results_simp
    rfl
  exact e.trans (by rw [max2_read m ρ c])

/-- The second activation step, as the third pass finds it. -/
theorem s2_at_pass3 (c : Dev nD) : Gen.V23 m ρ c main_v75 (ix2 0 0) = S2 m ρ c :=
  (congrFun (s2_arr m ρ c) (ix2 0 0)).trans (actStep_apply _)

set_option maxHeartbeats 2000000 in
theorem wq3_arr (c : Dev nD) :
    (Gen.V23 m ρ c main_v100 : FVec Ideal S64x2 .bf16) = wqArr3 (m ((c : Thread nD τ).loc main_arg5)) := by
  have e : (Gen.V23 m ρ c main_v100 : FVec Ideal S64x2 .bf16) = wqArr3 (W16 m ρ c (Proc.devRef .tc main_arg5)) := by
    dsimp only [Gen.V23, Gen.W23, Gen.W22, Gen.W21, Gen.W20, Gen.W19, Gen.W18, Gen.W17]
    after_results_simp
    rfl
  exact e.trans (by rw [w3_after_pass2 m ρ c])

/-- The third layer's weights on their grid, as the third pass finds them (transposed). -/
theorem wq3_at_pass3 (c : Dev nD) (k : Fin 64) (j : Fin 2) :
    Gen.V23 m ρ c main_v100 (ix2 k j) = wq (W3a m c) j k :=
  (congrFun (wq3_arr m ρ c) (ix2 k j)).trans (wqArr3_apply _ k j)

set_option maxHeartbeats 2000000 in
theorem bq3_arr (c : Dev nD) :
    (Gen.V23 m ρ c main_v101 : FVec Ideal S1x2 .f32)
      = bqArr3 (actStep0 ((Gen.dat1 (Gen.V15 m ρ) c).arrAt 4 cfg1.N)) (m ((c : Thread nD τ).loc main_arg5))
          (m ((c : Thread nD τ).loc main_arg6)) := by
  have e : (Gen.V23 m ρ c main_v101 : FVec Ideal S1x2 .f32)
      = bqArr3 (actStep0 (W16 m ρ c (Proc.devRef .tc main_v64))) (W16 m ρ c (Proc.devRef .tc main_arg5))
          (W16 m ρ c (Proc.devRef .tc main_arg6)) := by
    dsimp only [Gen.V23, Gen.W23, Gen.W22, Gen.W21, Gen.W20, Gen.W19, Gen.W18, Gen.W17]
    after_results_simp
    rfl
  exact e.trans (by rw [max2_read m ρ c, w3_after_pass2 m ρ c, b3_after_pass2 m ρ c])

/-- The third layer's bias on the product grid, as the third pass finds it. -/
theorem bq3_at_pass3 (c : Dev nD) (j : Fin 2) :
    Gen.V23 m ρ c main_v101 (ix2 0 j) = bq (S2 m ρ c) (W3a m c) (b3a m c) j :=
  (congrFun (bq3_arr m ρ c) (ix2 0 j)).trans ((bqArr3_apply _ _ _ j).trans (by rw [actStep0_apply]))

end Cert.KernelIdeal.RunValue
end
-- ==== Proof.Region0Blocks.lean ====
/-
  The first pass of the network over the batch, read as mathematics: what each grid point leaves in its two output
  blocks.

  The batch of 131072 rows is cut into 64 blocks of 2048 rows; core cc of the two takes blocks 32·cc … 32·cc + 31 in
  order.  At each block the pass puts the block's rows of the input on the grid of step 1/127 (clamped to ±127 units),
  multiplies by the quantized first-layer weights, adds the quantized bias and rectifies: that is the block of the
  activation output, and a row of it depends on the same row of the input only.  Beside it the pass keeps one number per
  core, spread over an [8,128] block: at the first block of a core, zero joined with the block's largest entry; at each
  later block, what it held joined with the block's largest entry.  The largest entry of a block is taken as two nested
  maxima from minus infinity, which is the supremum over the block's entries.  By induction on the block, after block n
  the core holds zero joined with every entry of its blocks up to n.

  A matrix product into a zero accumulator is the plain sum of products over the contracted coordinate; a change of
  number format is the identity on the extended reals.
-/
import proofs.«161439_j163208757492_2_alg».proof.Proof.Gen.KernelIdeal.Frame
import proofs.«161439_j163208757492_2_alg».proof.Proof.Curry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue.Region0

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen

/-! ## What each case of the body leaves in its two output blocks -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a core: the activation block is the rectified layer of the three input blocks. -/
theorem out0_A_3_eq (c : Dev nD) (i : grid0.Coords) (arg2 : Memref sig .tc .vmem S2048x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S1x8x128 .f32) (harg6 : arg6.IsWhole) (hc0 : cond0_0 i)
    (x0 : Vec F S2048x512 .f32) (x1 : Vec F S512x64 .bf16) (x2 : Vec F S1x64 .f32) :
    out0_A_3 c i arg2 harg2 arg3 harg3 arg4 harg4 arg5 harg5 arg6 harg6 hc0 x0 x1 x2 = k0_pay2 x0 x1 x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  rw [View.canon_unit_zero (S := S2048x64) hz2]
  simp only [View.readAt_eq_ld, harg2.read_unread, harg3.read_unread, harg4.read_unread,
    View.ld_unit_zero (S := S2048x512) hz2, View.ld_unit_zero (S := S512x64) hz2, View.ld_unit_zero (S := S1x64) hz2]

/-- First point of a core: the running maximum is the zero block joined with the block's largest entry. -/
theorem out0_A_4_eq (c : Dev nD) (i : grid0.Coords) (arg2 : Memref sig .tc .vmem S2048x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S1x8x128 .f32) (harg6 : arg6.IsWhole) (hc0 : cond0_0 i)
    (x0 : Vec F S2048x512 .f32) (x1 : Vec F S512x64 .bf16) (x2 : Vec F S1x64 .f32) :
    out0_A_4 c i arg2 harg2 arg3 harg3 arg4 harg4 arg5 harg5 arg6 harg6 hc0 x0 x1 x2 = k0_pay3 x0 x1 x2 (k0_pay1 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread,
    View.ld_unit_zero (S := S2048x512) hz2, View.ld_unit_zero (S := S512x64) hz2, View.ld_unit_zero (S := S1x64) hz2]

/-- A later point: the activation block again. -/
theorem out0_B_3_eq (c : Dev nD) (i : grid0.Coords) (arg2 : Memref sig .tc .vmem S2048x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S1x8x128 .f32) (harg6 : arg6.IsWhole) (hc0 : ¬cond0_0 i)
    (x0 : Vec F S2048x512 .f32) (x1 : Vec F S512x64 .bf16) (x2 : Vec F S1x64 .f32) (xo4 : Vec F S1x8x128 .f32) :
    out0_B_3 c i arg2 harg2 arg3 harg3 arg4 harg4 arg5 harg5 arg6 harg6 hc0 x0 x1 x2 xo4 = k0_pay2 x0 x1 x2 := by
  unfold out0_B_3
  rw [View.read_writes_eq_canon _ _ _ (cover0_B_3 c i arg2 harg2 arg3 harg3 arg4 harg4 arg5 harg5 arg6 harg6 hc0 x0 x1 x2 xo4)]
  unfold kernelRun0_B
  dsimp only
  rw [View.canon_unit_zero (S := S2048x64) hz2]
  simp only [View.readAt_eq_ld, harg2.read_unread, harg3.read_unread, harg4.read_unread,
    View.ld_unit_zero (S := S2048x512) hz2, View.ld_unit_zero (S := S512x64) hz2, View.ld_unit_zero (S := S1x64) hz2]

/-- A later point: the running maximum carried from the point before, joined with the block's largest entry. -/
theorem out0_B_4_eq (c : Dev nD) (i : grid0.Coords) (arg2 : Memref sig .tc .vmem S2048x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S1x8x128 .f32) (harg6 : arg6.IsWhole) (hc0 : ¬cond0_0 i)
    (x0 : Vec F S2048x512 .f32) (x1 : Vec F S512x64 .bf16) (x2 : Vec F S1x64 .f32) (xo4 : Vec F S1x8x128 .f32) :
    out0_B_4 c i arg2 harg2 arg3 harg3 arg4 harg4 arg5 harg5 arg6 harg6 hc0 x0 x1 x2 xo4 = k0_pay3 x0 x1 x2 xo4 := by
  unfold out0_B_4
  rw [View.read_writes_eq_canon _ _ _ (cover0_B_4 c i arg2 harg2 arg3 harg3 arg4 harg4 arg5 harg5 arg6 harg6 hc0 x0 x1 x2 xo4)]
  unfold kernelRun0_B
  dsimp only
  sl_unfold_words
  rw [View.canon_unit_zero (S := S1x8x128) hz3]
  simp only [View.readAt_eq_ld, harg2.read_unread, harg3.read_unread, harg4.read_unread, harg6.read_unread,
    View.ld_unit_zero (S := S2048x512) hz2, View.ld_unit_zero (S := S512x64) hz2, View.ld_unit_zero (S := S1x64) hz2,
    View.ld_unit_zero (S := S1x8x128) hz3]

end Pieces

/-! ## The block's arithmetic at an entry, over the extended reals -/

section Payloads

local notation "D0" => dot_S2048x512_S512x64_S2048x64_1_0_0_1_n_n

theorem lhsD0_0 (i : S2048x64.Idx) (k : dot_S2048x512_S512x64_S2048x64_1_0_0_1_n_n.contr.Idx) :
    (dot_S2048x512_S512x64_S2048x64_1_0_0_1_n_n.lhsIdx i k 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem rhsD0_1 (i : S2048x64.Idx) (k : dot_S2048x512_S512x64_S2048x64_1_0_0_1_n_n.contr.Idx) :
    (dot_S2048x512_S512x64_S2048x64_1_0_0_1_n_n.rhsIdx i k 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The block's matrix product into a zero accumulator, at an entry: the sum over the 512 input features. -/
theorem matmul0_apply (l : FVec Idealize.ShloMosaic.Ideal S2048x512 .bf16) (r : FVec Idealize.ShloMosaic.Ideal S512x64 .bf16) (p : Fin 2048) (q : Fin 64) :
    matmul dot_S2048x512_S512x64_S2048x64_1_0_0_1_n_n none l r (constant S2048x64 .f32 0x00000000#32) (ix2 p q)
      = ∑ k : Fin 512, l (ix2 p k) * r (ix2 k q) := by
  simp only [matmul]
  rw [Ideal.matmul_constant_zero_apply, ← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 p q) ((contrEquiv1 dot_S2048x512_S512x64_S2048x64_1_0_0_1_n_n 512 rfl rfl).symm k) = ix2 p k := funext fun a => Fin.ext (by
    match a with
    | ⟨0, _⟩ => exact lhsD0_0 _ _
    | ⟨1, _⟩ => exact (dot_S2048x512_S512x64_S2048x64_1_0_0_1_n_n.lhsIdx_val_of_single rfl _ _).trans hk)
  have er : dot_S2048x512_S512x64_S2048x64_1_0_0_1_n_n.rhsIdx (ix2 p q) ((contrEquiv1 dot_S2048x512_S512x64_S2048x64_1_0_0_1_n_n 512 rfl rfl).symm k) = ix2 k q := funext fun a => Fin.ext (by
    match a with
    | ⟨0, _⟩ => exact (dot_S2048x512_S512x64_S2048x64_1_0_0_1_n_n.rhsIdx_val_of_single rfl _ _).trans hk
    | ⟨1, _⟩ => exact rhsD0_1 _ _)
  rw [el, er]

/-- The activation block at an entry: the rectified layer of the quantized input block, the (transposed) weight block
    and the bias row. -/
theorem pay2_apply (x0 : Vec Idealize.ShloMosaic.Ideal S2048x512 .f32) (x1 : Vec Idealize.ShloMosaic.Ideal S512x64 .bf16) (x2 : Vec Idealize.ShloMosaic.Ideal S1x64 .f32)
    (p : Fin 2048) (q : Fin 64) :
    k0_pay2 (F := Idealize.ShloMosaic.Ideal) x0 x1 x2 (ix2 p q)
      = Cert.QuantNet.dense (Cert.QuantNet.x0 (fun i k => x0 (ix2 i k))) (fun j k => x1 (ix2 k j)) (fun j => x2 (ix2 0 j)) p q := by
  unfold k0_pay2
  rw [maximumf_apply, addf_apply, broadcast_apply, matmul0_apply, broadcastTo_1b_ab_apply]
  simp only [shapeCast_self, Cert.QuantNet.dense, Cert.QuantNet.affine, Cert.QuantNet.x0, Cert.QuantNet.quant, Ideal.ofBits_def, Ideal.ofBits_zero_f32]
  rfl

end Payloads

section TileMax

/-- A vector read as a one-column matrix. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The single-precision pattern of minus infinity is the bottom of the extended reals. -/
theorem negInf_eq_bot : (FloatOps.ofBits (F := Idealize.ShloMosaic.Ideal) .f32 0xFF800000#32 : EReal) = ⊥ := by
  simp [Ideal.ofBits, Ideal.ieee]

/-- The supremum over the entries of a matrix is the supremum over its rows of each row's supremum. -/
theorem sup_rows {a b : ℕ} (g : Fin a → Fin b → EReal) :
    (Finset.univ.sup fun r : Fin a => Finset.univ.sup fun l : Fin b => g r l)
      = Finset.univ.sup fun p : Fin a × Fin b => g p.1 p.2 := by
  rw [← Finset.univ_product_univ, Finset.sup_product_left]

/-- The two nested lane maxima from minus infinity, broadcast to the [1,8,128] block: at every entry, the largest entry
    of the 2048 x 64 block. -/
theorem tile_max_apply (src : FVec Idealize.ShloMosaic.Ideal S2048x64 .f32) (c : Fin 1) (a : Fin 8) (b : Fin 128) :
    broadcastTo S1x8x128 (shapeCast S1x1x1 (shapeCast S1x1x1 (shapeCast S1x1 (multiReduction (F := Idealize.ShloMosaic.Ideal) .maximumf [0] S1 (shapeCast S2048x1 (multiReduction (F := Idealize.ShloMosaic.Ideal) .maximumf [1] S2048 src 0xFF800000#32 reduces_S2048x64_S2048 (.inl rfl) rfl) shapeCasts_S2048_S2048x1) 0xFF800000#32 reduces_S2048x1_S1 (.inl rfl) rfl) shapeCasts_S1_S1x1) shapeCasts_S1x1_S1x1x1) shapeCasts_S1x1x1_S1x1x1) broadcasts_S1x1x1_S1x8x128 (ix3 c a b)
      = Finset.univ.sup fun p : Fin 2048 × Fin 64 => src (ix2 p.1 p.2) := by
  refine (broadcastTo_apply _ _ (ix3 c a b) (ix3 (0 : Fin 1) (0 : Fin 1) (0 : Fin 1)) (fun ax => ?_)).trans ?_
  · match ax with
    | ⟨0, _⟩ => rfl
    | ⟨1, _⟩ => rfl
    | ⟨2, _⟩ => rfl
  rw [shapeCast_self]
  refine (shapeCast_ab_1ab_apply _ _ 0 0 0).trans ?_
  refine (shapeCast_a_1a_apply _ _ 0 0).trans ?_
  refine (Ideal.multiReduction_maximumf_single _ _ reduces_S2048x1_S1 _ _ (ix1 (0 : Fin 1))).trans ?_
  rw [negInf_eq_bot, ← sup_rows (fun r l => src (ix2 r l))]
  -- the value at row k of the column of row maxima
  have step : ∀ k : Fin 2048, shapeCast S2048x1 (multiReduction (F := Idealize.ShloMosaic.Ideal) .maximumf [1] S2048 src 0xFF800000#32 reduces_S2048x64_S2048 (.inl rfl) rfl) shapeCasts_S2048_S2048x1 (ix2 k (0 : Fin 1))
      = Finset.univ.sup fun q : Fin 64 => src (ix2 k q) := by
    intro k
    refine (shapeCast_a_a1_apply _ _ k 0).trans ?_
    refine (Ideal.multiReduction_maximumf_single _ _ reduces_S2048x64_S2048 _ _ (ix1 k)).trans ?_
    rw [negInf_eq_bot]
    apply le_antisymm
    · show (Finset.univ.sup _) ≤ _
      refine Finset.sup_le fun l _ => ?_
      have e1 : reduces_S2048x64_S2048.lift (ix1 k) l = ix2 k (⟨l.val, l.isLt⟩ : Fin 64) :=
        funext fun ax => Fin.ext (by match ax with | ⟨0, _⟩ => rfl | ⟨1, _⟩ => rfl)
      rw [Function.comp_apply, e1]
      exact Finset.le_sup (f := fun l : Fin 64 => src (ix2 k l)) (Finset.mem_univ _)
    · refine Finset.sup_le fun l _ => ?_
      have e1 : reduces_S2048x64_S2048.lift (ix1 k) (⟨l.val, l.isLt⟩ : Fin (S2048x64.size 1)) = ix2 k l :=
        funext fun ax => Fin.ext (by match ax with | ⟨0, _⟩ => rfl | ⟨1, _⟩ => rfl)
      refine le_trans ?_ (Finset.le_sup (f := src ∘ reduces_S2048x64_S2048.lift (ix1 k))
        (Finset.mem_univ (⟨l.val, l.isLt⟩ : Fin (S2048x64.size 1))))
      rw [Function.comp_apply, e1]
  apply le_antisymm
  · show (Finset.univ.sup _) ≤ _
    refine Finset.sup_le fun k _ => ?_
    have e : reduces_S2048x1_S1.lift (ix1 (0 : Fin 1)) k = ix2 (⟨k.val, k.isLt⟩ : Fin 2048) (0 : Fin 1) :=
      funext fun ax => Fin.ext (by match ax with | ⟨0, _⟩ => rfl | ⟨1, _⟩ => rfl)
    rw [Function.comp_apply, e, step]
    exact Finset.le_sup (f := fun r : Fin 2048 => Finset.univ.sup fun l : Fin 64 => src (ix2 r l)) (Finset.mem_univ _)
  · refine Finset.sup_le fun r _ => ?_
    have e : reduces_S2048x1_S1.lift (ix1 (0 : Fin 1)) (⟨r.val, r.isLt⟩ : Fin (S2048x1.size 0)) = ix2 r (0 : Fin 1) :=
      funext fun ax => Fin.ext (by match ax with | ⟨0, _⟩ => rfl | ⟨1, _⟩ => rfl)
    refine le_trans ?_ (Finset.le_sup (f := (shapeCast S2048x1
      (multiReduction (F := Idealize.ShloMosaic.Ideal) .maximumf [1] S2048 src 0xFF800000#32 reduces_S2048x64_S2048 (.inl rfl) rfl) shapeCasts_S2048_S2048x1 ∘ reduces_S2048x1_S1.lift (ix1 (0 : Fin 1))))
      (Finset.mem_univ (⟨r.val, r.isLt⟩ : Fin (S2048x1.size 0))))
    rw [Function.comp_apply, e, step]

/-- The running-maximum block at an entry: the carried entry joined with the largest entry of the activation block. -/
theorem pay3_apply (x0 : Vec Idealize.ShloMosaic.Ideal S2048x512 .f32) (x1 : Vec Idealize.ShloMosaic.Ideal S512x64 .bf16) (x2 : Vec Idealize.ShloMosaic.Ideal S1x64 .f32)
    (xo : Vec Idealize.ShloMosaic.Ideal S1x8x128 .f32) (c : Fin 1) (a : Fin 8) (b : Fin 128) :
    k0_pay3 (F := Idealize.ShloMosaic.Ideal) x0 x1 x2 xo (ix3 c a b)
      = max (xo (ix3 c a b)) (Finset.univ.sup fun p : Fin 2048 × Fin 64 => k0_pay2 (F := Idealize.ShloMosaic.Ideal) x0 x1 x2 (ix2 p.1 p.2)) := by
  unfold k0_pay3
  rw [maximumf_apply, shapeCast_self]
  exact congrArg (max (xo (ix3 c a b))) (tile_max_apply _ c a b)

/-- The zero block at an entry. -/
theorem pay1_apply (c : Fin 1) (a : Fin 8) (b : Fin 128) : k0_pay1 (F := Idealize.ShloMosaic.Ideal) (ix3 c a b) = 0 := by
  unfold k0_pay1
  rw [broadcast_apply]
  exact Ideal.ofBits_zero_f32

end TileMax

/-! ## The running maximum over the row blocks of one core, as mathematics

The batch is cut into 64 row blocks of 2048 rows; core cc sees blocks 32·cc … 32·cc + 31.  At its first block a core
starts from zero joined with the block's largest entry; at each later block it joins the block's largest entry to what
it holds.  After block n it holds zero joined with every entry of the blocks of its core up to n, and after its last
block every entry of its half of the batch. -/

section RunningMax

variable (R : Fin 131072 → Fin 64 → EReal)

/-- The largest entry of row block t. -/
def tileSup (t : ℕ) : EReal :=
  Finset.univ.sup fun P : Fin 131072 × Fin 64 => if P.1.val / 2048 = t then R P.1 P.2 else ⊥

/-- What a core holds after block n, by recursion on the block. -/
def accMax : ℕ → EReal
  | 0 => max 0 (tileSup R 0)
  | n + 1 => if (n + 1) % 32 = 0 then max 0 (tileSup R (n + 1)) else max (accMax n) (tileSup R (n + 1))

/-- Zero joined with every entry of the blocks from the first of n's core up to n. -/
def spanMax (n : ℕ) : EReal :=
  max 0 (Finset.univ.sup fun P : Fin 131072 × Fin 64 =>
    if n / 32 * 32 ≤ P.1.val / 2048 ∧ P.1.val / 2048 ≤ n then R P.1 P.2 else ⊥)

theorem ite_or_bot (c1 c2 : Prop) [Decidable c1] [Decidable c2] (r : EReal) :
    (if c1 ∨ c2 then r else ⊥) = max (if c1 then r else ⊥) (if c2 then r else ⊥) := by
  by_cases h1 : c1 <;> by_cases h2 : c2 <;> simp [h1, h2]

theorem accMax_eq_spanMax : ∀ n : ℕ, accMax R n = spanMax R n
  | 0 => by
    unfold accMax spanMax tileSup
    refine congrArg (max 0) (Finset.sup_congr rfl fun P _ => if_congr (by omega) rfl rfl)
  | n + 1 => by
    unfold accMax
    by_cases h : (n + 1) % 32 = 0
    · rw [if_pos h]
      unfold spanMax tileSup
      refine congrArg (max 0) (Finset.sup_congr rfl fun P _ => if_congr (by omega) rfl rfl)
    · rw [if_neg h, accMax_eq_spanMax n]
      unfold spanMax tileSup
      rw [max_assoc]
      refine congrArg (max 0) ?_
      refine Eq.trans ?_ (Finset.sup_congr rfl fun P _ =>
        (if_congr (show (n / 32 * 32 ≤ P.1.val / 2048 ∧ P.1.val / 2048 ≤ n) ∨ P.1.val / 2048 = n + 1
            ↔ (n + 1) / 32 * 32 ≤ P.1.val / 2048 ∧ P.1.val / 2048 ≤ n + 1 by omega) rfl rfl))
      refine Eq.trans ?_ (Finset.sup_congr rfl fun P _ => (ite_or_bot _ _ _).symm)
      exact (Finset.sup_sup (s := Finset.univ)
        (f := fun P : Fin 131072 × Fin 64 => if n / 32 * 32 ≤ P.1.val / 2048 ∧ P.1.val / 2048 ≤ n then R P.1 P.2 else ⊥)
        (g := fun P : Fin 131072 × Fin 64 => if P.1.val / 2048 = n + 1 then R P.1 P.2 else ⊥)).symm

/-- After its last block a core holds the running maximum of its half of the batch. -/
theorem accMax_last (cc : ℕ) : accMax R (32 * cc + 31) = Cert.QuantNet.coreMax 65536 R cc := by
  rw [accMax_eq_spanMax]
  unfold spanMax Cert.QuantNet.coreMax
  refine congrArg (max 0) (Finset.sup_congr rfl fun P _ => if_congr (by omega) rfl rfl)

/-- The largest entry of a row block, read through the block's own coordinates. -/
theorem tileSup_eq (t : ℕ) (ht : t < 64) :
    (Finset.univ.sup fun p : Fin 2048 × Fin 64 => R ⟨2048 * t + p.1.val, by have := p.1.isLt; omega⟩ p.2) = tileSup R t := by
  unfold tileSup
  apply le_antisymm
  · refine Finset.sup_le fun p _ => ?_
    have hp := p.1.isLt
    refine le_trans (le_of_eq ?_) (Finset.le_sup (f := fun P : Fin 131072 × Fin 64 => if P.1.val / 2048 = t then R P.1 P.2 else ⊥)
      (b := ((⟨2048 * t + p.1.val, by omega⟩, p.2) : Fin 131072 × Fin 64)) (by simp only [Finset.mem_univ]))
    exact (if_pos (show (2048 * t + p.1.val) / 2048 = t by omega)).symm
  · refine Finset.sup_le fun P _ => ?_
    by_cases h : P.1.val / 2048 = t
    · rw [if_pos h]
      have hP := P.1.isLt
      refine le_trans (le_of_eq ?_) (Finset.le_sup (f := fun p : Fin 2048 × Fin 64 => R ⟨2048 * t + p.1.val, by have := p.1.isLt; omega⟩ p.2)
        (b := ((⟨P.1.val % 2048, by omega⟩, P.2) : Fin 2048 × Fin 64)) (by simp only [Finset.mem_univ]))
      exact congrArg (fun i => R i P.2) (Fin.ext (show P.1.val = 2048 * t + P.1.val % 2048 by omega))
    · rw [if_neg h]; exact bot_le

end RunningMax

/-! ## From the blocks to the two result arrays -/

section TileRow

open Cert.QuantNet

/-- A row of the layer depends on the same row of the input only: the layer over a block of 2048 rows at row r is the
    layer over the whole batch at row p, when row r of the block is row p of the batch and the weights and the bias
    are the same. -/
theorem tile_row (X : S131072x512.Idx → EReal) (x0 : S2048x512.Idx → EReal) (Wt x1 : S512x64.Idx → EReal)
    (Bv x2 : S1x64.Idx → EReal) (r : Fin 2048) (p : Fin 131072) (q : Fin 64)
    (h0 : ∀ k : Fin 512, x0 (ix2 r k) = X (ix2 p k)) (h1 : x1 = Wt) (h2 : x2 = Bv) :
    dense (QuantNet.x0 (fun (i : Fin 2048) (k : Fin 512) => x0 (ix2 i k))) (fun (j : Fin 64) (k : Fin 512) => x1 (ix2 k j))
        (fun j : Fin 64 => x2 (ix2 (0 : Fin 1) j)) r q
      = dense (QuantNet.x0 (cur2 X)) (fun (j : Fin 64) (k : Fin 512) => Wt (ix2 k j)) (fun j : Fin 64 => Bv (ix2 (0 : Fin 1) j)) p q := by
  subst h1 h2
  simp only [dense, affine, QuantNet.x0, cur2, h0]

end TileRow

section Arrays

open Cert.QuantNet

variable (V : (c : Dev nD) → (b : Ref sig .tc) → Buf (Elt Idealize.ShloMosaic.Ideal) ((c : Thread nD τ).loc b))

/-- The first rectified layer over the whole batch, from the arrays the first pass finds: the input, the quantized
    weights (stored transposed) and the quantized bias. -/
def layer1 (c : Dev nD) : Fin 131072 → Fin 64 → EReal :=
  dense (QuantNet.x0 (cur2 (V c (Pipeline.arrRef spec0 0) : S131072x512.Idx → EReal)))
    (fun (j : Fin 64) (k : Fin 512) => (V c (Pipeline.arrRef spec0 1) : S512x64.Idx → EReal) (ix2 k j))
    (fun j : Fin 64 => (V c (Pipeline.arrRef spec0 2) : S1x64.Idx → EReal) (ix2 (0 : Fin 1) j))

/-- The same as an array over indices. -/
def layer1Arr (c : Dev nD) : S131072x64.Idx → EReal :=
  fun i => layer1 V c ⟨(i 0).val, idx2_lt0 i⟩ ⟨(i 1).val, idx2_lt1 i⟩

theorem layer1Arr_apply (c : Dev nD) (i : S131072x64.Idx) (p : Fin 131072) (q : Fin 64) (hp : (i 0).val = p.val) (hq : (i 1).val = q.val) :
    layer1Arr V c i = layer1 V c p q := by
  unfold layer1Arr
  exact congrArg₂ (layer1 V c) (Fin.ext hp) (Fin.ext hq)

/-- The per-core running maxima as an array over indices: entry (cc, a, b) is core cc's maximum. -/
def coreMaxArr (c : Dev nD) : S2x8x128.Idx → EReal :=
  fun i => coreMax 65536 (layer1 V c) (i 0).val

/-- The index maps over the grid: the input rows and the activation output sit at block (t, 0), the weights and the
    bias at block (0, 0), the running maximum at block (t / 32, 0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 32 ∧ win0_4.index t (1 : Fin 3) = 0 ∧ win0_4.index t (2 : Fin 3) = 0 :=
  (by decide +kernel : ∀ t : Fin grid0.N, _)

/-- Row r of the input window's block at point t is row 2048 t + r of the input. -/
theorem rows_block (c : Dev nD) (t : Fin cfg0.N) (r : Fin 2048) (k : Fin 512) (p : Fin 131072) (hp : p.val = 2048 * t.val + r.val) :
    (iblk0 V c 0 t : S2048x512.Idx → EReal) (ix2 r k) = (V c (Pipeline.arrRef spec0 0) : S131072x512.Idx → EReal) (ix2 p k) := by
  obtain ⟨e0, e1, -⟩ := idx_facts t
  show (V c (Pipeline.arrRef spec0 0) : S131072x512.Idx → EReal) (((cfg0.win 0).blk t).view.emb (ix2 r k)) = _
  refine congrArg (V c (Pipeline.arrRef spec0 0) : S131072x512.Idx → EReal) (funext fun a => Fin.ext ?_)
  match a with
  | ⟨0, _⟩ => show win0_0.index t (0 : Fin 2) * 2048 + 1 * r.val = p.val; rw [e0, hp]; omega
  | ⟨1, _⟩ => show win0_0.index t (1 : Fin 2) * 512 + 1 * k.val = k.val; rw [e1]; omega

/-- The weights window stages the whole weight array at every point. -/
theorem whole_block1 (c : Dev nD) (t : Fin cfg0.N) :
    (iblk0 V c 1 t : S512x64.Idx → EReal) = (V c (Pipeline.arrRef spec0 1) : S512x64.Idx → EReal) := by
  obtain ⟨-, -, e0, e1, -⟩ := idx_facts t
  funext y
  show (V c (Pipeline.arrRef spec0 1) : S512x64.Idx → EReal) (((cfg0.win 1).blk t).view.emb y) = _
  refine congrArg (V c (Pipeline.arrRef spec0 1) : S512x64.Idx → EReal) (funext fun a => Fin.ext ?_)
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

/-- The bias window stages the whole bias row at every point. -/
theorem whole_block2 (c : Dev nD) (t : Fin cfg0.N) :
    (iblk0 V c 2 t : S1x64.Idx → EReal) = (V c (Pipeline.arrRef spec0 2) : S1x64.Idx → EReal) := by
  obtain ⟨-, -, -, -, e0, e1, -⟩ := idx_facts t
  funext y
  show (V c (Pipeline.arrRef spec0 2) : S1x64.Idx → EReal) (((cfg0.win 2).blk t).view.emb y) = _
  refine congrArg (V c (Pipeline.arrRef spec0 2) : S1x64.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The activation block of point t at (r, q) is the layer at row 2048 t + r. -/
theorem pay2_point (c : Dev nD) (t : Fin cfg0.N) (r : Fin 2048) (q : Fin 64) (p : Fin 131072) (hp : p.val = 2048 * t.val + r.val) :
    k0_pay2 (F := Idealize.ShloMosaic.Ideal) (iblk0 V c 0 t) (iblk0 V c 1 t) (iblk0 V c 2 t) (ix2 r q) = layer1 V c p q :=
  (pay2_apply (iblk0 V c 0 t) (iblk0 V c 1 t) (iblk0 V c 2 t) r q).trans
    (tile_row (V c (Pipeline.arrRef spec0 0)) (iblk0 V c 0 t) (V c (Pipeline.arrRef spec0 1)) (iblk0 V c 1 t)
      (V c (Pipeline.arrRef spec0 2)) (iblk0 V c 2 t) r p q (fun k => rows_block V c t r k p hp) (whole_block1 V c t) (whole_block2 V c t))

/-- The largest entry of the activation block of point t is the largest entry of row block t of the layer. -/
theorem tile_point (c : Dev nD) (t : Fin cfg0.N) :
    (Finset.univ.sup fun p : Fin 2048 × Fin 64 =>
        k0_pay2 (F := Idealize.ShloMosaic.Ideal) (iblk0 V c 0 t) (iblk0 V c 1 t) (iblk0 V c 2 t) (ix2 p.1 p.2))
      = tileSup (layer1 V c) t.val := by
  have hN : cfg0.N = 64 := N_0
  have ht : t.val < 64 := by have := t.isLt; omega
  refine Eq.trans (Finset.sup_congr rfl fun p _ => ?_) (tileSup_eq (layer1 V c) t.val ht)
  exact pay2_point V c t p.1 p.2 ⟨2048 * t.val + p.1.val, by have := p.1.isLt; omega⟩ rfl

/-- What the two output blocks hold after a first point of a core. -/
theorem outs_first (c : Dev nD) (t : Fin cfg0.N) (h0 : t.val % 32 = 0) :
    outsAt0 V c t.val t.isLt
      = (k0_pay2 (iblk0 V c 0 t) (iblk0 V c 1 t) (iblk0 V c 2 t),
         k0_pay3 (iblk0 V c 0 t) (iblk0 V c 1 t) (iblk0 V c 2 t) (k0_pay1 (F := Idealize.ShloMosaic.Ideal))) := by
  rw [outsAt0_A V c t h0]
  exact congrArg₂ Prod.mk
    (out0_A_3_eq c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t))
    (out0_A_4_eq c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t))

/-- What the two output blocks hold after a later point, over what the point before left in the second. -/
theorem outs_later (c : Dev nD) (t : Fin cfg0.N) (h0 : ¬t.val % 32 = 0) :
    outsAt0 V c t.val t.isLt
      = (k0_pay2 (iblk0 V c 0 t) (iblk0 V c 1 t) (iblk0 V c 2 t),
         k0_pay3 (iblk0 V c 0 t) (iblk0 V c 1 t) (iblk0 V c 2 t) (outsAt0 V c (t.val - 1) (Nat.lt_of_le_of_lt (Nat.sub_le _ _) t.isLt)).2) := by
  rw [outsAt0_B V c t h0]
  exact congrArg₂ Prod.mk
    (out0_B_3_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2)
    (out0_B_4_eq c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2)

/-- The activation block after any point is the layer's block of that point. -/
theorem outs_fst (c : Dev nD) (t : Fin cfg0.N) :
    (outsAt0 V c t.val t.isLt).1 = k0_pay2 (iblk0 V c 0 t) (iblk0 V c 1 t) (iblk0 V c 2 t) := by
  by_cases h0 : t.val % 32 = 0
  · rw [outs_first V c t h0]
  · rw [outs_later V c t h0]

/-- The running-maximum block after point n holds, at every entry, what the core holds after block n — by induction
    on the point. -/
theorem outs_snd (c : Dev nD) : ∀ (n : ℕ) (h : n < cfg0.N) (z : Fin 1) (a : Fin 8) (b : Fin 128),
    ((outsAt0 V c n h).2 : S1x8x128.Idx → EReal) (ix3 z a b) = accMax (layer1 V c) n
  | 0, h, z, a, b => by
    rw [outs_first V c ⟨0, h⟩ rfl]
    show k0_pay3 (F := Idealize.ShloMosaic.Ideal) (iblk0 V c 0 ⟨0, h⟩) (iblk0 V c 1 ⟨0, h⟩) (iblk0 V c 2 ⟨0, h⟩) (k0_pay1 (F := Idealize.ShloMosaic.Ideal)) (ix3 z a b) = _
    rw [pay3_apply, pay1_apply, tile_point V c ⟨0, h⟩]
    rfl
  | n + 1, h, z, a, b => by
    by_cases h0 : (n + 1) % 32 = 0
    · rw [outs_first V c ⟨n + 1, h⟩ h0]
      show k0_pay3 (F := Idealize.ShloMosaic.Ideal) (iblk0 V c 0 ⟨n + 1, h⟩) (iblk0 V c 1 ⟨n + 1, h⟩) (iblk0 V c 2 ⟨n + 1, h⟩) (k0_pay1 (F := Idealize.ShloMosaic.Ideal)) (ix3 z a b) = _
      rw [pay3_apply, pay1_apply, tile_point V c ⟨n + 1, h⟩]
      show _ = if (n + 1) % 32 = 0 then _ else _
      rw [if_pos h0]
    · rw [outs_later V c ⟨n + 1, h⟩ h0]
      show k0_pay3 (F := Idealize.ShloMosaic.Ideal) (iblk0 V c 0 ⟨n + 1, h⟩) (iblk0 V c 1 ⟨n + 1, h⟩) (iblk0 V c 2 ⟨n + 1, h⟩)
        (outsAt0 V c n (Nat.lt_of_succ_lt h)).2 (ix3 z a b) = _
      rw [pay3_apply, outs_snd c n (Nat.lt_of_succ_lt h) z a b, tile_point V c ⟨n + 1, h⟩]
      show _ = if (n + 1) % 32 = 0 then _ else _
      rw [if_neg h0]

end Arrays

end Cert.KernelIdeal.RegionValue.Region0

end
-- ==== Proof.Region0.lean ====
/-
  The first pass of the network over the batch, read as mathematics: the two result arrays.

  Every grid point writes its activation block back, to rows 2048 t … 2048 t + 2047 of the activation array; the 64
  blocks put side by side are the rectified first layer of the whole batch.  The running-maximum block is written
  back by the last point of each core only, to block cc of the [2,8,128] array; by then the core holds zero joined
  with every entry of the layer on its half of the batch, rows 65536·cc … 65536·cc + 65535.
-/
import proofs.«161439_j163208757492_2_alg».proof.Proof.Region0Blocks

noncomputable section

namespace Cert.KernelIdeal.RegionValue

open Idealize.ShloMosaic Idealize.ShloMosaic.TcCoe Idealize.SL.Sem Idealize.ShloMosaic.Tactic
open Idealize.ShloMosaic.Pipeline (Dat)
open Idealize.ShloMosaic.ValueIdx
open Cert.KernelIdeal Cert.KernelIdeal.Gen

namespace Region0

section Arrays2

open Cert.QuantNet

variable (V : (c : Dev nD) → (b : Ref sig .tc) → Buf (Elt Idealize.ShloMosaic.Ideal) ((c : Thread nD τ).loc b))

/-- A block of the activation array read through point t's window, entry by entry, for any contents of the array. -/
theorem read_blk3 (G : S131072x64.Idx → EReal) (t : Fin cfg0.N) (y : S2048x64.Idx) :
    ((cfg0.win 3).blk t).view.read (Elt Idealize.ShloMosaic.Ideal) G y = G (((cfg0.win 3).blk t).view.emb y) := rfl

/-- The activation window's block is written back whole. -/
theorem cut_blk3 (X : S2048x64.Idx → EReal) (t : Fin cfg0.N) (y : S2048x64.Idx) :
    (cfg0.win 3).cut (grid0.coords t) X y = X y := rfl

/-- A block of the maxima array read through point t's window, entry by entry, for any contents of the array. -/
theorem read_blk4 (G : S2x8x128.Idx → EReal) (t : Fin cfg0.N) (y : S1x8x128.Idx) :
    ((cfg0.win 4).blk t).view.read (Elt Idealize.ShloMosaic.Ideal) G y = G (((cfg0.win 4).blk t).view.emb y) := rfl

/-- The maxima window's block is written back whole. -/
theorem cut_blk4 (X : S1x8x128.Idx → EReal) (t : Fin cfg0.N) (y : S1x8x128.Idx) :
    (cfg0.win 4).cut (grid0.coords t) X y = X y := rfl

/-- What point t writes back to the activation array is block t of the whole-batch layer: rows 2048 t … 2048 t + 2047. -/
theorem flushed3_eq (c : Dev nD) (t : Fin cfg0.N) :
    (dat0 V c).flushed 3 t = ((cfg0.win 3).blk t).view.read (Elt Idealize.ShloMosaic.Ideal) (layer1Arr V c) := by
  show (cfg0.win 3).cut (grid0.coords t) ((dat0 V c).after 3 t) = _
  rw [after0_3, outs_fst V c t]
  have hN : cfg0.N = 64 := N_0
  have ht : t.val < 64 := by have := t.isLt; omega
  obtain ⟨-, -, -, -, -, -, e0, e1, -⟩ := idx_facts t
  funext j
  obtain ⟨r, q, rfl⟩ : ∃ (r : Fin 2048) (q : Fin 64), j = ix2 r q := ⟨j 0, j 1, eq_ix2 j⟩
  refine (cut_blk3 _ t (ix2 r q)).trans ?_
  refine Eq.trans ?_ (read_blk3 (layer1Arr V c) t (ix2 r q)).symm
  have hp : 2048 * t.val + r.val < 131072 := by have := r.isLt; omega
  refine (pay2_point V c t r q ⟨2048 * t.val + r.val, hp⟩ rfl).trans
    (layer1Arr_apply V c (((cfg0.win 3).blk t).view.emb (ix2 r q)) ⟨2048 * t.val + r.val, hp⟩ q ?_ ?_).symm
  · show win0_3.index t (0 : Fin 2) * 2048 + 1 * r.val = 2048 * t.val + r.val
    rw [e0]; omega
  · show win0_3.index t (1 : Fin 2) * 64 + 1 * q.val = q.val
    rw [e1]; omega

/-- An index of the activation array is in point t's block iff each coordinate is in the block's range on its axis. -/
theorem mem_blk3 (t : Fin cfg0.N) (i : S131072x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v26_0).slice (win0_3.rect t)).set ↔ _
  rw [View.set_slice_whole, Rect.mem_set_unit]
  exact Iff.rfl

/-- Row p of the activation array lies in the block of point p / 2048, and every point writes back. -/
theorem covered3 (i : S131072x64.Idx) :
    ∃ t : Fin cfg0.N, (cfg0.win 3).flush t = true ∧ i ∈ ((cfg0.win 3).blk t).view.set := by
  have hi0 : (i 0).val < 131072 := idx2_lt0 i
  have hi1 : (i 1).val < 64 := idx2_lt1 i
  have hN : cfg0.N = 64 := N_0
  obtain ⟨t, ht⟩ : ∃ t : Fin cfg0.N, t.val = (i 0).val / 2048 := ⟨⟨(i 0).val / 2048, by omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 64 ≤ (i 1).val ∧ (i 1).val < win0_3.index t (1 : Fin 2) * 64 + 64
    rw [e1]; omega

/-- The activation array after the first pass is the whole-batch layer. -/
theorem final3 (c : Dev nD) : (dat0 V c).arrAt 3 cfg0.N = layer1Arr V c :=
  (dat0 V c).arrAt_eq_of_cover 3 (layer1Arr V c) (fun t _ => flushed3_eq V c t) covered3

/-- The running-maximum block after a point holds one number at every entry. -/
theorem outs_snd_const (c : Dev nD) (t : Fin cfg0.N) :
    ((outsAt0 V c t.val t.isLt).2 : S1x8x128.Idx → EReal) = fun _ => accMax (layer1 V c) t.val :=
  funext fun j => by
    obtain ⟨z, a, b, rfl⟩ : ∃ (z : Fin 1) (a : Fin 8) (b : Fin 128), j = ix3 z a b := ⟨j 0, j 1, j 2, eq_ix3 j⟩
    exact outs_snd V c t.val t.isLt z a b

/-- The last point of a core writes back, to block cc of the maxima array, the core's running maximum at every entry. -/
theorem flushed4_eq (c : Dev nD) (t : Fin cfg0.N) (hf : (cfg0.win 4).flush t = true) :
    (dat0 V c).flushed 4 t = ((cfg0.win 4).blk t).view.read (Elt Idealize.ShloMosaic.Ideal) (coreMaxArr V c) := by
  have h31 : t.val % 32 = 31 := (flush0_4 t).mp hf
  show (cfg0.win 4).cut (grid0.coords t) ((dat0 V c).after 4 t) = _
  rw [after0_4, outs_snd_const V c t]
  obtain ⟨-, -, -, -, -, -, -, -, e0, -⟩ := idx_facts t
  funext j
  refine (cut_blk4 _ t j).trans ?_
  refine Eq.trans ?_ (read_blk4 (coreMaxArr V c) t j).symm
  have hj : (j 0).val < 1 := (j 0).isLt
  have e : ((((cfg0.win 4).blk t).view.emb j) 0).val = t.val / 32 := by
    show win0_4.index t (0 : Fin 3) * 1 + 1 * (j 0).val = t.val / 32
    rw [e0]; omega
  unfold coreMaxArr
  rw [e]
  have ht : t.val = 32 * (t.val / 32) + 31 := by omega
  exact (congrArg (accMax (layer1 V c)) ht).trans (accMax_last (layer1 V c) (t.val / 32))

/-- An index of the maxima array is in point t's block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v26_1).slice (win0_4.rect t)).set ↔ _
  rw [View.set_slice_whole, Rect.mem_set_unit]
  exact Iff.rfl

/-- Block cc of the maxima array is written back by the last point of core cc. -/
theorem covered4 (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 64 := N_0
  obtain ⟨t, ht⟩ : ∃ t : Fin cfg0.N, t.val = 32 * (i 0).val + 31 := ⟨⟨32 * (i 0).val + 31, by omega⟩, rfl⟩
  obtain ⟨-, -, -, -, -, -, -, -, e0, e1, e2⟩ := idx_facts t
  refine ⟨t, (flush0_4 t).mpr (by omega), ?_⟩
  rw [mem_blk4]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 8 ≤ (i 1).val ∧ (i 1).val < win0_4.index t (1 : Fin 3) * 8 + 8
    rw [e1]; omega
  | ⟨2, _⟩ =>
    show win0_4.index t (2 : Fin 3) * 128 ≤ (i 2).val ∧ (i 2).val < win0_4.index t (2 : Fin 3) * 128 + 128
    rw [e2]; omega

/-- The maxima array after the first pass holds each core's running maximum. -/
theorem final4 (c : Dev nD) : (dat0 V c).arrAt 4 cfg0.N = coreMaxArr V c :=
  (dat0 V c).arrAt_eq_of_cover 4 (coreMaxArr V c) (fun t hf => flushed4_eq V c t hf) covered4

end Arrays2

end Region0

section Results

open Cert.QuantNet

variable (V : (c : Dev nD) → (b : Ref sig .tc) → Buf (Elt Idealize.ShloMosaic.Ideal) ((c : Thread nD τ).loc b))

/-- Entry (p, q) of the activation array after the first pass: the rectified first layer of row p of the quantized
    input, with the weights (stored transposed) and the bias the pass finds. -/
theorem region0_r1 (c : Dev nD) (p : Fin 131072) (q : Fin 64) :
    (dat0 (F := Idealize.ShloMosaic.Ideal) V c).arrAt 3 cfg0.N (ix2 p q)
      = dense (QuantNet.x0 (cur2 (V c (Pipeline.arrRef spec0 0) : S131072x512.Idx → EReal)))
          (fun (j : Fin 64) (k : Fin 512) => (V c (Pipeline.arrRef spec0 1) : S512x64.Idx → EReal) (ix2 k j))
          (fun j : Fin 64 => (V c (Pipeline.arrRef spec0 2) : S1x64.Idx → EReal) (ix2 (0 : Fin 1) j)) p q :=
  (congrFun (Region0.final3 V c) (ix2 p q)).trans (Region0.layer1Arr_apply V c (ix2 p q) p q rfl rfl)

/-- Entry (cc, a, b) of the maxima array after the first pass: zero joined with every entry of the first layer on
    core cc's half of the batch. -/
theorem region0_m1 (c : Dev nD) (cc : Fin 2) (a : Fin 8) (b : Fin 128) :
    (dat0 (F := Idealize.ShloMosaic.Ideal) V c).arrAt 4 cfg0.N (ix3 cc a b)
      = coreMax 65536 (dense (QuantNet.x0 (cur2 (V c (Pipeline.arrRef spec0 0) : S131072x512.Idx → EReal)))
          (fun (j : Fin 64) (k : Fin 512) => (V c (Pipeline.arrRef spec0 1) : S512x64.Idx → EReal) (ix2 k j))
          (fun j : Fin 64 => (V c (Pipeline.arrRef spec0 2) : S1x64.Idx → EReal) (ix2 (0 : Fin 1) j))) cc.val :=
  congrFun (Region0.final4 V c) (ix3 cc a b)

end Results

end Cert.KernelIdeal.RegionValue

end
-- ==== Proof.Region1Body.lean ====
/-
  One point of the second pass, as mathematics.  The body takes a tile of 2048 rows of the first rectified layer,
  puts it on the grid of the first activation step, multiplies by the second layer's weights, adds the bias and
  rectifies; it then takes the largest entry of the tile (the maximum along each row from -∞, then down the column)
  and leaves, in every entry of its [1,8,128] block, the maximum of that number and of what the block held (zero at
  the first point of a core).  Also here: the largest entry over a range of rows of a matrix, and how the ranges of
  consecutive tiles add up to a core's half of the batch.
-/
import proofs.«161439_j163208757492_2_alg».proof.Proof.Gen.KernelIdeal.Frame
import proofs.«161439_j163208757492_2_alg».proof.Proof.Curry
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionValue1

open Idealize.ShloMosaic Idealize.ShloMosaic.TcCoe Idealize.SL.Sem Idealize.ShloMosaic.ValueIdx
open Idealize.ShloMosaic.Pipeline (Dat)
open Cert.KernelIdeal Cert.KernelIdeal.Gen Cert.QuantNet

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its core leaves the maximum of what the block held and the tile's largest entry. -/
theorem out_B (c : Dev nD) (i : grid1.Coords) (a2 : Memref sig .tc .vmem S2048x64 .f32) (h2 : a2.IsWhole)
    (a3 : Memref sig .tc .vmem S1x1 .f32) (h3 : a3.IsWhole) (a4 : Memref sig .tc .vmem S64x64 .bf16) (h4 : a4.IsWhole)
    (a5 : Memref sig .tc .vmem S1x64 .f32) (h5 : a5.IsWhole) (a6 : Memref sig .tc .vmem S1x8x128 .f32) (h6 : a6.IsWhole)
    (hc : ¬cond1_0 i) (x0 : Vec F S2048x64 .f32) (x1 : Vec F S1x1 .f32) (x2 : Vec F S64x64 .bf16)
    (x3 : Vec F S1x64 .f32) (xo : Vec F S1x8x128 .f32) :
    out1_B_4 c i a2 h2 a3 h3 a4 h4 a5 h5 a6 h6 hc x0 x1 x2 x3 xo = k1_pay2 x1 x0 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero (S := S1x8x128) hz3]
  simp only [View.readAt_eq_ld, h2.read_unread, h3.read_unread, h4.read_unread, h5.read_unread, h6.read_unread,
    View.ld_unit_zero (S := S2048x64) hz2, View.ld_unit_zero (S := S1x1) hz2, View.ld_unit_zero (S := S64x64) hz2,
    View.ld_unit_zero (S := S1x64) hz2, View.ld_unit_zero (S := S1x8x128) hz3]

/-- The first point of a core zeroes the block first, so it leaves the maximum of zero and the tile's largest entry. -/
theorem out_A (c : Dev nD) (i : grid1.Coords) (a2 : Memref sig .tc .vmem S2048x64 .f32) (h2 : a2.IsWhole)
    (a3 : Memref sig .tc .vmem S1x1 .f32) (h3 : a3.IsWhole) (a4 : Memref sig .tc .vmem S64x64 .bf16) (h4 : a4.IsWhole)
    (a5 : Memref sig .tc .vmem S1x64 .f32) (h5 : a5.IsWhole) (a6 : Memref sig .tc .vmem S1x8x128 .f32) (h6 : a6.IsWhole)
    (hc : cond1_0 i) (x0 : Vec F S2048x64 .f32) (x1 : Vec F S1x1 .f32) (x2 : Vec F S64x64 .bf16)
    (x3 : Vec F S1x64 .f32) :
    out1_A_4 c i a2 h2 a3 h3 a4 h4 a5 h5 a6 h6 hc x0 x1 x2 x3 = k1_pay2 x1 x0 x2 x3 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S2048x64) hz2, View.ld_unit_zero (S := S1x1) hz2, View.ld_unit_zero (S := S64x64) hz2,
    View.ld_unit_zero (S := S1x64) hz2, View.ld_unit_zero (S := S1x8x128) hz3]

end Pieces

section Payload

local notation "𝕀" => Idealize.ShloMosaic.Ideal

/-- A column [a] cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The supremum over pairs is the supremum over rows of the suprema of the rows. -/
theorem sup_rows {a b : ℕ} (g : Fin a → Fin b → EReal) :
    (Finset.univ.sup fun r : Fin a => Finset.univ.sup fun l : Fin b => g r l)
      = Finset.univ.sup fun p : Fin a × Fin b => g p.1 p.2 := by
  apply le_antisymm
  · refine Finset.sup_le fun r _ => Finset.sup_le fun l _ => ?_
    exact Finset.le_sup (f := fun p : Fin a × Fin b => g p.1 p.2) (Finset.mem_univ (r, l))
  · refine Finset.sup_le fun p _ => ?_
    exact (Finset.le_sup (f := fun l : Fin b => g p.1 l) (Finset.mem_univ p.2)).trans
      (Finset.le_sup (f := fun r : Fin a => Finset.univ.sup fun l : Fin b => g r l) (Finset.mem_univ p.1))

theorem neg_inf_lit : Ideal.ofBits .f32 0xFF800000#32 = (⊥ : EReal) := by
  simp [Ideal.ofBits, Ideal.ieee]

/-- The largest entry of a tile, as the body computes it: the maximum along each row from -∞, then the maximum of
    those down the column, the one number spread over the [1,8,128] block. -/
theorem tile_max (src : FVec 𝕀 S2048x64 .f32)
    (h1 : S2048x64.Reduces [1] S2048) (hf1 : FKind.Formats .f32)
    (ha1 : (0xFF800000#32 : BitVec 32) = FKind.maximumf.neutral .f32 hf1)
    (c1 : S2048.ShapeCasts S2048x1) (h0 : S2048x1.Reduces [0] S1) (hf0 : FKind.Formats .f32)
    (ha0 : (0xFF800000#32 : BitVec 32) = FKind.maximumf.neutral .f32 hf0)
    (c2 : S1.ShapeCasts S1x1) (c3 : S1x1.ShapeCasts S1x1x1) (c4 : S1x1x1.ShapeCasts S1x1x1)
    (bc : S1x1x1.Broadcasts S1x8x128) (z : Fin 1) (a : Fin 8) (b : Fin 128) :
    broadcastTo S1x8x128 (shapeCast S1x1x1 (shapeCast S1x1x1 (shapeCast S1x1
      (multiReduction (F := 𝕀) .maximumf [0] S1 (shapeCast S2048x1
        (multiReduction (F := 𝕀) .maximumf [1] S2048 src 0xFF800000#32 h1 hf1 ha1) c1) 0xFF800000#32 h0 hf0 ha0)
      c2) c3) c4) bc (ix3 z a b)
      = Finset.univ.sup fun p : Fin 2048 × Fin 64 => src (ix2 p.1 p.2) := by
  refine (broadcastTo_apply _ _ (ix3 z a b) (ix3 (0 : Fin 1) (0 : Fin 1) (0 : Fin 1)) (fun ax => by
    match ax with | ⟨0, _⟩ => rfl | ⟨1, _⟩ => rfl | ⟨2, _⟩ => rfl)).trans ?_
  rw [shapeCast_self]
  refine (shapeCast_ab_1ab_apply _ _ 0 0 0).trans ?_
  refine (shapeCast_a_1a_apply _ _ 0 0).trans ?_
  refine (Ideal.multiReduction_maximumf_single _ _ h0 _ _ (ix1 (0 : Fin 1))).trans ?_
  rw [Ideal.ofBits_def, neg_inf_lit, ← sup_rows (fun r l => src (ix2 r l))]
  apply le_antisymm
  · show (Finset.univ.sup _) ≤ _
    refine Finset.sup_le fun k _ => ?_
    have e : h0.lift (ix1 (0 : Fin 1)) k = ix2 (⟨k.val, k.isLt⟩ : Fin 2048) (0 : Fin 1) :=
      funext fun ax => Fin.ext (by match ax with | ⟨0, _⟩ => rfl | ⟨1, _⟩ => rfl)
    rw [Function.comp_apply, e, shapeCast_a_a1_apply]
    refine ((Ideal.multiReduction_maximumf_single src _ h1 hf1 ha1 (ix1 (⟨k.val, k.isLt⟩ : Fin 2048))).le).trans ?_
    rw [Ideal.ofBits_def, neg_inf_lit]
    show (Finset.univ.sup _) ≤ _
    refine Finset.sup_le fun l _ => ?_
    have e1 : h1.lift (ix1 (⟨k.val, k.isLt⟩ : Fin 2048)) l = ix2 (⟨k.val, k.isLt⟩ : Fin 2048) (⟨l.val, l.isLt⟩ : Fin 64) :=
      funext fun ax => Fin.ext (by match ax with | ⟨0, _⟩ => rfl | ⟨1, _⟩ => rfl)
    rw [Function.comp_apply, e1]
    exact (Finset.le_sup (f := fun l : Fin 64 => src (ix2 (⟨k.val, k.isLt⟩ : Fin 2048) l)) (Finset.mem_univ _)).trans
      (Finset.le_sup (f := fun r : Fin 2048 => Finset.univ.sup fun l : Fin 64 => src (ix2 r l)) (Finset.mem_univ _))
  · refine Finset.sup_le fun r _ => Finset.sup_le fun l _ => ?_
    have e : h0.lift (ix1 (0 : Fin 1)) (⟨r.val, r.isLt⟩ : Fin (S2048x1.size 0)) = ix2 r (0 : Fin 1) :=
      funext fun ax => Fin.ext (by match ax with | ⟨0, _⟩ => rfl | ⟨1, _⟩ => rfl)
    refine le_trans ?_ (Finset.le_sup (f := (shapeCast S2048x1
      (multiReduction (F := 𝕀) .maximumf [1] S2048 src 0xFF800000#32 h1 hf1 ha1) c1 ∘ h0.lift (ix1 (0 : Fin 1))))
      (Finset.mem_univ (⟨r.val, r.isLt⟩ : Fin (S2048x1.size 0))))
    rw [Function.comp_apply, e, shapeCast_a_a1_apply]
    refine le_trans ?_ (Ideal.multiReduction_maximumf_single src _ h1 hf1 ha1 (ix1 r)).ge
    rw [Ideal.ofBits_def, neg_inf_lit]
    have e1 : h1.lift (ix1 r) (⟨l.val, l.isLt⟩ : Fin (S2048x64.size 1)) = ix2 r l :=
      funext fun ax => Fin.ext (by match ax with | ⟨0, _⟩ => rfl | ⟨1, _⟩ => rfl)
    refine le_trans ?_ (Finset.le_sup (f := src ∘ h1.lift (ix1 r))
      (Finset.mem_univ (⟨l.val, l.isLt⟩ : Fin (S2048x64.size 1))))
    rw [Function.comp_apply, e1]

/-- The dot record of the body's matrix product. -/
abbrev DD := dot_S2048x64_S64x64_S2048x64_1_0_0_1_n_n

theorem lhs_DD_0 (i : S2048x64.Idx) (q : DD.contr.Idx) : (DD.lhsIdx i q 0).val = (i 0).val := by
  unfold DotDims.lhsIdx
  rw [dif_neg (show ¬(0 : Fin S2048x64.rank) ∈ DD.lhsBatch by decide),
    dif_pos (show (0 : Fin S2048x64.rank) ∈ DD.lhsNonContracting by decide)]
  rfl

theorem rhs_DD_1 (i : S2048x64.Idx) (q : DD.contr.Idx) : (DD.rhsIdx i q 1).val = (i 1).val := by
  unfold DotDims.rhsIdx
  rw [dif_neg (show ¬(1 : Fin S64x64.rank) ∈ DD.rhsBatch by decide),
    dif_pos (show (1 : Fin S64x64.rank) ∈ DD.rhsNonContracting by decide)]
  rfl

/-- The matrix product into a zero accumulator, entry by entry: the sum over the shared coordinate. -/
theorem matmul_at (l : FVec 𝕀 S2048x64 .bf16) (r : FVec 𝕀 S64x64 .bf16) (p : Fin 2048) (q : Fin 64) :
    matmul (F := 𝕀) DD none l r (constant (F := 𝕀) S2048x64 .f32 0x00000000#32) (ix2 p q)
      = ∑ k : Fin 64, l (ix2 p k) * r (ix2 k q) := by
  simp only [matmul]
  rw [Ideal.matmul_constant_zero_apply, ← Equiv.sum_comp (ValueIdx.contrEquiv1 DD 64 rfl rfl).symm]
  refine Finset.sum_congr rfl fun k _ => ?_
  have hk := ValueIdx.contrEquiv1_symm_val DD 64 rfl rfl k
  have el : DD.lhsIdx (ix2 p q) ((ValueIdx.contrEquiv1 DD 64 rfl rfl).symm k) = ix2 p k :=
    funext fun a => Fin.ext (by
      match a with
      | ⟨0, _⟩ => exact lhs_DD_0 _ _
      | ⟨1, _⟩ => exact (DD.lhsIdx_val_of_single rfl _ _).trans hk)
  have er : DD.rhsIdx (ix2 p q) ((ValueIdx.contrEquiv1 DD 64 rfl rfl).symm k) = ix2 k q :=
    funext fun a => Fin.ext (by
      match a with
      | ⟨0, _⟩ => exact (DD.rhsIdx_val_of_single rfl _ _).trans hk
      | ⟨1, _⟩ => exact rhs_DD_1 _ _)
  rw [el, er]

/-- One tile of the second rectified layer, from the tile of the first layer, its step, the transposed quantized
    weights and the bias row. -/
def tile (x1 : Vec 𝕀 S1x1 .f32) (x0 : Vec 𝕀 S2048x64 .f32) (x2 : Vec 𝕀 S64x64 .bf16) (x3 : Vec 𝕀 S1x64 .f32) :
    Fin 2048 → Fin 64 → EReal :=
  dense (fun i l => quant 0 (lit 0x42FE0000#32) (x1 (ix2 (0 : Fin 1) (0 : Fin 1))) (x0 (ix2 i l)))
    (fun j l => x2 (ix2 l j)) (fun j => x3 (ix2 (0 : Fin 1) j))

/-- What the body leaves in the block: the maximum of what it found there and the tile's largest entry. -/
theorem pay2_apply (x1 : Vec 𝕀 S1x1 .f32) (x0 : Vec 𝕀 S2048x64 .f32) (x2 : Vec 𝕀 S64x64 .bf16)
    (x3 : Vec 𝕀 S1x64 .f32) (prev : Vec 𝕀 S1x8x128 .f32) (z : Fin 1) (a : Fin 8) (b : Fin 128) :
    k1_pay2 (F := 𝕀) x1 x0 x2 x3 prev (ix3 z a b)
      = max (prev (ix3 z a b)) (Finset.univ.sup fun p : Fin 2048 × Fin 64 => tile x1 x0 x2 x3 p.1 p.2) := by
  unfold k1_pay2
  rw [maximumf_apply, shapeCast_self]
  refine congrArg (max (prev (ix3 z a b))) ?_
  refine (tile_max _ _ _ _ _ _ _ _ _ _ _ _ z a b).trans ?_
  refine Finset.sup_congr rfl fun p _ => ?_
  rw [maximumf_apply, addf_apply, broadcast_apply, matmul_at, broadcastTo_1b_ab_apply]
  have ex : extractAt ![0, 0] x1 inpos_S1x1_p0_0 = x1 (ix2 (0 : Fin 1) (0 : Fin 1)) :=
    congrArg x1 (funext fun ax => Fin.ext (by match ax with | ⟨0, _⟩ => rfl | ⟨1, _⟩ => rfl))
  simp only [shapeCast_self, truncf_apply, mulf_apply, minimumf_apply, maximumf_apply, broadcast_apply, divf_apply,
    ex, roundeven, tile, dense, affine, quant, Ideal.roundeven_def, Ideal.ofBits_def, Ideal.ofBits_zero_f32]

end Payload

section Rows

variable {B N : ℕ} (f : Fin B → Fin N → EReal)

/-- The largest entry among the rows lo ≤ i < hi (-∞ when there is none). -/
def rowsSup (lo hi : ℕ) : EReal :=
  Finset.univ.sup fun p : Fin B × Fin N => if lo ≤ p.1.val ∧ p.1.val < hi then f p.1 p.2 else ⊥

/-- Two adjacent ranges of rows. -/
theorem rowsSup_union (lo mid hi : ℕ) (h1 : lo ≤ mid) (h2 : mid ≤ hi) :
    max (rowsSup f lo mid) (rowsSup f mid hi) = rowsSup f lo hi := by
  unfold rowsSup
  refine (Finset.sup_sup (s := Finset.univ)
    (f := fun p : Fin B × Fin N => if lo ≤ p.1.val ∧ p.1.val < mid then f p.1 p.2 else ⊥)
    (g := fun p : Fin B × Fin N => if mid ≤ p.1.val ∧ p.1.val < hi then f p.1 p.2 else ⊥)).symm.trans ?_
  refine Finset.sup_congr rfl fun p _ => ?_
  show (if lo ≤ p.1.val ∧ p.1.val < mid then f p.1 p.2 else ⊥) ⊔ (if mid ≤ p.1.val ∧ p.1.val < hi then f p.1 p.2 else ⊥)
    = if lo ≤ p.1.val ∧ p.1.val < hi then f p.1 p.2 else ⊥
  by_cases ha : lo ≤ p.1.val ∧ p.1.val < mid
  · have hb : ¬(mid ≤ p.1.val ∧ p.1.val < hi) := by omega
    have hc : lo ≤ p.1.val ∧ p.1.val < hi := by omega
    rw [if_pos ha, if_neg hb, if_pos hc, sup_bot_eq]
  · by_cases hb : mid ≤ p.1.val ∧ p.1.val < hi
    · have hc : lo ≤ p.1.val ∧ p.1.val < hi := by omega
      rw [if_neg ha, if_pos hb, if_pos hc, bot_sup_eq]
    · have hc : ¬(lo ≤ p.1.val ∧ p.1.val < hi) := by omega
      rw [if_neg ha, if_neg hb, if_neg hc, bot_sup_eq]

/-- The largest entry of a tile of T rows that holds the rows lo ≤ i < lo + T. -/
theorem tile_rows {T : ℕ} (lo : ℕ) (hB : lo + T ≤ B) (g : Fin T → Fin N → EReal)
    (hg : ∀ (r : Fin T) (j : Fin N) (h : lo + r.val < B), g r j = f ⟨lo + r.val, h⟩ j) :
    (Finset.univ.sup fun p : Fin T × Fin N => g p.1 p.2) = rowsSup f lo (lo + T) := by
  unfold rowsSup
  apply le_antisymm
  · refine Finset.sup_le fun p _ => ?_
    have hp : p.1.val < T := p.1.isLt
    have h : lo + p.1.val < B := by omega
    have e : g p.1 p.2 = (fun q : Fin B × Fin N =>
        if lo ≤ q.1.val ∧ q.1.val < lo + T then f q.1 q.2 else ⊥) ((⟨lo + p.1.val, h⟩ : Fin B), p.2) := by
      show g p.1 p.2 = if lo ≤ lo + p.1.val ∧ lo + p.1.val < lo + T then f ⟨lo + p.1.val, h⟩ p.2 else ⊥
      rw [if_pos (by omega)]
      exact hg p.1 p.2 h
    rw [e]
    exact Finset.le_sup
      (f := fun q : Fin B × Fin N => if lo ≤ q.1.val ∧ q.1.val < lo + T then f q.1 q.2 else ⊥)
      (Finset.mem_univ ((⟨lo + p.1.val, h⟩ : Fin B), p.2))
  · refine Finset.sup_le fun q _ => ?_
    by_cases hq : lo ≤ q.1.val ∧ q.1.val < lo + T
    · rw [if_pos hq]
      have hr : q.1.val - lo < T := by omega
      have h : lo + (q.1.val - lo) < B := by have := q.1.isLt; omega
      have e : f q.1 q.2 = g ⟨q.1.val - lo, hr⟩ q.2 := by
        rw [hg ⟨q.1.val - lo, hr⟩ q.2 h]
        exact congrArg (fun i => f i q.2) (Fin.ext (by show q.1.val = lo + (q.1.val - lo); omega))
      rw [e]
      exact Finset.le_sup (f := fun p : Fin T × Fin N => g p.1 p.2)
        (Finset.mem_univ ((⟨q.1.val - lo, hr⟩ : Fin T), q.2))
    · rw [if_neg hq]; exact bot_le

/-- What the block holds after point n: zero, and every entry of the rows its core has visited up to that point. -/
def acc (n : ℕ) : EReal := max 0 (rowsSup f (n / 32 * 65536) (n * 2048 + 2048))

/-- At the first point of a core. -/
theorem acc_first (n : ℕ) (h0 : n % 32 = 0) : max 0 (rowsSup f (n * 2048) (n * 2048 + 2048)) = acc f n := by
  unfold acc
  rw [show n / 32 * 65536 = n * 2048 by omega]

/-- At a later point of a core. -/
theorem acc_next (n : ℕ) (h0 : ¬(n + 1) % 32 = 0) :
    max (acc f n) (rowsSup f ((n + 1) * 2048) ((n + 1) * 2048 + 2048)) = acc f (n + 1) := by
  unfold acc
  rw [max_assoc, show (n + 1) / 32 * 65536 = n / 32 * 65536 by omega,
    show n * 2048 + 2048 = (n + 1) * 2048 by omega, rowsSup_union f _ _ _ (by omega) (by omega)]

/-- After the last point of core cc. -/
theorem acc_last (cc : ℕ) : acc f (32 * cc + 31) = coreMax 65536 f cc := by
  unfold acc rowsSup coreMax
  refine congrArg (max 0) (Finset.sup_congr rfl fun p _ => ?_)
  exact if_congr (by omega) rfl rfl

end Rows

end Cert.KernelIdeal.RegionValue1

end
-- ==== Proof.Region1.lean ====
/-
  The second pass over the first rectified layer: each core keeps, in one [1,8,128] block, the running maximum of the
  second rectified layer over the rows it has visited.  At the first point of a core the block is zeroed, then every
  point takes the maximum of the block with the largest entry of its tile; so after the last point of a core the
  block holds the maximum of zero and of every entry of that core's half of the second rectified layer, and that is
  what the core's block of the array of maxima ends holding.
-/
import proofs.«161439_j163208757492_2_alg».proof.Proof.Region1Body

noncomputable section

namespace Cert.KernelIdeal.RegionValue1

open Idealize.ShloMosaic Idealize.ShloMosaic.TcCoe Idealize.SL.Sem Idealize.ShloMosaic.ValueIdx
open Idealize.ShloMosaic.Pipeline (Dat)
open Cert.KernelIdeal Cert.KernelIdeal.Gen Cert.QuantNet

section Arrays

local notation "𝕀" => Idealize.ShloMosaic.Ideal

variable (V : (c : Dev nD) → (b : Ref sig .tc) → Buf (Elt 𝕀) ((c : Thread nD τ).loc b))

/-- The second rectified layer over the whole batch, from the arrays the pass finds: the first rectified layer, its
    step, the quantized second weight matrix (stored transposed) and the second bias row. -/
def R2 (c : Dev nD) : Fin 131072 → Fin 64 → EReal :=
  dense (fun (i : Fin 131072) (l : Fin 64) => quant 0 (lit 0x42FE0000#32)
      ((V c (Pipeline.arrRef spec1 1) : S1x1.Idx → EReal) (ix2 (0 : Fin 1) (0 : Fin 1)))
      ((V c (Pipeline.arrRef spec1 0) : S131072x64.Idx → EReal) (ix2 i l)))
    (fun (j l : Fin 64) => (V c (Pipeline.arrRef spec1 2) : S64x64.Idx → EReal) (ix2 l j))
    (fun j : Fin 64 => (V c (Pipeline.arrRef spec1 3) : S1x64.Idx → EReal) (ix2 (0 : Fin 1) j))

/-- The index maps over the grid: the rows window sits at block (t, 0), the small arrays at block (0, 0), the
    block of maxima at block (t / 32, 0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 32 ∧ win1_4.index t (1 : Fin 3) = 0 ∧ win1_4.index t (2 : Fin 3) = 0 :=
  (by decide +kernel : ∀ t : Fin grid1.N, _)

/-- Row r of the rows window's block at point t is row 2048 t + r of the first rectified layer. -/
theorem rows_block (c : Dev nD) (t : Fin cfg1.N) (r : Fin 2048) (l : Fin 64) (p : Fin 131072)
    (hp : p.val = t.val * 2048 + r.val) :
    (iblk1 V c 0 t : S2048x64.Idx → EReal) (ix2 r l)
      = (V c (Pipeline.arrRef spec1 0) : S131072x64.Idx → EReal) (ix2 p l) := by
  obtain ⟨e0, e1, -⟩ := idx_facts t
  show (V c (Pipeline.arrRef spec1 0) : S131072x64.Idx → EReal) (((cfg1.win 0).blk t).view.emb (ix2 r l)) = _
  refine congrArg (V c (Pipeline.arrRef spec1 0) : S131072x64.Idx → EReal) (funext fun a => Fin.ext ?_)
  match a with
  | ⟨0, _⟩ => show win1_0.index t (0 : Fin 2) * 2048 + 1 * r.val = p.val; rw [e0, hp]; omega
  | ⟨1, _⟩ => show win1_0.index t (1 : Fin 2) * 64 + 1 * l.val = l.val; rw [e1]; omega

/-- A window whose every block is block (0, 0) of an array of the block's own size stages the whole array. -/
theorem whole_block1 (c : Dev nD) (t : Fin cfg1.N) :
    (iblk1 V c 1 t : S1x1.Idx → EReal) = (V c (Pipeline.arrRef spec1 1) : S1x1.Idx → EReal) := by
  obtain ⟨-, -, e0, e1, -⟩ := idx_facts t
  funext y
  show (V c (Pipeline.arrRef spec1 1) : S1x1.Idx → EReal) (((cfg1.win 1).blk t).view.emb y) = _
  refine congrArg (V c (Pipeline.arrRef spec1 1) : S1x1.Idx → EReal) (funext fun a => Fin.ext ?_)
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

theorem whole_block2 (c : Dev nD) (t : Fin cfg1.N) :
    (iblk1 V c 2 t : S64x64.Idx → EReal) = (V c (Pipeline.arrRef spec1 2) : S64x64.Idx → EReal) := by
  obtain ⟨-, -, -, -, e0, e1, -⟩ := idx_facts t
  funext y
  show (V c (Pipeline.arrRef spec1 2) : S64x64.Idx → EReal) (((cfg1.win 2).blk t).view.emb y) = _
  refine congrArg (V c (Pipeline.arrRef spec1 2) : S64x64.Idx → EReal) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem whole_block3 (c : Dev nD) (t : Fin cfg1.N) :
    (iblk1 V c 3 t : S1x64.Idx → EReal) = (V c (Pipeline.arrRef spec1 3) : S1x64.Idx → EReal) := by
  obtain ⟨-, -, -, -, -, -, e0, e1, -⟩ := idx_facts t
  funext y
  show (V c (Pipeline.arrRef spec1 3) : S1x64.Idx → EReal) (((cfg1.win 3).blk t).view.emb y) = _
  refine congrArg (V c (Pipeline.arrRef spec1 3) : S1x64.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- An entry of a row of the second rectified layer depends on the same row of the first only: a tile's formula
    at row r is the whole batch's at row p, when row r of the tile is row p of the batch. -/
theorem tile_row (R1 : S131072x64.Idx → EReal) (x0 : S2048x64.Idx → EReal) (S1 x1 : S1x1.Idx → EReal)
    (W2t x2 : S64x64.Idx → EReal) (B2 x3 : S1x64.Idx → EReal) (r : Fin 2048) (p : Fin 131072) (j : Fin 64)
    (h0 : ∀ l : Fin 64, x0 (ix2 r l) = R1 (ix2 p l)) (h1 : x1 = S1) (h2 : x2 = W2t) (h3 : x3 = B2) :
    tile x1 x0 x2 x3 r j
      = dense (fun (i : Fin 131072) (l : Fin 64) => quant 0 (lit 0x42FE0000#32) (S1 (ix2 (0 : Fin 1) (0 : Fin 1))) (R1 (ix2 i l)))
          (fun (j l : Fin 64) => W2t (ix2 l j)) (fun j : Fin 64 => B2 (ix2 (0 : Fin 1) j)) p j := by
  subst h1 h2 h3
  simp only [tile, dense, affine, h0]

/-- The tile the body sees at point t is the rows 2048 t ≤ i < 2048 (t + 1) of the second rectified layer. -/
theorem tile_blk (c : Dev nD) (t : Fin cfg1.N) (r : Fin 2048) (j : Fin 64) (h : t.val * 2048 + r.val < 131072) :
    tile (iblk1 V c 1 t) (iblk1 V c 0 t) (iblk1 V c 2 t) (iblk1 V c 3 t) r j = R2 V c ⟨t.val * 2048 + r.val, h⟩ j :=
  tile_row (V c (Pipeline.arrRef spec1 0)) (iblk1 V c 0 t) (V c (Pipeline.arrRef spec1 1)) (iblk1 V c 1 t)
    (V c (Pipeline.arrRef spec1 2)) (iblk1 V c 2 t) (V c (Pipeline.arrRef spec1 3)) (iblk1 V c 3 t)
    r ⟨t.val * 2048 + r.val, h⟩ j (fun l => rows_block V c t r l ⟨t.val * 2048 + r.val, h⟩ rfl)
    (whole_block1 V c t) (whole_block2 V c t) (whole_block3 V c t)

/-- The first point of a core leaves zero against its tile. -/
theorem outs_first (c : Dev nD) (t : Fin cfg1.N) (h0 : t.val % 32 = 0) (z : Fin 1) (a : Fin 8) (b : Fin 128) :
    outsAt1 (F := 𝕀) V c t.val t.isLt (ix3 z a b)
      = max 0 (rowsSup (R2 V c) (t.val * 2048) (t.val * 2048 + 2048)) := by
  have hN : cfg1.N = 64 := N_1
  have ht : t.val < 64 := by have := t.isLt; omega
  rw [outsAt1_A V c t h0]
  refine (congrFun (out_A (F := 𝕀) c (grid1.coords t) (ms1_0 t) (hs1_0 t) (ms1_1 t) (hs1_1 t) (ms1_2 t) (hs1_2 t)
    (ms1_3 t) (hs1_3 t) (ms1_4 t) (hs1_4 t) ((hcond1_0 t).mpr h0) (iblk1 V c 0 t) (iblk1 V c 1 t) (iblk1 V c 2 t)
    (iblk1 V c 3 t)) (ix3 z a b)).trans ?_
  refine (pay2_apply (iblk1 V c 1 t) (iblk1 V c 0 t) (iblk1 V c 2 t) (iblk1 V c 3 t) (k1_pay1 (F := 𝕀)) z a b).trans ?_
  refine congrArg₂ max ?_ ?_
  · show Ideal.ofBits .f32 0x00000000#32 = 0
    exact Ideal.ofBits_zero_f32
  · exact tile_rows (R2 V c) (t.val * 2048) (by omega) _ (fun r j h => tile_blk V c t r j h)

/-- A later point of a core leaves what the point before left against its tile. -/
theorem outs_next (c : Dev nD) (t : Fin cfg1.N) (h0 : ¬t.val % 32 = 0) (z : Fin 1) (a : Fin 8) (b : Fin 128) :
    outsAt1 (F := 𝕀) V c t.val t.isLt (ix3 z a b)
      = max (outsAt1 (F := 𝕀) V c (t.val - 1) (Nat.lt_of_le_of_lt (Nat.sub_le _ _) t.isLt) (ix3 z a b))
          (rowsSup (R2 V c) (t.val * 2048) (t.val * 2048 + 2048)) := by
  have hN : cfg1.N = 64 := N_1
  have ht : t.val < 64 := by have := t.isLt; omega
  rw [outsAt1_B V c t h0]
  refine (congrFun (out_B (F := 𝕀) c (grid1.coords t) (ms1_0 t) (hs1_0 t) (ms1_1 t) (hs1_1 t) (ms1_2 t) (hs1_2 t)
    (ms1_3 t) (hs1_3 t) (ms1_4 t) (hs1_4 t) (fun h => h0 ((hcond1_0 t).mp h)) (iblk1 V c 0 t) (iblk1 V c 1 t)
    (iblk1 V c 2 t) (iblk1 V c 3 t)
    (outsAt1 (F := 𝕀) V c (t.val - 1) (Nat.lt_of_le_of_lt (Nat.sub_le _ _) t.isLt))) (ix3 z a b)).trans ?_
  refine (pay2_apply (iblk1 V c 1 t) (iblk1 V c 0 t) (iblk1 V c 2 t) (iblk1 V c 3 t)
    (outsAt1 (F := 𝕀) V c (t.val - 1) (Nat.lt_of_le_of_lt (Nat.sub_le _ _) t.isLt)) z a b).trans ?_
  exact congrArg (max _) (tile_rows (R2 V c) (t.val * 2048) (by omega) _ (fun r j h => tile_blk V c t r j h))

/-- After point n the block holds zero and every entry of the rows its core has visited. -/
theorem outsAt_eq (c : Dev nD) : ∀ (n : ℕ) (h : n < cfg1.N) (z : Fin 1) (a : Fin 8) (b : Fin 128),
    outsAt1 (F := 𝕀) V c n h (ix3 z a b) = acc (R2 V c) n
  | 0, h, z, a, b => (outs_first V c ⟨0, h⟩ rfl z a b).trans (acc_first (R2 V c) 0 rfl)
  | n + 1, h, z, a, b => by
    by_cases h0 : (n + 1) % 32 = 0
    · exact (outs_first V c ⟨n + 1, h⟩ h0 z a b).trans (acc_first (R2 V c) (n + 1) h0)
    · refine (outs_next V c ⟨n + 1, h⟩ h0 z a b).trans ?_
      show max (outsAt1 (F := 𝕀) V c n _ (ix3 z a b)) _ = _
      rw [outsAt_eq c n]
      exact acc_next (R2 V c) n h0

/-- The array of the two cores' maxima. -/
def G (c : Dev nD) : S2x8x128.Idx → EReal := fun i => coreMax 65536 (R2 V c) (i 0).val

/-- Point t's block sits at block t / 32 of the array of maxima. -/
theorem blk_coord0 (t : Fin cfg1.N) (z : Fin 1) (a : Fin 8) (b : Fin 128) :
    (((cfg1.win 4).blk t).view.emb (ix3 z a b) 0).val = t.val / 32 := by
  obtain ⟨-, -, -, -, -, -, -, -, e0, -⟩ := idx_facts t
  show win1_4.index t (0 : Fin 3) * 1 + 1 * z.val = t.val / 32
  rw [e0]; omega

/-- What point t writes back, entry by entry, is what the body left in the block. -/
theorem flushed_apply (c : Dev nD) (t : Fin cfg1.N) (z : Fin 1) (a : Fin 8) (b : Fin 128) :
    (dat1 (F := 𝕀) V c).flushed 4 t (ix3 z a b) = outsAt1 (F := 𝕀) V c t.val t.isLt (ix3 z a b) := by
  show (cfg1.win 4).cut (grid1.coords t) ((dat1 (F := 𝕀) V c).after 4 t) (ix3 z a b) = _
  rw [after1_4]
  rfl

/-- An array read through point t's block. -/
theorem read_blk (g : S2x8x128.Idx → EReal) (t : Fin cfg1.N) (z : Fin 1) (a : Fin 8) (b : Fin 128) :
    ((cfg1.win 4).blk t).view.read (Elt 𝕀) g (ix3 z a b) = g (((cfg1.win 4).blk t).view.emb (ix3 z a b)) := rfl

theorem G_apply (c : Dev nD) (i : S2x8x128.Idx) : G V c i = coreMax 65536 (R2 V c) (i 0).val := rfl

/-- What the last point of a core writes back is that core's block of maxima. -/
theorem flushed_eq (c : Dev nD) (t : Fin cfg1.N) (hf : (cfg1.win 4).flush t = true) :
    (dat1 (F := 𝕀) V c).flushed 4 t = ((cfg1.win 4).blk t).view.read (Elt 𝕀) (G V c) := by
  have hN : cfg1.N = 64 := N_1
  have ht : t.val < 64 := by have := t.isLt; omega
  have h31 : t.val % 32 = 31 := (flush1_4 t).mp hf
  funext j
  obtain ⟨z, a, b, rfl⟩ : ∃ (z : Fin 1) (a : Fin 8) (b : Fin 128), j = ix3 z a b := ⟨j 0, j 1, j 2, eq_ix3 j⟩
  rw [flushed_apply, read_blk, G_apply, blk_coord0, outsAt_eq V c t.val t.isLt z a b, ← acc_last,
    show 32 * (t.val / 32) + 31 = t.val by omega]

/-- An index of the array of maxima is in point t's block iff each coordinate is in the block's range. -/
theorem mem_blk (t : Fin cfg1.N) (i : S2x8x128.Idx) :
    i ∈ ((cfg1.win 4).blk t).view.set ↔ ∀ a : Fin 3, win1_4.index t a * S1x8x128.size a ≤ (i a).val
      ∧ (i a).val < win1_4.index t a * S1x8x128.size a + S1x8x128.size a := by
  show i ∈ ((View.whole main_v64).slice (win1_4.rect t)).set ↔ _
  rw [View.set_slice_whole, Rect.mem_set_unit]
  exact Iff.rfl

/-- Block cc of the array is written back by the last point of core cc. -/
theorem covered (i : S2x8x128.Idx) :
    ∃ t : Fin cfg1.N, (cfg1.win 4).flush t = true ∧ i ∈ ((cfg1.win 4).blk t).view.set := by
  have hi0 : (i 0).val < 2 := (i 0).isLt
  have hi1 : (i 1).val < 8 := (i 1).isLt
  have hi2 : (i 2).val < 128 := (i 2).isLt
  have hN : cfg1.N = 64 := N_1
  obtain ⟨t, ht⟩ : ∃ t : Fin cfg1.N, t.val = 32 * (i 0).val + 31 := ⟨⟨32 * (i 0).val + 31, by omega⟩, rfl⟩
  obtain ⟨-, -, -, -, -, -, -, -, e0, e1, e2⟩ := idx_facts t
  refine ⟨t, (flush1_4 t).mpr (by omega), ?_⟩
  rw [mem_blk]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 8 ≤ (i 1).val ∧ (i 1).val < win1_4.index t (1 : Fin 3) * 8 + 8
    rw [e1]; omega
  | ⟨2, _⟩ =>
    show win1_4.index t (2 : Fin 3) * 128 ≤ (i 2).val ∧ (i 2).val < win1_4.index t (2 : Fin 3) * 128 + 128
    rw [e2]; omega

/-- The array of maxima after the pass. -/
theorem final (c : Dev nD) : (dat1 (F := 𝕀) V c).arrAt 4 cfg1.N = G V c :=
  (dat1 (F := 𝕀) V c).arrAt_eq_of_cover 4 (G V c) (flushed_eq V c) covered

/-- Every entry of block cc of the array of maxima after the pass: zero, and every entry of core cc's half of the
    second rectified layer. -/
theorem region1_value (c : Dev nD) (cc : Fin 2) (a : Fin 8) (b : Fin 128) :
    (dat1 (F := 𝕀) V c).arrAt 4 cfg1.N (ix3 cc a b) = coreMax 65536 (R2 V c) cc.val :=
  congrFun (final V c) (ix3 cc a b)

end Arrays

end Cert.KernelIdeal.RegionValue1

end
-- ==== Proof.Region2.lean ====
/-
  The third pass of the network over the batch, read as mathematics.

  The batch of 131072 rows is cut into 64 tiles of 2048 rows.  For each tile the pass takes the tile's rows of the
  first layer's rectified output, puts them on the grid of the first activation step (clamped to [0, 127] units),
  multiplies by the second layer's weights, adds its bias and rectifies; puts the result on the grid of the second
  activation step, multiplies by the last layer's weights and adds its bias.  The steps, weights and biases are the
  same for every tile, and a row of the result depends only on the same row of the input.  Hence the 64 tiles of
  results, put side by side, are the last two layers applied to the whole batch at once: entry (p, q) of the output
  is the affine map of the quantized second layer of row p.

  A matrix product into a zero accumulator is the plain sum of products over the contracted coordinate; a change of
  number format is the identity on the extended reals; the zero the rectifier and the lower clamp compare with is
  the number 0.
-/
import proofs.«161439_j163208757492_2_alg».proof.Proof.Gen.KernelIdeal.Frame
import proofs.«161439_j163208757492_2_alg».proof.Proof.Curry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.QuantNet

theorem lhs_hidden_0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_hidden_1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q
theorem rhs_hidden_0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q
theorem rhs_hidden_1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A [2048,64] by [64,64] matrix product into a zero accumulator, entry (r, c): the sum over l of A(r,l) B(l,c). -/
theorem matmul_hidden_apply (A : FVec Ideal S2048x64 .bf16) (B : FVec Ideal S64x64 .bf16) (r : Fin 2048) (c : Fin 64) :
    matmul dot_S2048x64_S64x64_S2048x64_1_0_0_1_n_n none A B (constant (F := Ideal) S2048x64 .f32 0x00000000#32) (ix2 r c)
      = ∑ l : Fin 64, A (ix2 r l) * B (ix2 l c) := by
  simp only [matmul]
  rw [Ideal.matmul_constant_zero_apply, ← Equiv.sum_comp (contrEquiv1 dot_S2048x64_S64x64_S2048x64_1_0_0_1_n_n 64 rfl rfl).symm]
  refine Finset.sum_congr rfl fun l _ => ?_
  have hk := contrEquiv1_symm_val dot_S2048x64_S64x64_S2048x64_1_0_0_1_n_n 64 rfl rfl l
  have el : dot_S2048x64_S64x64_S2048x64_1_0_0_1_n_n.lhsIdx (ix2 r c) ((contrEquiv1 dot_S2048x64_S64x64_S2048x64_1_0_0_1_n_n 64 rfl rfl).symm l) = ix2 r l := funext fun a => Fin.ext (by
    match a with
    | ⟨0, _⟩ => exact lhs_hidden_0 _ _
    | ⟨1, _⟩ => exact (lhs_hidden_1 _ _).trans hk)
  have er : dot_S2048x64_S64x64_S2048x64_1_0_0_1_n_n.rhsIdx (ix2 r c) ((contrEquiv1 dot_S2048x64_S64x64_S2048x64_1_0_0_1_n_n 64 rfl rfl).symm l) = ix2 l c := funext fun a => Fin.ext (by
    match a with
    | ⟨0, _⟩ => exact (rhs_hidden_0 _ _).trans hk
    | ⟨1, _⟩ => exact rhs_hidden_1 _ _)
  rw [el, er]

theorem lhs_last_0 (i : S2048x2.Idx) (q : dot_S2048x64_S64x2_S2048x2_1_0_0_1_n_n.contr.Idx) : (dot_S2048x64_S64x2_S2048x2_1_0_0_1_n_n.lhsIdx i q 0).val = (i 0).val := by
  unfold DotDims.lhsIdx
  rw [dif_neg (show ¬(0 : Fin S2048x64.rank) ∈ dot_S2048x64_S64x2_S2048x2_1_0_0_1_n_n.lhsBatch by decide), dif_pos (show (0 : Fin S2048x64.rank) ∈ dot_S2048x64_S64x2_S2048x2_1_0_0_1_n_n.lhsNonContracting by decide)]
  rfl
theorem lhs_last_1 (i : S2048x2.Idx) (q : dot_S2048x64_S64x2_S2048x2_1_0_0_1_n_n.contr.Idx) : (dot_S2048x64_S64x2_S2048x2_1_0_0_1_n_n.lhsIdx i q 1).val = (q ⟨0, by decide⟩).val :=
  dot_S2048x64_S64x2_S2048x2_1_0_0_1_n_n.lhsIdx_val_of_single rfl i q
theorem rhs_last_0 (i : S2048x2.Idx) (q : dot_S2048x64_S64x2_S2048x2_1_0_0_1_n_n.contr.Idx) : (dot_S2048x64_S64x2_S2048x2_1_0_0_1_n_n.rhsIdx i q 0).val = (q ⟨0, by decide⟩).val :=
  dot_S2048x64_S64x2_S2048x2_1_0_0_1_n_n.rhsIdx_val_of_single rfl i q
theorem rhs_last_1 (i : S2048x2.Idx) (q : dot_S2048x64_S64x2_S2048x2_1_0_0_1_n_n.contr.Idx) : (dot_S2048x64_S64x2_S2048x2_1_0_0_1_n_n.rhsIdx i q 1).val = (i 1).val := by
  unfold DotDims.rhsIdx
  rw [dif_neg (show ¬(1 : Fin S64x2.rank) ∈ dot_S2048x64_S64x2_S2048x2_1_0_0_1_n_n.rhsBatch by decide), dif_pos (show (1 : Fin S64x2.rank) ∈ dot_S2048x64_S64x2_S2048x2_1_0_0_1_n_n.rhsNonContracting by decide)]
  rfl

/-- A [2048,64] by [64,2] matrix product into a zero accumulator, entry (r, c): the sum over l of A(r,l) B(l,c). -/
theorem matmul_last_apply (A : FVec Ideal S2048x64 .bf16) (B : FVec Ideal S64x2 .bf16) (r : Fin 2048) (c : Fin 2) :
    matmul dot_S2048x64_S64x2_S2048x2_1_0_0_1_n_n none A B (constant (F := Ideal) S2048x2 .f32 0x00000000#32) (ix2 r c)
      = ∑ l : Fin 64, A (ix2 r l) * B (ix2 l c) := by
  simp only [matmul]
  rw [Ideal.matmul_constant_zero_apply, ← Equiv.sum_comp (contrEquiv1 dot_S2048x64_S64x2_S2048x2_1_0_0_1_n_n 64 rfl rfl).symm]
  refine Finset.sum_congr rfl fun l _ => ?_
  have hk := contrEquiv1_symm_val dot_S2048x64_S64x2_S2048x2_1_0_0_1_n_n 64 rfl rfl l
  have el : dot_S2048x64_S64x2_S2048x2_1_0_0_1_n_n.lhsIdx (ix2 r c) ((contrEquiv1 dot_S2048x64_S64x2_S2048x2_1_0_0_1_n_n 64 rfl rfl).symm l) = ix2 r l := funext fun a => Fin.ext (by
    match a with
    | ⟨0, _⟩ => exact lhs_last_0 _ _
    | ⟨1, _⟩ => exact (lhs_last_1 _ _).trans hk)
  have er : dot_S2048x64_S64x2_S2048x2_1_0_0_1_n_n.rhsIdx (ix2 r c) ((contrEquiv1 dot_S2048x64_S64x2_S2048x2_1_0_0_1_n_n 64 rfl rfl).symm l) = ix2 l c := funext fun a => Fin.ext (by
    match a with
    | ⟨0, _⟩ => exact (rhs_last_0 _ _).trans hk
    | ⟨1, _⟩ => exact rhs_last_1 _ _)
  rw [el, er]

theorem hz : (![0, 0] : Fin 2 → Nat) = fun _ => 0 := funext fun a => by fin_cases a <;> rfl

/-- The one entry of a [1,1] vector. -/
theorem extract_one (x : Vec Ideal S1x1 .f32) (h : ∀ a, (![0, 0] : Fin 2 → Nat) a < S1x1.size a) :
    extractAt ![0, 0] x h = x (ix2 (0 : Fin 1) (0 : Fin 1)) :=
  congrArg x (funext fun a => Fin.ext (by match a with | ⟨0, _⟩ => rfl | ⟨1, _⟩ => rfl))

/-- Dividing by the step, rounding to even, clamping to [0, 127] and multiplying the step back, entry by entry,
    is the quantization of the entry; the change of format is the identity. -/
theorem quant_entry (s : EReal) (Y : FVec Ideal S2048x64 .f32) (h : FTy.bits .bf16 < FTy.bits .f32) (i : S2048x64.Idx) :
    truncf .bf16 (mulf (minimumf (broadcast S2048x64 (Scalar.ofBits (F := Ideal) .f32 0x42FE0000#32))
        (maximumf (broadcast S2048x64 (Scalar.ofBits (F := Ideal) .f32 0x00000000#32)) (roundeven (divf Y (broadcast S2048x64 s)))))
        (broadcast S2048x64 s)) h i
      = quant 0 (lit 0x42FE0000#32) s (Y i) := by
  show min (Ideal.ofBits .f32 0x42FE0000#32) (max (Ideal.ofBits .f32 0x00000000#32) (Ideal.liftRound Ideal.roundHalfEven (Ideal.div (Y i) s))) * s = _
  rw [Ideal.ofBits_zero_f32]
  rfl

/-- Adding a bias and rectifying, entry by entry. -/
theorem relu_entry (Y Z : FVec Ideal S2048x64 .f32) (i : S2048x64.Idx) :
    maximumf (addf Y Z) (broadcast S2048x64 (Scalar.ofBits (F := Ideal) .f32 0x00000000#32)) i = max (Y i + Z i) 0 := by
  show max (Y i + Z i) (Ideal.ofBits .f32 0x00000000#32) = _
  rw [Ideal.ofBits_zero_f32]

/-- The second rectified layer of a tile of rows, entry (r, k), from the tile of the first layer's output. -/
theorem hidden_entry (x1 x4 : Vec Ideal S1x1 .f32) (x0 : Vec Ideal S2048x64 .f32) (x2 : Vec Ideal S64x64 .bf16) (x3 : Vec Ideal S1x64 .f32)
    (x5 : Vec Ideal S64x2 .bf16) (r : Fin 2048) (q : Fin 2) :
    k2_pay2 (F := Ideal) x1 x4 x0 x2 x3 x5 (ix2 r q)
      = ∑ k : Fin 64, quant 0 (lit 0x42FE0000#32) (x4 (ix2 (0 : Fin 1) (0 : Fin 1)))
          (dense (fun (i : Fin 2048) (l : Fin 64) => quant 0 (lit 0x42FE0000#32) (x1 (ix2 (0 : Fin 1) (0 : Fin 1))) (x0 (ix2 i l)))
            (fun (j l : Fin 64) => x2 (ix2 l j)) (fun j : Fin 64 => x3 (ix2 (0 : Fin 1) j)) r k) * x5 (ix2 k q) := by
  unfold k2_pay2
  refine (matmul_last_apply _ _ r q).trans (Finset.sum_congr rfl fun k _ => ?_)
  refine congrArg₂ (· * ·) ?_ (congrFun (shapeCast_self x5 _) _)
  refine (quant_entry _ _ _ (ix2 r k)).trans ?_
  refine congrArg₂ (quant 0 (lit 0x42FE0000#32)) (extract_one x4 _) ?_
  refine (relu_entry _ _ (ix2 r k)).trans ?_
  show _ = max ((∑ l : Fin 64, quant 0 (lit 0x42FE0000#32) (x1 (ix2 (0 : Fin 1) (0 : Fin 1))) (x0 (ix2 r l)) * x2 (ix2 l k)) + x3 (ix2 (0 : Fin 1) k)) 0
  refine congrArg₂ max (congrArg₂ (· + ·) ?_ ?_) rfl
  · refine (matmul_hidden_apply _ _ r k).trans (Finset.sum_congr rfl fun l _ => ?_)
    refine congrArg₂ (· * ·) ?_ (congrFun (shapeCast_self x2 _) _)
    refine (quant_entry _ _ _ (ix2 r l)).trans ?_
    exact congrArg₂ (quant 0 (lit 0x42FE0000#32)) (extract_one x1 _) (congrFun (shapeCast_self x0 _) _)
  · exact (broadcastTo_1b_ab_apply _ _ r k).trans (congrFun (shapeCast_self x3 _) _)

/-- What the body stores for a tile of 2048 rows, entry (r, q): the last layer's affine map of the quantized second
    layer of that row. -/
theorem out_entry (x0 : Vec Ideal S2048x64 .f32) (x1 : Vec Ideal S1x1 .f32) (x2 : Vec Ideal S64x64 .bf16) (x3 : Vec Ideal S1x64 .f32)
    (x4 : Vec Ideal S1x1 .f32) (x5 : Vec Ideal S64x2 .bf16) (x6 : Vec Ideal S1x2 .f32) (r : Fin 2048) (q : Fin 2) :
    out2_7 (F := Ideal) x0 x1 x2 x3 x4 x5 x6 (ix2 r q)
      = affine (fun (i : Fin 2048) (k : Fin 64) => quant 0 (lit 0x42FE0000#32) (x4 (ix2 (0 : Fin 1) (0 : Fin 1)))
          (dense (fun (i : Fin 2048) (l : Fin 64) => quant 0 (lit 0x42FE0000#32) (x1 (ix2 (0 : Fin 1) (0 : Fin 1))) (x0 (ix2 i l)))
            (fun (j l : Fin 64) => x2 (ix2 l j)) (fun j : Fin 64 => x3 (ix2 (0 : Fin 1) j)) i k))
          (fun (j : Fin 2) (k : Fin 64) => x5 (ix2 k j)) (fun j : Fin 2 => x6 (ix2 (0 : Fin 1) j)) r q := by
  unfold out2_7
  rw [View.canon_unit_zero hz]
  simp only [View.ld_unit_zero (S := S1x1) hz, View.ld_unit_zero (S := S2048x64) hz, View.ld_unit_zero (S := S64x64) hz,
    View.ld_unit_zero (S := S1x64) hz, View.ld_unit_zero (S := S64x2) hz, View.ld_unit_zero (S := S1x2) hz]
  unfold k2_pay1
  show k2_pay2 (F := Ideal) x1 x4 x0 x2 x3 x5 (ix2 r q) + broadcastTo S2048x2 (shapeCast S1x2 x6 _) _ (ix2 r q) = _
  rw [hidden_entry, shapeCast_self, broadcastTo_1b_ab_apply]
  rfl

/-- A row of the result depends on the same row of the first layer's output only: the formula over a tile of 2048
    rows at row r is the formula over the whole batch at row p, when row r of the tile is row p of the batch and the
    steps, weights and biases are the same. -/
theorem tile_row (R1 : S131072x64.Idx → EReal) (x0 : S2048x64.Idx → EReal) (S1 x1 S2 x4 : S1x1.Idx → EReal)
    (W2t x2 : S64x64.Idx → EReal) (B2 x3 : S1x64.Idx → EReal) (W3t x5 : S64x2.Idx → EReal) (B3 x6 : S1x2.Idx → EReal)
    (r : Fin 2048) (p : Fin 131072) (q : Fin 2) (h0 : ∀ l : Fin 64, x0 (ix2 r l) = R1 (ix2 p l))
    (h1 : x1 = S1) (h2 : x2 = W2t) (h3 : x3 = B2) (h4 : x4 = S2) (h5 : x5 = W3t) (h6 : x6 = B3) :
    affine (fun (i : Fin 2048) (k : Fin 64) => quant 0 (lit 0x42FE0000#32) (x4 (ix2 (0 : Fin 1) (0 : Fin 1)))
          (dense (fun (i : Fin 2048) (l : Fin 64) => quant 0 (lit 0x42FE0000#32) (x1 (ix2 (0 : Fin 1) (0 : Fin 1))) (x0 (ix2 i l)))
            (fun (j l : Fin 64) => x2 (ix2 l j)) (fun j : Fin 64 => x3 (ix2 (0 : Fin 1) j)) i k))
          (fun (j : Fin 2) (k : Fin 64) => x5 (ix2 k j)) (fun j : Fin 2 => x6 (ix2 (0 : Fin 1) j)) r q
      = affine (fun (i : Fin 131072) (k : Fin 64) => quant 0 (lit 0x42FE0000#32) (S2 (ix2 (0 : Fin 1) (0 : Fin 1)))
          (dense (fun (i : Fin 131072) (l : Fin 64) => quant 0 (lit 0x42FE0000#32) (S1 (ix2 (0 : Fin 1) (0 : Fin 1))) (R1 (ix2 i l)))
            (fun (j l : Fin 64) => W2t (ix2 l j)) (fun j : Fin 64 => B2 (ix2 (0 : Fin 1) j)) i k))
          (fun (j : Fin 2) (k : Fin 64) => W3t (ix2 k j)) (fun j : Fin 2 => B3 (ix2 (0 : Fin 1) j)) p q := by
  subst h1 h2 h3 h4 h5 h6
  simp only [affine, dense, h0]

section Arrays

variable (V : (c : Dev nD) → (b : Ref sig .tc) → Buf (Elt Ideal) ((c : Thread nD τ).loc b))

/-- The network's output over the whole batch, from the arrays the third pass finds: the first layer's rectified
    output, the two activation steps, and the last two layers' quantized weights (stored transposed) and biases. -/
def lastLayer (c : Dev nD) : Fin 131072 → Fin 2 → EReal :=
  affine (fun (i : Fin 131072) (k : Fin 64) => quant 0 (lit 0x42FE0000#32) ((V c (Pipeline.arrRef spec2 4) : S1x1.Idx → EReal) (ix2 (0 : Fin 1) (0 : Fin 1)))
          (dense (fun (i : Fin 131072) (l : Fin 64) => quant 0 (lit 0x42FE0000#32) ((V c (Pipeline.arrRef spec2 1) : S1x1.Idx → EReal) (ix2 (0 : Fin 1) (0 : Fin 1))) ((V c (Pipeline.arrRef spec2 0) : S131072x64.Idx → EReal) (ix2 i l)))
            (fun (j l : Fin 64) => (V c (Pipeline.arrRef spec2 2) : S64x64.Idx → EReal) (ix2 l j)) (fun j : Fin 64 => (V c (Pipeline.arrRef spec2 3) : S1x64.Idx → EReal) (ix2 (0 : Fin 1) j)) i k))
          (fun (j : Fin 2) (k : Fin 64) => (V c (Pipeline.arrRef spec2 5) : S64x2.Idx → EReal) (ix2 k j)) (fun j : Fin 2 => (V c (Pipeline.arrRef spec2 6) : S1x2.Idx → EReal) (ix2 (0 : Fin 1) j))

/-- The same as an array over indices. -/
def lastLayerArr (c : Dev nD) : S131072x2.Idx → EReal :=
  fun i => lastLayer V c ⟨(i 0).val, idx2_lt0 i⟩ ⟨(i 1).val, idx2_lt1 i⟩

theorem lastLayerArr_apply (c : Dev nD) (i : S131072x2.Idx) (p : Fin 131072) (q : Fin 2) (hp : (i 0).val = p.val) (hq : (i 1).val = q.val) :
    lastLayerArr V c i = lastLayer V c p q := by
  unfold lastLayerArr
  exact congrArg₂ (lastLayer V c) (Fin.ext hp) (Fin.ext hq)

/-- The index maps over the grid: the rows window and the output window sit at block (t, 0), every other
    window at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row r of the rows window's block at point t is row 2048 t + r of the first layer's output. -/
theorem rows_block (c : Dev nD) (t : Fin cfg2.N) (r : Fin 2048) (l : Fin 64) (p : Fin 131072) (hp : p.val = t.val * 2048 + r.val) :
    (iblk2 V c 0 t : S2048x64.Idx → EReal) (ix2 r l) = (V c (Pipeline.arrRef spec2 0) : S131072x64.Idx → EReal) (ix2 p l) := by
  obtain ⟨e0, e1, -⟩ := idx_facts t
  show (V c (Pipeline.arrRef spec2 0) : S131072x64.Idx → EReal) (((cfg2.win 0).blk t).view.emb (ix2 r l)) = _
  refine congrArg (V c (Pipeline.arrRef spec2 0) : S131072x64.Idx → EReal) (funext fun a => Fin.ext ?_)
  match a with
  | ⟨0, _⟩ => show win2_0.index t (0 : Fin 2) * 2048 + 1 * r.val = p.val; rw [e0, hp]; omega
  | ⟨1, _⟩ => show win2_0.index t (1 : Fin 2) * 64 + 1 * l.val = l.val; rw [e1]; omega

/-- A window whose every block is block (0, 0) of an array of the block's own size stages the whole array. -/
theorem whole_block1 (c : Dev nD) (t : Fin cfg2.N) :
    (iblk2 V c 1 t : S1x1.Idx → EReal) = (V c (Pipeline.arrRef spec2 1) : S1x1.Idx → EReal) := by
  obtain ⟨-, -, e0, e1, -⟩ := idx_facts t
  funext y
  show (V c (Pipeline.arrRef spec2 1) : S1x1.Idx → EReal) (((cfg2.win 1).blk t).view.emb y) = _
  refine congrArg (V c (Pipeline.arrRef spec2 1) : S1x1.Idx → EReal) (funext fun a => Fin.ext ?_)
  match a with
  | ⟨0, _⟩ => show win2_1.index t (0 : Fin 2) * 1 + 1 * (y 0).val = (y 0).val; rw [e0]; omega
  | ⟨1, _⟩ => show win2_1.index t (1 : Fin 2) * 1 + 1 * (y 1).val = (y 1).val; rw [e1]; omega

theorem whole_block2 (c : Dev nD) (t : Fin cfg2.N) :
    (iblk2 V c 2 t : S64x64.Idx → EReal) = (V c (Pipeline.arrRef spec2 2) : S64x64.Idx → EReal) := by
  obtain ⟨-, -, -, -, e0, e1, -⟩ := idx_facts t
  funext y
  show (V c (Pipeline.arrRef spec2 2) : S64x64.Idx → EReal) (((cfg2.win 2).blk t).view.emb y) = _
  refine congrArg (V c (Pipeline.arrRef spec2 2) : S64x64.Idx → EReal) (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem whole_block3 (c : Dev nD) (t : Fin cfg2.N) :
    (iblk2 V c 3 t : S1x64.Idx → EReal) = (V c (Pipeline.arrRef spec2 3) : S1x64.Idx → EReal) := by
  obtain ⟨-, -, -, -, -, -, e0, e1, -⟩ := idx_facts t
  funext y
  show (V c (Pipeline.arrRef spec2 3) : S1x64.Idx → EReal) (((cfg2.win 3).blk t).view.emb y) = _
  refine congrArg (V c (Pipeline.arrRef spec2 3) : S1x64.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem whole_block4 (c : Dev nD) (t : Fin cfg2.N) :
    (iblk2 V c 4 t : S1x1.Idx → EReal) = (V c (Pipeline.arrRef spec2 4) : S1x1.Idx → EReal) := by
  obtain ⟨-, -, -, -, -, -, -, -, e0, e1, -⟩ := idx_facts t
  funext y
  show (V c (Pipeline.arrRef spec2 4) : S1x1.Idx → EReal) (((cfg2.win 4).blk t).view.emb y) = _
  refine congrArg (V c (Pipeline.arrRef spec2 4) : S1x1.Idx → EReal) (funext fun a => Fin.ext ?_)
  match a with
  | ⟨0, _⟩ => show win2_4.index t (0 : Fin 2) * 1 + 1 * (y 0).val = (y 0).val; rw [e0]; omega
  | ⟨1, _⟩ => show win2_4.index t (1 : Fin 2) * 1 + 1 * (y 1).val = (y 1).val; rw [e1]; omega

theorem whole_block5 (c : Dev nD) (t : Fin cfg2.N) :
    (iblk2 V c 5 t : S64x2.Idx → EReal) = (V c (Pipeline.arrRef spec2 5) : S64x2.Idx → EReal) := by
  obtain ⟨-, -, -, -, -, -, -, -, -, -, e0, e1, -⟩ := idx_facts t
  funext y
  show (V c (Pipeline.arrRef spec2 5) : S64x2.Idx → EReal) (((cfg2.win 5).blk t).view.emb y) = _
  refine congrArg (V c (Pipeline.arrRef spec2 5) : S64x2.Idx → EReal) (funext fun a => Fin.ext ?_)
  match a with
  | ⟨0, _⟩ => show win2_5.index t (0 : Fin 2) * 64 + 1 * (y 0).val = (y 0).val; rw [e0]; omega
  | ⟨1, _⟩ => show win2_5.index t (1 : Fin 2) * 2 + 1 * (y 1).val = (y 1).val; rw [e1]; omega

theorem whole_block6 (c : Dev nD) (t : Fin cfg2.N) :
    (iblk2 V c 6 t : S1x2.Idx → EReal) = (V c (Pipeline.arrRef spec2 6) : S1x2.Idx → EReal) := by
  obtain ⟨-, -, -, -, -, -, -, -, -, -, -, -, e0, e1, -⟩ := idx_facts t
  funext y
  show (V c (Pipeline.arrRef spec2 6) : S1x2.Idx → EReal) (((cfg2.win 6).blk t).view.emb y) = _
  refine congrArg (V c (Pipeline.arrRef spec2 6) : S1x2.Idx → EReal) (funext fun a => Fin.ext ?_)
  match a with
  | ⟨0, _⟩ => show win2_6.index t (0 : Fin 2) * 1 + 1 * (y 0).val = (y 0).val; rw [e0]; omega
  | ⟨1, _⟩ => show win2_6.index t (1 : Fin 2) * 2 + 1 * (y 1).val = (y 1).val; rw [e1]; omega

/-- What point t writes back is block t of the whole-batch output: rows 2048 t … 2048 t + 2047. -/
theorem flushed_eq (c : Dev nD) (t : Fin cfg2.N) :
    (dat2 (F := Ideal) V c).flushed 7 t = ((cfg2.win 7).blk t).view.read (Elt Ideal) (lastLayerArr V c) := by
  show (cfg2.win 7).cut (grid2.coords t) ((dat2 (F := Ideal) V c).after 7 t) = _
  rw [after2_7]
  have hN : cfg2.N = 64 := N_2
  have ht : t.val < 64 := by have := t.isLt; omega
  have ef := idx_facts t
  funext j
  obtain ⟨r, q, rfl⟩ : ∃ (r : Fin 2048) (q : Fin 2), j = ix2 r q := ⟨j 0, j 1, eq_ix2 j⟩
  show out2_7 (F := Ideal) (iblk2 V c 0 t) (iblk2 V c 1 t) (iblk2 V c 2 t) (iblk2 V c 3 t) (iblk2 V c 4 t) (iblk2 V c 5 t) (iblk2 V c 6 t) (ix2 r q)
    = lastLayerArr V c (((cfg2.win 7).blk t).view.emb (ix2 r q))
  have hp : t.val * 2048 + r.val < 131072 := by have := r.isLt; omega
  refine (out_entry (iblk2 V c 0 t) (iblk2 V c 1 t) (iblk2 V c 2 t) (iblk2 V c 3 t) (iblk2 V c 4 t) (iblk2 V c 5 t) (iblk2 V c 6 t) r q).trans ?_
  refine Eq.trans ?_ (lastLayerArr_apply V c (((cfg2.win 7).blk t).view.emb (ix2 r q)) ⟨t.val * 2048 + r.val, hp⟩ q ?_ ?_).symm
  · exact tile_row (V c (Pipeline.arrRef spec2 0)) (iblk2 V c 0 t) (V c (Pipeline.arrRef spec2 1)) (iblk2 V c 1 t)
      (V c (Pipeline.arrRef spec2 4)) (iblk2 V c 4 t) (V c (Pipeline.arrRef spec2 2)) (iblk2 V c 2 t)
      (V c (Pipeline.arrRef spec2 3)) (iblk2 V c 3 t) (V c (Pipeline.arrRef spec2 5)) (iblk2 V c 5 t)
      (V c (Pipeline.arrRef spec2 6)) (iblk2 V c 6 t) r ⟨t.val * 2048 + r.val, hp⟩ q
      (fun l => rows_block V c t r l ⟨t.val * 2048 + r.val, hp⟩ rfl)
      (whole_block1 V c t) (whole_block2 V c t) (whole_block3 V c t) (whole_block4 V c t) (whole_block5 V c t) (whole_block6 V c t)
  · show win2_7.index t (0 : Fin 2) * 2048 + 1 * r.val = t.val * 2048 + r.val
    rw [ef.2.2.2.2.2.2.2.2.2.2.2.2.2.2.1]; omega
  · show win2_7.index t (1 : Fin 2) * 2 + 1 * q.val = q.val
    rw [ef.2.2.2.2.2.2.2.2.2.2.2.2.2.2.2]; omega

/-- An index of the output array is in point t's block iff each coordinate is in the block's range on its axis. -/
theorem mem_blk (t : Fin cfg2.N) (i : S131072x2.Idx) :
    i ∈ ((cfg2.win 7).blk t).view.set ↔ ∀ a : Fin 2, win2_7.index t a * S2048x2.size a ≤ (i a).val ∧ (i a).val < win2_7.index t a * S2048x2.size a + S2048x2.size a := by
  show i ∈ ((View.whole main_v102).slice (win2_7.rect t)).set ↔ _
  rw [View.set_slice_whole, Rect.mem_set_unit]
  exact Iff.rfl

/-- Row p of the output lies in the block of point p / 2048, and every point writes back. -/
theorem covered (i : S131072x2.Idx) :
    ∃ t : Fin cfg2.N, (cfg2.win 7).flush t = true ∧ i ∈ ((cfg2.win 7).blk t).view.set := by
  have hi0 : (i 0).val < 131072 := idx2_lt0 i
  have hi1 : (i 1).val < 2 := idx2_lt1 i
  have hN : cfg2.N = 64 := N_2
  obtain ⟨t, ht⟩ : ∃ t : Fin cfg2.N, t.val = (i 0).val / 2048 := ⟨⟨(i 0).val / 2048, by omega⟩, rfl⟩
  have ef := idx_facts t
  refine ⟨t, flush2_7 t, ?_⟩
  rw [mem_blk]
  intro a
  match a with
  | ⟨0, _⟩ =>
    show win2_7.index t (0 : Fin 2) * 2048 ≤ (i 0).val ∧ (i 0).val < win2_7.index t (0 : Fin 2) * 2048 + 2048
    rw [ef.2.2.2.2.2.2.2.2.2.2.2.2.2.2.1]; omega
  | ⟨1, _⟩ =>
    show win2_7.index t (1 : Fin 2) * 2 ≤ (i 1).val ∧ (i 1).val < win2_7.index t (1 : Fin 2) * 2 + 2
    rw [ef.2.2.2.2.2.2.2.2.2.2.2.2.2.2.2]; omega

/-- The output array after the third pass is the whole-batch output. -/
theorem final (c : Dev nD) : (dat2 (F := Ideal) V c).arrAt 7 cfg2.N = lastLayerArr V c :=
  (dat2 (F := Ideal) V c).arrAt_eq_of_cover 7 (lastLayerArr V c) (fun t _ => flushed_eq V c t) covered

/-- Entry (p, q) of the output array after the third pass: the last layer's affine map of the second layer of row p,
    quantized with the second activation step, the second layer computed from row p of the first layer's output
    quantized with the first activation step. -/
theorem region2_value (c : Dev nD) (p : Fin 131072) (q : Fin 2) :
    (dat2 (F := Ideal) V c).arrAt 7 cfg2.N (ix2 p q)
      = affine (fun (i : Fin 131072) (k : Fin 64) => quant 0 (lit 0x42FE0000#32) ((V c (Pipeline.arrRef spec2 4) : S1x1.Idx → EReal) (ix2 (0 : Fin 1) (0 : Fin 1)))
          (dense (fun (i : Fin 131072) (l : Fin 64) => quant 0 (lit 0x42FE0000#32) ((V c (Pipeline.arrRef spec2 1) : S1x1.Idx → EReal) (ix2 (0 : Fin 1) (0 : Fin 1))) ((V c (Pipeline.arrRef spec2 0) : S131072x64.Idx → EReal) (ix2 i l)))
            (fun (j l : Fin 64) => (V c (Pipeline.arrRef spec2 2) : S64x64.Idx → EReal) (ix2 l j)) (fun j : Fin 64 => (V c (Pipeline.arrRef spec2 3) : S1x64.Idx → EReal) (ix2 (0 : Fin 1) j)) i k))
          (fun (j : Fin 2) (k : Fin 64) => (V c (Pipeline.arrRef spec2 5) : S64x2.Idx → EReal) (ix2 k j)) (fun j : Fin 2 => (V c (Pipeline.arrRef spec2 6) : S1x2.Idx → EReal) (ix2 (0 : Fin 1) j)) p q :=
  (congrFun (final V c) (ix2 p q)).trans (lastLayerArr_apply V c (ix2 p q) p q rfl rfl)

end Arrays

end Cert.KernelIdeal.RegionValue

end
-- ==== Proof.KernelValue.lean ====
/-
  The kernel's result is the network's output.

  The kernel runs the network in three passes over the batch.  The first pass computes the first rectified layer and,
  per core, the running maximum of its entries; the host takes the first activation step from the larger of the two
  running maxima, which is the largest entry of the layer because the layer is nonnegative and the maxima start at
  zero.  The second pass recomputes the second rectified layer tile by tile only to take its running maxima, from which
  the host takes the second step the same way.  The third pass recomputes the second layer and applies the third.
  Each pass, read at the arrays it finds, is the corresponding tensor of the network; chaining the three gives the
  network's output entry by entry.
-/
import proofs.«161439_j163208757492_2_alg».proof.Proof.KernelRun
import proofs.«161439_j163208757492_2_alg».proof.Proof.HostValue
import proofs.«161439_j163208757492_2_alg».proof.Proof.Region0
import proofs.«161439_j163208757492_2_alg».proof.Proof.Region1
import proofs.«161439_j163208757492_2_alg».proof.Proof.Region2
import proofs.«161439_j163208757492_2_alg».proof.Proof.SpecReal
import proofs.«161439_j163208757492_2_alg».proof.Proof.Bridge

noncomputable section

namespace Cert.KernelIdeal.NetValue

open Idealize.ShloMosaic Idealize.ShloMosaic.TcCoe Idealize.SL.Sem Idealize.ShloMosaic.ValueIdx
open Cert.KernelIdeal Cert.KernelIdeal.Gen Cert.QuantNet Cert.RealValued Cert.KernelIdeal.RunValue

/-! ## The layers as the passes find them -/

section Layers

variable (V : (c : Dev nD) → (b : Ref sig .tc) → Buf (Elt Ideal) ((c : Thread nD τ).loc b)) (c : Dev nD)

/-- The first rectified layer over the whole batch, from the three arrays the first pass reads. -/
def L0 : Fin 131072 → Fin 64 → EReal :=
  dense (x0 (cur2 (V c (Pipeline.arrRef spec0 0) : S131072x512.Idx → EReal)))
    (fun (j : Fin 64) (k : Fin 512) => (V c (Pipeline.arrRef spec0 1) : S512x64.Idx → EReal) (ix2 k j))
    (fun j : Fin 64 => (V c (Pipeline.arrRef spec0 2) : S1x64.Idx → EReal) (ix2 (0 : Fin 1) j))

/-- The second rectified layer over the whole batch, from the four arrays the second pass reads. -/
def L1 : Fin 131072 → Fin 64 → EReal :=
  dense (fun (i : Fin 131072) (l : Fin 64) => quant 0 (lit 0x42FE0000#32)
      ((V c (Pipeline.arrRef spec1 1) : S1x1.Idx → EReal) (ix2 (0 : Fin 1) (0 : Fin 1)))
      ((V c (Pipeline.arrRef spec1 0) : S131072x64.Idx → EReal) (ix2 i l)))
    (fun (j l : Fin 64) => (V c (Pipeline.arrRef spec1 2) : S64x64.Idx → EReal) (ix2 l j))
    (fun j : Fin 64 => (V c (Pipeline.arrRef spec1 3) : S1x64.Idx → EReal) (ix2 (0 : Fin 1) j))

end Layers

/-- The largest entry of the [2,8,128] array of the cores' running maxima of a nonnegative tensor is the tensor's
    largest entry. -/
theorem sup_cores (A : S2x8x128.Idx → EReal) (r : Fin 131072 → Fin 64 → EReal) (h0 : ∀ i j, 0 ≤ r i j)
    (hA : ∀ (cc : Fin 2) (a : Fin 8) (b : Fin 128), A (ix3 cc a b) = coreMax 65536 r cc.val) :
    Finset.univ.sup A = supOf r := by
  refine sup_coreMax 65536 r h0 A (fun i => (i 0).val) (fun i => ?_) (fun p => ?_)
  · exact (congrArg A (eq_ix3 i)).trans (hA (i 0) (i 1) (i 2))
  · exact ⟨ix3 ⟨p.val / 65536, by have := p.isLt; omega⟩ 0 0, rfl⟩

/-! ## Each pass at abstract entry contents -/

section Abstract

variable (V : (c : Dev nD) → (b : Ref sig .tc) → Buf (Elt Ideal) ((c : Thread nD τ).loc b)) (c : Dev nD)

/-- The first pass's layer, when its three arrays are the input, the quantized weights transposed and the bias. -/
theorem layer1_of (x : S131072x512.Idx → EReal) (W : Fin 64 → Fin 512 → EReal) (b : Fin 64 → EReal)
    (h0 : (V c (Pipeline.arrRef spec0 0) : S131072x512.Idx → EReal) = x)
    (h1 : ∀ k j, (V c (Pipeline.arrRef spec0 1) : S512x64.Idx → EReal) (ix2 k j) = W j k)
    (h2 : ∀ j, (V c (Pipeline.arrRef spec0 2) : S1x64.Idx → EReal) (ix2 0 j) = b j) :
    L0 V c = dense (x0 (cur2 x)) W b := by
  unfold L0
  rw [h0]
  congr 1
  · funext j k; exact h1 k j
  · funext j; exact h2 j

/-- The second pass's layer, from the first layer, its step, and the second layer's quantized weights and bias. -/
theorem layer2_of (r : Fin 131072 → Fin 64 → EReal) (s : EReal) (W : Fin 64 → Fin 64 → EReal) (b : Fin 64 → EReal)
    (h0 : ∀ i l, (V c (Pipeline.arrRef spec1 0) : S131072x64.Idx → EReal) (ix2 i l) = r i l)
    (h1 : (V c (Pipeline.arrRef spec1 1) : S1x1.Idx → EReal) (ix2 0 0) = s)
    (h2 : ∀ l j, (V c (Pipeline.arrRef spec1 2) : S64x64.Idx → EReal) (ix2 l j) = W j l)
    (h3 : ∀ j, (V c (Pipeline.arrRef spec1 3) : S1x64.Idx → EReal) (ix2 0 j) = b j) :
    L1 V c = dense (fun i l => quant 0 (lit 0x42FE0000#32) s (r i l)) W b := by
  unfold L1
  rw [h1]
  congr 1
  · funext i l; rw [h0]
  · funext j l; exact h2 l j
  · funext j; exact h3 j

/-- The third pass's result, from the first layer, the two steps, and the last two layers' weights and biases. -/
theorem out_of (r : Fin 131072 → Fin 64 → EReal) (s s' : EReal) (W : Fin 64 → Fin 64 → EReal) (b : Fin 64 → EReal)
    (W' : Fin 2 → Fin 64 → EReal) (b' : Fin 2 → EReal)
    (h0 : ∀ i l, (V c (Pipeline.arrRef spec2 0) : S131072x64.Idx → EReal) (ix2 i l) = r i l)
    (h1 : (V c (Pipeline.arrRef spec2 1) : S1x1.Idx → EReal) (ix2 0 0) = s)
    (h2 : ∀ l j, (V c (Pipeline.arrRef spec2 2) : S64x64.Idx → EReal) (ix2 l j) = W j l)
    (h3 : ∀ j, (V c (Pipeline.arrRef spec2 3) : S1x64.Idx → EReal) (ix2 0 j) = b j)
    (h4 : (V c (Pipeline.arrRef spec2 4) : S1x1.Idx → EReal) (ix2 0 0) = s')
    (h5 : ∀ k j, (V c (Pipeline.arrRef spec2 5) : S64x2.Idx → EReal) (ix2 k j) = W' j k)
    (h6 : ∀ j, (V c (Pipeline.arrRef spec2 6) : S1x2.Idx → EReal) (ix2 0 j) = b' j) (p : Fin 131072) (q : Fin 2) :
    (Gen.dat2 (F := Ideal) V c).arrAt 7 cfg2.N (ix2 p q)
      = affine (fun i k => quant 0 (lit 0x42FE0000#32) s' (dense (fun i l => quant 0 (lit 0x42FE0000#32) s (r i l)) W b i k)) W' b' p q := by
  rw [Cert.KernelIdeal.RegionValue.region2_value, h1, h4]
  congr 1
  · funext i k
    congr 2
    · funext i l; rw [h0]
    · funext j l; exact h2 l j
    · funext j; exact h3 j
  · funext j k; exact h5 k j
  · funext j; exact h6 j

end Abstract

/-! ## The three passes chained -/

section Chain

variable (m : (ℓ : Loc nD τ sig) → Buf (Elt Ideal) ℓ) (ρ : Dev nD → PrngReg) (c : Dev nD)

/-- The input by coordinates. -/
abbrev xa : Fin 131072 → Fin 512 → EReal := cur2 (m ((c : Thread nD τ).loc main_arg0) : FVec Ideal S131072x512 .f32)

theorem layer1_eq : L0 (Gen.V7 m ρ) c = r1 (xa m c) (W1a m c) (b1a m c) :=
  layer1_of (Gen.V7 m ρ) c _ _ _ (x_at_pass1 m ρ c) (fun k j => wq1_at_pass1 m ρ c k j) (fun j => bq1_at_pass1 m ρ c j)

theorem arr3_eq (p : Fin 131072) (q : Fin 64) :
    ((Gen.dat0 (F := Ideal) (Gen.V7 m ρ) c).arrAt 3 cfg0.N : S131072x64.Idx → EReal) (ix2 p q) = r1 (xa m c) (W1a m c) (b1a m c) p q :=
  (Cert.KernelIdeal.RegionValue.region0_r1 (Gen.V7 m ρ) c p q).trans (congrFun (congrFun (layer1_eq m ρ c) p) q)

theorem S1_eq : RunValue.S1 m ρ c = s1 (xa m c) (W1a m c) (b1a m c) :=
  congrArg scaleOf (sup_cores _ (r1 (xa m c) (W1a m c) (b1a m c)) (fun i j => dense_nonneg _ _ _ i j)
    (fun cc a b => (Cert.KernelIdeal.RegionValue.region0_m1 (Gen.V7 m ρ) c cc a b).trans (congrArg (fun r => coreMax 65536 r cc.val) (layer1_eq m ρ c))))

theorem layer2_eq : L1 (Gen.V15 m ρ) c = r2 (xa m c) (W1a m c) (b1a m c) (W2a m c) (b2a m c) :=
  layer2_of (Gen.V15 m ρ) c _ _ _ _
    (fun i l => (congrFun (r1_at_pass2 m ρ c) (ix2 i l)).trans (arr3_eq m ρ c i l))
    ((s1_at_pass2 m ρ c).trans (S1_eq m ρ c)) (fun l j => wq2_at_pass2 m ρ c l j)
    (fun j => (bq2_at_pass2 m ρ c j).trans (congrArg (fun s => bq s (W2a m c) (b2a m c) j) (S1_eq m ρ c)))

theorem S2_eq : RunValue.S2 m ρ c = s2 (xa m c) (W1a m c) (b1a m c) (W2a m c) (b2a m c) :=
  congrArg scaleOf (sup_cores _ (r2 (xa m c) (W1a m c) (b1a m c) (W2a m c) (b2a m c)) (fun i j => dense_nonneg _ _ _ i j)
    (fun cc a b => (Cert.KernelIdeal.RegionValue1.region1_value (Gen.V15 m ρ) c cc a b).trans (congrArg (fun r => coreMax 65536 r cc.val) (layer2_eq m ρ c))))

/-- The kernel's result at an entry is the network's output there. -/
theorem kernel_out_at (p : Fin 131072) (q : Fin 2) :
    (Gen.W24 m ρ c (Proc.devRef .tc main_v102) : S131072x2.Idx → EReal) (ix2 p q)
      = QuantNet.out (xa m c) (W1a m c) (b1a m c) (W2a m c) (b2a m c) (W3a m c) (b3a m c) p q :=
  (congrFun (out_read m ρ c) (ix2 p q)).trans
    (out_of (Gen.V23 m ρ) c _ _ _ _ _ _ _
      (fun i l => (congrFun (r1_at_pass3 m ρ c) (ix2 i l)).trans (arr3_eq m ρ c i l))
      ((s1_at_pass3' m ρ c).trans (S1_eq m ρ c)) (fun l j => wq2_at_pass3' m ρ c l j)
      (fun j => (bq2_at_pass3' m ρ c j).trans (congrArg (fun s => bq s (W2a m c) (b2a m c) j) (S1_eq m ρ c)))
      ((s2_at_pass3 m ρ c).trans (S2_eq m ρ c)) (fun k j => wq3_at_pass3 m ρ c k j)
      (fun j => (bq3_at_pass3 m ρ c j).trans (congrArg (fun s => bq s (W3a m c) (b3a m c) j) (S2_eq m ρ c))) p q)

/-- The kernel's result array is the network's output array. -/
theorem kernel_out : Gen.W24 m ρ c (Proc.devRef .tc main_v102)
    = Cert.Proof.RefSide.outArr (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  funext i
  exact (congrArg (Gen.W24 m ρ c (Proc.devRef .tc main_v102) : S131072x2.Idx → EReal) (eq_ix2 i)).trans
    (kernel_out_at m ρ c (i 0) (i 1))

end Chain

end Cert.KernelIdeal.NetValue

end
-- ==== Proof.lean ====
/-
  The certificate's claim for a three-layer fully connected network with simulated 8-bit quantization (512 → 64 → 64 → 2
  over a batch of 131072 rows): a three-pass kernel against the plain network.

  Mathematics.  Both programs compute, over the extended reals, the network of Proof/Spec.lean: every tensor entering a
  matrix product is rounded to a power-of-two grid whose step comes from the largest magnitude of the whole tensor.
  The reference writes each rounded tensor in straight-through form x + (q - x); the kernel writes q.  The two agree
  wherever x is a real number, and from real inputs (the precondition) every tensor of the network is real-valued
  (Proof/SpecReal.lean).  The kernel takes an activation's step from per-core running maxima started at zero; the
  activations are rectified, hence nonnegative, so the largest running maximum is the tensor's largest entry, which is
  also its largest magnitude.  A matrix product accumulated on the matrix unit and the host's contraction are the same
  finite sum, a change of float format is the identity, and the tiling of the batch does not matter because a row of
  a layer depends on the same row of its input only.

  The three frames are the programs' runs with the results dropped.  Nothing was rewritten by the idealization, so
  the fourth conjunct is trivial.  The fifth pairs the kernel's run, its result array named entry by entry
  (Proof/KernelValue.lean), with the reference's run read stage by stage (Proof/RefRead.lean, Proof/Bridge.lean).
-/
import proofs.«161439_j163208757492_2_alg».proof.Defs
import proofs.«161439_j163208757492_2_alg».proof.Proof.Gen.Kernel
import proofs.«161439_j163208757492_2_alg».proof.Proof.Gen.Kernel.Skeleton
import proofs.«161439_j163208757492_2_alg».proof.Proof.Gen.Kernel.Launch
import proofs.«161439_j163208757492_2_alg».proof.Proof.Gen.Kernel.Points
import proofs.«161439_j163208757492_2_alg».proof.Proof.Gen.Kernel.Frame
import proofs.«161439_j163208757492_2_alg».proof.Proof.Gen.KernelIdeal
import proofs.«161439_j163208757492_2_alg».proof.Proof.Gen.KernelIdeal.Skeleton
import proofs.«161439_j163208757492_2_alg».proof.Proof.Gen.KernelIdeal.Launch
import proofs.«161439_j163208757492_2_alg».proof.Proof.Gen.KernelIdeal.Points
import proofs.«161439_j163208757492_2_alg».proof.Proof.Gen.KernelIdeal.Frame
import proofs.«161439_j163208757492_2_alg».proof.Proof.Gen.ReferenceIdeal
import proofs.«161439_j163208757492_2_alg».proof.Proof.Gen.Pre_finite_inputs
import proofs.«161439_j163208757492_2_alg».proof.Proof.Gen.ReferenceIdeal.Run
import proofs.«161439_j163208757492_2_alg».proof.Proof.Gen.ReferenceIdeal.Read
import proofs.«161439_j163208757492_2_alg».proof.Proof.PreReal
import proofs.«161439_j163208757492_2_alg».proof.Proof.Bridge
import proofs.«161439_j163208757492_2_alg».proof.Proof.KernelValue
import Idealize.ShloMosaic.Adequacy
import Idealize.ShloMosaic.Init

noncomputable section

namespace Cert.Proof

open Idealize.ShloMosaic Idealize.SL.Sem Cert.QuantNet Cert.RealValued

/-- The word-level kernel runs, and its arguments end unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's output of the (shared, real-valued) inputs in their result arrays. -/
theorem algebraic : Cert.algebraic_KernelIdeal_ReferenceIdeal := by
  intro m ρ m' ρ' hpre hagree
  refine ⟨fun c => RefSide.outArr (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)) (m ((c.tc : Thread _ _).loc Cert.KernelIdeal.main_arg4))
    (m ((c.tc : Thread _ _).loc Cert.KernelIdeal.main_arg5)) (m ((c.tc : Thread _ _).loc Cert.KernelIdeal.main_arg6)), ?_, ?_⟩
  · refine (θ_run Cert.KernelIdeal.defs _ _).mono (fun r h c => ?_) (Cert.KernelIdeal.RunValue.run_all m ρ)
    exact ⟨(h c _ (Cert.KernelIdeal.Gen.mem_uc Cert.KernelIdeal.main_v102 (by decide))).trans
        (Cert.KernelIdeal.NetValue.kernel_out m ρ c),
      (h c _ (Cert.KernelIdeal.Gen.mem_uc Cert.KernelIdeal.main_arg0 (by decide))).trans (Cert.KernelIdeal.Gen.W24_main_arg0 m ρ c),
      (h c _ (Cert.KernelIdeal.Gen.mem_uc Cert.KernelIdeal.main_arg1 (by decide))).trans (Cert.KernelIdeal.Gen.W24_main_arg1 m ρ c),
      (h c _ (Cert.KernelIdeal.Gen.mem_uc Cert.KernelIdeal.main_arg2 (by decide))).trans (Cert.KernelIdeal.Gen.W24_main_arg2 m ρ c),
      (h c _ (Cert.KernelIdeal.Gen.mem_uc Cert.KernelIdeal.main_arg3 (by decide))).trans (Cert.KernelIdeal.Gen.W24_main_arg3 m ρ c),
      (h c _ (Cert.KernelIdeal.Gen.mem_uc Cert.KernelIdeal.main_arg4 (by decide))).trans (Cert.KernelIdeal.Gen.W24_main_arg4 m ρ c),
      (h c _ (Cert.KernelIdeal.Gen.mem_uc Cert.KernelIdeal.main_arg5 (by decide))).trans (Cert.KernelIdeal.Gen.W24_main_arg5 m ρ c),
      (h c _ (Cert.KernelIdeal.Gen.mem_uc Cert.KernelIdeal.main_arg6 (by decide))).trans (Cert.KernelIdeal.Gen.W24_main_arg6 m ρ c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.Pre_finite_inputs.PreValue.args_real _ _ _ _ _ _ _ (hpre c)
    obtain ⟨e0, e1, e2, e3, e4, e5, e6⟩ := hagree c
    rw [Cert.ReferenceIdeal.Read.val_main_v143_eq, e0, e1, e2, e3, e4, e5, e6]
    exact RefSide.ref_value _ _ _ _ _ _ _ h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
